-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x6 : Shape := ⟨2, ![500000, 6]⟩
abbrev S500000x4 : Shape := ⟨2, ![500000, 4]⟩
abbrev S4 : Shape := ⟨1, ![4]⟩
abbrev S128x10 : Shape := ⟨2, ![128, 10]⟩
abbrev S128 : Shape := ⟨1, ![128]⟩
abbrev S15x128 : Shape := ⟨2, ![15, 128]⟩
abbrev S15 : Shape := ⟨1, ![15]⟩
abbrev S4x128 : Shape := ⟨2, ![4, 128]⟩
abbrev S_ : Shape := ⟨0, ![]⟩

class Facts : Prop where
  bcast_S_S500000x6 : S_.BroadcastsInDim S500000x6 (![] : Fin 0 → Fin S500000x6.rank)
  reducesTo_S500000x6_S_d0_1 : S500000x6.ReducesTo [0, 1] S_
  h_S_ : 0 < S_.numel
  bcast_S_S500000x4 : S_.BroadcastsInDim S500000x4 (![] : Fin 0 → Fin S500000x4.rank)
  reducesTo_S500000x4_S_d0_1 : S500000x4.ReducesTo [0, 1] S_
  bcast_S_S4 : S_.BroadcastsInDim S4 (![] : Fin 0 → Fin S4.rank)
  reducesTo_S4_S_d0 : S4.ReducesTo [0] S_
  bcast_S_S128x10 : S_.BroadcastsInDim S128x10 (![] : Fin 0 → Fin S128x10.rank)
  reducesTo_S128x10_S_d0_1 : S128x10.ReducesTo [0, 1] S_
  bcast_S_S128 : S_.BroadcastsInDim S128 (![] : Fin 0 → Fin S128.rank)
  reducesTo_S128_S_d0 : S128.ReducesTo [0] S_
  bcast_S_S15x128 : S_.BroadcastsInDim S15x128 (![] : Fin 0 → Fin S15x128.rank)
  reducesTo_S15x128_S_d0_1 : S15x128.ReducesTo [0, 1] S_
  bcast_S_S15 : S_.BroadcastsInDim S15 (![] : Fin 0 → Fin S15.rank)
  reducesTo_S15_S_d0 : S15.ReducesTo [0] S_
  bcast_S_S4x128 : S_.BroadcastsInDim S4x128 (![] : Fin 0 → Fin S4x128.rank)
  reducesTo_S4x128_S_d0_1 : S4x128.ReducesTo [0, 1] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S128x10 .f32) (main_arg8 : FVec F S128 .f32) (main_arg9 : FVec F S4x128 .f32) (main_arg10 : FVec F S4 .f32) (main_v33 : IVec S_ 1) : IVec S_ 1 :=
  let main_v34 : FVec F S128x10 .f32 := Host.absf main_arg7
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4x128 .f32 := Host.absf main_arg9
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S128 .f32) (main_arg5 : FVec F S15x128 .f32) (main_arg6 : FVec F S15 .f32) (main_arg7 : FVec F S128x10 .f32) (main_arg8 : FVec F S128 .f32) (main_arg9 : FVec F S4x128 .f32) (main_arg10 : FVec F S4 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S15x128 .f32 := Host.absf main_arg5
  let main_cst_8 : FVec F S_ .f32 := constant S_ .f32 0x7F800000#32
  let main_v25 : FVec F S15x128 .f32 := broadcastInDim S15x128 ![] bcast_S_S15x128 main_cst_8
  let main_v26 : IVec S15x128 1 := cmpf .olt main_v24 main_v25
  let main_c_9 : IVec S_ 1 := constantI S_ 1 1#1
  let main_v27 : IVec S_ 1 := (fun x v => Host.reduce IntOp.andi x v reducesTo_S15x128_S_d0_1 h_S_) main_v26 main_c_9
  let main_v28 : IVec S_ 1 := andi main_v23 main_v27
  let main_v29 : FVec F S15 .f32 := Host.absf main_arg6
  let main_cst_10 : FVec F S_ .f32 := constant S_ .f32 0x7F800000#32
  let main_v30 : FVec F S15 .f32 := broadcastInDim S15 ![] bcast_S_S15 main_cst_10
  let main_v31 : IVec S15 1 := cmpf .olt main_v29 main_v30
  let main_c_11 : IVec S_ 1 := constantI S_ 1 1#1
  let main_v32 : IVec S_ 1 := (fun x v => Host.reduce IntOp.andi x v reducesTo_S15_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S500000x6 .f32) (main_arg1 : FVec F S500000x4 .f32) (main_arg2 : FVec F S4 .f32) (main_arg3 : FVec F S128x10 .f32) (main_arg4 : FVec F S128 .f32) (main_arg5 : FVec F S15x128 .f32) (main_arg6 : FVec F S15 .f32) (main_arg7 : FVec F S128x10 .f32) (main_arg8 : FVec F S128 .f32) (main_arg9 : FVec F S4x128 .f32) (main_arg10 : FVec F S4 .f32) : IVec S_ 1 :=
  let main_v0 : FVec F S500000x6 .f32 := Host.absf main_arg0
  let main_cst : FVec F S_ .f32 := constant S_ .f32 0x7F800000#32
  let main_v1 : FVec F S500000x6 .f32 := broadcastInDim S500000x6 ![] bcast_S_S500000x6 main_cst
  let main_v2 : IVec S500000x6 1 := cmpf .olt main_v0 main_v1
  let main_c : IVec S_ 1 := constantI S_ 1 1#1
  let main_v3 : IVec S_ 1 := (fun x v => Host.reduce IntOp.andi x v reducesTo_S500000x6_S_d0_1 h_S_) main_v2 main_c
  let main_v4 : FVec F S500000x4 .f32 := Host.absf main_arg1
  let main_cst_0 : FVec F S_ .f32 := constant S_ .f32 0x7F800000#32
  let main_v5 : FVec F S500000x4 .f32 := broadcastInDim S500000x4 ![] bcast_S_S500000x4 main_cst_0
  let main_v6 : IVec S500000x4 1 := cmpf .olt main_v4 main_v5
  let main_c_1 : IVec S_ 1 := constantI S_ 1 1#1
  let main_v7 : IVec S_ 1 := (fun x v => Host.reduce IntOp.andi x v reducesTo_S500000x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S128x10 .f32 := Host.absf main_arg3
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg4 main_arg5 main_arg6 main_arg7 main_arg8 main_arg9 main_arg10 main_v13 main_v16
-- ==== Kernel.lean ====
abbrev S500000x6 : Shape := ⟨2, ![500000, 6]⟩
abbrev S500000x4 : Shape := ⟨2, ![500000, 4]⟩
abbrev S4 : Shape := ⟨1, ![4]⟩
abbrev S128x10 : Shape := ⟨2, ![128, 10]⟩
abbrev S128 : Shape := ⟨1, ![128]⟩
abbrev S15x128 : Shape := ⟨2, ![15, 128]⟩
abbrev S15 : Shape := ⟨1, ![15]⟩
abbrev S4x128 : Shape := ⟨2, ![4, 128]⟩
abbrev S24x15 : Shape := ⟨2, ![24, 15]⟩
abbrev S24x6 : Shape := ⟨2, ![24, 6]⟩
abbrev S24x4 : Shape := ⟨2, ![24, 4]⟩
abbrev S4x24 : Shape := ⟨2, ![4, 24]⟩
abbrev S6x500000 : Shape := ⟨2, ![6, 500000]⟩
abbrev S4x500000 : Shape := ⟨2, ![4, 500000]⟩
abbrev S_ : Shape := ⟨0, ![]⟩
abbrev S6x507904 : Shape := ⟨2, ![6, 507904]⟩
abbrev S4x507904 : Shape := ⟨2, ![4, 507904]⟩
abbrev S4x1 : Shape := ⟨2, ![4, 1]⟩
abbrev S128x1 : Shape := ⟨2, ![128, 1]⟩
abbrev S15x1 : Shape := ⟨2, ![15, 1]⟩
abbrev S6x16384 : Shape := ⟨2, ![6, 16384]⟩
abbrev S4x16384 : Shape := ⟨2, ![4, 16384]⟩
abbrev S10x16384 : Shape := ⟨2, ![10, 16384]⟩
abbrev S128x16384 : Shape := ⟨2, ![128, 16384]⟩
abbrev S15x16384 : Shape := ⟨2, ![15, 16384]⟩
abbrev S2x16384 : Shape := ⟨2, ![2, 16384]⟩
abbrev S24x16384 : Shape := ⟨2, ![24, 16384]⟩

abbrev nBuf : Space → Nat
  | .hbm => 31
  | .vmem => 19
  | .smem => 0
  | _ => 0

abbrev bufTy : (tb : Table) → Fin (tcTables nBuf tb) → BufTy
  | .hbm, ⟨0, _⟩ => ⟨S500000x6, .f32⟩
  | .hbm, ⟨1, _⟩ => ⟨S500000x4, .f32⟩
  | .hbm, ⟨2, _⟩ => ⟨S4, .f32⟩
  | .hbm, ⟨3, _⟩ => ⟨S128x10, .f32⟩
  | .hbm, ⟨4, _⟩ => ⟨S128, .f32⟩
  | .hbm, ⟨5, _⟩ => ⟨S15x128, .f32⟩
  | .hbm, ⟨6, _⟩ => ⟨S15, .f32⟩
  | .hbm, ⟨7, _⟩ => ⟨S128x10, .f32⟩
  | .hbm, ⟨8, _⟩ => ⟨S128, .f32⟩
  | .hbm, ⟨9, _⟩ => ⟨S4x128, .f32⟩
  | .hbm, ⟨10, _⟩ => ⟨S4, .f32⟩
  | .hbm, ⟨11, _⟩ => ⟨S24x15, .f32⟩
  | .hbm, ⟨12, _⟩ => ⟨S24x6, .f32⟩
  | .hbm, ⟨13, _⟩ => ⟨S24x4, .f32⟩
  | .hbm, ⟨14, _⟩ => ⟨S4x24, .f32⟩
  | .hbm, ⟨15, _⟩ => ⟨S6x500000, .f32⟩
  | .hbm, ⟨16, _⟩ => ⟨S4x500000, .f32⟩
  | .hbm, ⟨17, _⟩ => ⟨S_, .i32⟩
  | .hbm, ⟨18, _⟩ => ⟨S_, .f32⟩
  | .hbm, ⟨19, _⟩ => ⟨S6x507904, .f32⟩
  | .hbm, ⟨20, _⟩ => ⟨S_, .i32⟩
  | .hbm, ⟨21, _⟩ => ⟨S_, .f32⟩
  | .hbm, ⟨22, _⟩ => ⟨S4x507904, .f32⟩
  | .hbm, ⟨23, _⟩ => ⟨S4x1, .f32⟩
  | .hbm, ⟨24, _⟩ => ⟨S128x1, .f32⟩
  | .hbm, ⟨25, _⟩ => ⟨S15x1, .f32⟩
  | .hbm, ⟨26, _⟩ => ⟨S128x1, .f32⟩
  | .hbm, ⟨27, _⟩ => ⟨S4x1, .f32⟩
  | .hbm, ⟨28, _⟩ => ⟨S4x507904, .f32⟩
  | .hbm, ⟨29, _⟩ => ⟨S4x500000, .f32⟩
  | .hbm, ⟨30, _⟩ => ⟨S500000x4, .f32⟩
  | .local _ .vmem, ⟨0, _⟩ => ⟨S6x16384, .f32⟩
  | .local _ .vmem, ⟨1, _⟩ => ⟨S6x16384, .f32⟩
  | .local _ .vmem, ⟨2, _⟩ => ⟨S4x16384, .f32⟩
  | .local _ .vmem, ⟨3, _⟩ => ⟨S4x16384, .f32⟩
  | .local _ .vmem, ⟨4, _⟩ => ⟨S4x1, .f32⟩
  | .local _ .vmem, ⟨5, _⟩ => ⟨S128x10, .f32⟩
  | .local _ .vmem, ⟨6, _⟩ => ⟨S128x1, .f32⟩
  | .local _ .vmem, ⟨7, _⟩ => ⟨S15x128, .f32⟩
  | .local _ .vmem, ⟨8, _⟩ => ⟨S15x1, .f32⟩
  | .local _ .vmem, ⟨9, _⟩ => ⟨S128x10, .f32⟩
  | .local _ .vmem, ⟨10, _⟩ => ⟨S128x1, .f32⟩
  | .local _ .vmem, ⟨11, _⟩ => ⟨S4x128, .f32⟩
  | .local _ .vmem, ⟨12, _⟩ => ⟨S4x1, .f32⟩
  | .local _ .vmem, ⟨13, _⟩ => ⟨S24x15, .f32⟩
  | .local _ .vmem, ⟨14, _⟩ => ⟨S24x6, .f32⟩
  | .local _ .vmem, ⟨15, _⟩ => ⟨S24x4, .f32⟩
  | .local _ .vmem, ⟨16, _⟩ => ⟨S4x24, .f32⟩
  | .local _ .vmem, ⟨17, _⟩ => ⟨S4x16384, .f32⟩
  | .local _ .vmem, ⟨18, _⟩ => ⟨S4x16384, .f32⟩
  | _, _ => ⟨S500000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_c_3 : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S24x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S24x6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S24x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x24 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x16384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S500000x6_S6x500000_1_0 : S500000x6.Transposes [1, 0] S6x500000
  transposes_S500000x4_S4x500000_1_0 : S500000x4.Transposes [1, 0] S4x500000
  pads_S6x500000_S6x507904_000_079040 : S6x500000.Pads (![0, 0] : Fin 2 → Nat) ![0, 7904] ![0, 0] S6x507904
  h_S_ : 0 < S_.numel
  pads_S4x500000_S4x507904_000_079040 : S4x500000.Pads (![0, 0] : Fin 2 → Nat) ![0, 7904] ![0, 0] S4x507904
  shapeCasts_S4_S4x1 : S4.ShapeCasts S4x1
  shapeCasts_S128_S128x1 : S128.ShapeCasts S128x1
  shapeCasts_S15_S15x1 : S15.ShapeCasts S15x1
  inb_S6x16384_S6x16384_0_0 : ∀ a, (![0, 0] : Fin 2 → Nat) a + S6x16384.size a ≤ S6x16384.size a
  h_S6x16384 : 0 < S6x16384.numel
  shapeCasts_S6x16384_S6x16384 : S6x16384.ShapeCasts S6x16384
  inb_S4x16384_S4x16384_0_0 : ∀ a, (![0, 0] : Fin 2 → Nat) a + S4x16384.size a ≤ S4x16384.size a
  h_S4x16384 : 0 < S4x16384.numel
  shapeCasts_S4x16384_S4x16384 : S4x16384.ShapeCasts S4x16384
  concatenates_S6x16384_S4x16384_S10x16384_d0 : Shape.Concatenates [S6x16384, S4x16384] S10x16384 0
  bitsLt_bf16_f32 : FTy.bits .bf16 < FTy.bits .f32
  inb_S128x10_S128x10_0_0 : ∀ a, (![0, 0] : Fin 2 → Nat) a + S128x10.size a ≤ S128x10.size a
  h_S128x10 : 0 < S128x10.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  inb_S15x128_S15x128_0_0 : ∀ a, (![0, 0] : Fin 2 → Nat) a + S15x128.size a ≤ S15x128.size a
  h_S15x128 : 0 < S15x128.numel
  inb_S15x1_S15x1_0_0 : ∀ a, (![0, 0] : Fin 2 → Nat) a + S15x1.size a ≤ S15x1.size a
  h_S15x1 : 0 < S15x1.numel
  shapeCasts_S15x1_S15x1 : S15x1.ShapeCasts S15x1
  broadcasts_S15x1_S15x16384 : S15x1.Broadcasts S15x16384
  inb_S4x128_S4x128_0_0 : ∀ a, (![0, 0] : Fin 2 → Nat) a + S4x128.size a ≤ S4x128.size a
  h_S4x128 : 0 < S4x128.numel
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x16384 : S4x1.Broadcasts S4x16384
  slices_S6x16384_o4_0_S2x16384 : S6x16384.Slices ![4, 0] S2x16384
  concatenates_S4x16384_S2x16384_S6x16384_d0 : Shape.Concatenates [S4x16384, S2x16384] S6x16384 0
  inb_S24x15_S24x15_0_0 : ∀ a, (![0, 0] : Fin 2 → Nat) a + S24x15.size a ≤ S24x15.size a
  h_S24x15 : 0 < S24x15.numel
  inb_S24x6_S24x6_0_0 : ∀ a, (![0, 0] : Fin 2 → Nat) a + S24x6.size a ≤ S24x6.size a
  h_S24x6 : 0 < S24x6.numel
  inb_S24x4_S24x4_0_0 : ∀ a, (![0, 0] : Fin 2 → Nat) a + S24x4.size a ≤ S24x4.size a
  h_S24x4 : 0 < S24x4.numel
  inb_S4x24_S4x24_0_0 : ∀ a, (![0, 0] : Fin 2 → Nat) a + S4x24.size a ≤ S4x24.size a
  h_S4x24 : 0 < S4x24.numel
  slices_S4x507904_S4x500000_0_0 : S4x507904.Slices ![0, 0] S4x500000
  transposes_S4x500000_S500000x4_1_0 : S4x500000.Transposes [1, 0] S500000x4
  dot_S128x10_S10x16384_S128x16384_1_0_0_1_n_n_wf : DotDims.WF S128x10 S10x16384 S128x16384 [1] [0] [0] [1] [] []
  dot_S15x128_S128x16384_S15x16384_1_0_0_1_n_n_wf : DotDims.WF S15x128 S128x16384 S15x16384 [1] [0] [0] [1] [] []
  dot_S4x128_S128x16384_S4x16384_1_0_0_1_n_n_wf : DotDims.WF S4x128 S128x16384 S4x16384 [1] [0] [0] [1] [] []
  dot_S24x15_S15x16384_S24x16384_1_0_0_1_n_n_wf : DotDims.WF S24x15 S15x16384 S24x16384 [1] [0] [0] [1] [] []
  dot_S24x6_S6x16384_S24x16384_1_0_0_1_n_n_wf : DotDims.WF S24x6 S6x16384 S24x16384 [1] [0] [0] [1] [] []
  dot_S24x4_S4x16384_S24x16384_1_0_0_1_n_n_wf : DotDims.WF S24x4 S4x16384 S24x16384 [1] [0] [0] [1] [] []
  dot_S4x24_S24x16384_S4x16384_1_0_0_1_n_n_wf : DotDims.WF S4x24 S24x16384 S4x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x16384.size a ≤ S6x507904.size a
  hwx0_0 : ∀ i : grid0.Coords, EltTy.bits .f32 = 32 ∨ (Rect.block (s := S6x507904) S6x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16384.size a ≤ S4x507904.size a
  hwx0_1 : ∀ i : grid0.Coords, EltTy.bits .f32 = 32 ∨ (Rect.block (s := S4x507904) S4x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1.size a ≤ S4x1.size a
  hwx0_2 : ∀ i : grid0.Coords, EltTy.bits .f32 = 32 ∨ (Rect.block (s := S4x1) S4x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x10.size a ≤ S128x10.size a
  hwx0_3 : ∀ i : grid0.Coords, EltTy.bits .f32 = 32 ∨ (Rect.block (s := S128x10) S128x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x128.size a ≤ S15x128.size a
  hwx0_5 : ∀ i : grid0.Coords, EltTy.bits .f32 = 32 ∨ (Rect.block (s := S15x128) S15x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x1.size a ≤ S15x1.size a
  hwx0_6 : ∀ i : grid0.Coords, EltTy.bits .f32 = 32 ∨ (Rect.block (s := S15x1) S15x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x10.size a ≤ S128x10.size a
  hwx0_7 : ∀ i : grid0.Coords, EltTy.bits .f32 = 32 ∨ (Rect.block (s := S128x10) S128x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x128.size a ≤ S4x128.size a
  hwx0_9 : ∀ i : grid0.Coords, EltTy.bits .f32 = 32 ∨ (Rect.block (s := S4x128) S4x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x1.size a ≤ S4x1.size a
  hwx0_10 : ∀ i : grid0.Coords, EltTy.bits .f32 = 32 ∨ (Rect.block (s := S4x1) S4x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S24x15.size a ≤ S24x15.size a
  hwx0_11 : ∀ i : grid0.Coords, EltTy.bits .f32 = 32 ∨ (Rect.block (s := S24x15) S24x15.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S24x6.size a ≤ S24x6.size a
  hwx0_12 : ∀ i : grid0.Coords, EltTy.bits .f32 = 32 ∨ (Rect.block (s := S24x6) S24x6.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S24x4.size a ≤ S24x4.size a
  hwx0_13 : ∀ i : grid0.Coords, EltTy.bits .f32 = 32 ∨ (Rect.block (s := S24x4) S24x4.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4x24.size a ≤ S4x24.size a
  hwx0_14 : ∀ i : grid0.Coords, EltTy.bits .f32 = 32 ∨ (Rect.block (s := S4x24) S4x24.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4x16384.size a ≤ S4x507904.size a
  hwx0_15 : ∀ i : grid0.Coords, EltTy.bits .f32 = 32 ∨ (Rect.block (s := S4x507904) S4x16384.size (cc0_transform_15 i) (hinb0_15 i)).WholeWords (EltTy.packing .f32)

variable [Facts₀]

def dot_S128x10_S10x16384_S128x16384_1_0_0_1_n_n : DotDims S128x10 S10x16384 S128x16384 where
  lhsContracting := [1]
  rhsContracting := [0]
  lhsNonContracting := [0]
  rhsNonContracting := [1]
  lhsBatch := []
  rhsBatch := []
  wf := dot_S128x10_S10x16384_S128x16384_1_0_0_1_n_n_wf
def dot_S15x128_S128x16384_S15x16384_1_0_0_1_n_n : DotDims S15x128 S128x16384 S15x16384 where
  lhsContracting := [1]
  rhsContracting := [0]
  lhsNonContracting := [0]
  rhsNonContracting := [1]
  lhsBatch := []
  rhsBatch := []
  wf := dot_S15x128_S128x16384_S15x16384_1_0_0_1_n_n_wf
def dot_S4x128_S128x16384_S4x16384_1_0_0_1_n_n : DotDims S4x128 S128x16384 S4x16384 where
  lhsContracting := [1]
  rhsContracting := [0]
  lhsNonContracting := [0]
  rhsNonContracting := [1]
  lhsBatch := []
  rhsBatch := []
  wf := dot_S4x128_S128x16384_S4x16384_1_0_0_1_n_n_wf
def dot_S24x15_S15x16384_S24x16384_1_0_0_1_n_n : DotDims S24x15 S15x16384 S24x16384 where
  lhsContracting := [1]
  rhsContracting := [0]
  lhsNonContracting := [0]
  rhsNonContracting := [1]
  lhsBatch := []
  rhsBatch := []
  wf := dot_S24x15_S15x16384_S24x16384_1_0_0_1_n_n_wf
def dot_S24x6_S6x16384_S24x16384_1_0_0_1_n_n : DotDims S24x6 S6x16384 S24x16384 where
  lhsContracting := [1]
  rhsContracting := [0]
  lhsNonContracting := [0]
  rhsNonContracting := [1]
  lhsBatch := []
  rhsBatch := []
  wf := dot_S24x6_S6x16384_S24x16384_1_0_0_1_n_n_wf
def dot_S24x4_S4x16384_S24x16384_1_0_0_1_n_n : DotDims S24x4 S4x16384 S24x16384 where
  lhsContracting := [1]
  rhsContracting := [0]
  lhsNonContracting := [0]
  rhsNonContracting := [1]
  lhsBatch := []
  rhsBatch := []
  wf := dot_S24x4_S4x16384_S24x16384_1_0_0_1_n_n_wf
def dot_S4x24_S24x16384_S4x16384_1_0_0_1_n_n : DotDims S4x24 S24x16384 S4x16384 where
  lhsContracting := [1]
  rhsContracting := [0]
  lhsNonContracting := [0]
  rhsNonContracting := [1]
  lhsBatch := []
  rhsBatch := []
  wf := dot_S4x24_S24x16384_S4x16384_1_0_0_1_n_n_wf

abbrev win0_0 : Pipeline.Window sig grid0 :=
  Pipeline.Window.ofSpec (Memref.whole main_v2) S6x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S15x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S15x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S4x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_cst) S24x15.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_cst_0) S24x6.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_cst_1) S24x4.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_cst_2) S4x24.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S4x16384.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S500000x6 : Shape := ⟨2, ![500000, 6]⟩
abbrev S500000x4 : Shape := ⟨2, ![500000, 4]⟩
abbrev S4 : Shape := ⟨1, ![4]⟩
abbrev S128x10 : Shape := ⟨2, ![128, 10]⟩
abbrev S128 : Shape := ⟨1, ![128]⟩
abbrev S15x128 : Shape := ⟨2, ![15, 128]⟩
abbrev S15 : Shape := ⟨1, ![15]⟩
abbrev S4x128 : Shape := ⟨2, ![4, 128]⟩
abbrev S4x6 : Shape := ⟨2, ![4, 6]⟩
abbrev S500000x2 : Shape := ⟨2, ![500000, 2]⟩
abbrev S500000x10 : Shape := ⟨2, ![500000, 10]⟩
abbrev S10x128 : Shape := ⟨2, ![10, 128]⟩
abbrev S500000x128 : Shape := ⟨2, ![500000, 128]⟩
abbrev S1x128 : Shape := ⟨2, ![1, 128]⟩
abbrev S128x15 : Shape := ⟨2, ![128, 15]⟩
abbrev S500000x15 : Shape := ⟨2, ![500000, 15]⟩
abbrev S1x15 : Shape := ⟨2, ![1, 15]⟩
abbrev S_ : Shape := ⟨0, ![]⟩
abbrev S128x4 : Shape := ⟨2, ![128, 4]⟩
abbrev S1x4 : Shape := ⟨2, ![1, 4]⟩
abbrev S4x6x1 : Shape := ⟨3, ![4, 6, 1]⟩
abbrev S500000x4x6 : Shape := ⟨3, ![500000, 4, 6]⟩
abbrev S500000x1x6 : Shape := ⟨3, ![500000, 1, 6]⟩
abbrev S500000x4x1 : Shape := ⟨3, ![500000, 4, 1]⟩

abbrev nBuf : Space → Nat
  | .hbm => 84
  | .vmem => 0
  | .smem => 0
  | _ => 0

abbrev bufTy : (tb : Table) → Fin (tcTables nBuf tb) → BufTy
  | .hbm, ⟨0, _⟩ => ⟨S500000x6, .f32⟩
  | .hbm, ⟨1, _⟩ => ⟨S500000x4, .f32⟩
  | .hbm, ⟨2, _⟩ => ⟨S4, .f32⟩
  | .hbm, ⟨3, _⟩ => ⟨S128x10, .f32⟩
  | .hbm, ⟨4, _⟩ => ⟨S128, .f32⟩
  | .hbm, ⟨5, _⟩ => ⟨S15x128, .f32⟩
  | .hbm, ⟨6, _⟩ => ⟨S15, .f32⟩
  | .hbm, ⟨7, _⟩ => ⟨S128x10, .f32⟩
  | .hbm, ⟨8, _⟩ => ⟨S128, .f32⟩
  | .hbm, ⟨9, _⟩ => ⟨S4x128, .f32⟩
  | .hbm, ⟨10, _⟩ => ⟨S4, .f32⟩
  | .hbm, ⟨11, _⟩ => ⟨S4x6, .i32⟩
  | .hbm, ⟨12, _⟩ => ⟨S500000x2, .f32⟩
  | .hbm, ⟨13, _⟩ => ⟨S500000x6, .f32⟩
  | .hbm, ⟨14, _⟩ => ⟨S500000x10, .f32⟩
  | .hbm, ⟨15, _⟩ => ⟨S10x128, .f32⟩
  | .hbm, ⟨16, _⟩ => ⟨S500000x128, .f32⟩
  | .hbm, ⟨17, _⟩ => ⟨S1x128, .f32⟩
  | .hbm, ⟨18, _⟩ => ⟨S500000x128, .f32⟩
  | .hbm, ⟨19, _⟩ => ⟨S500000x128, .f32⟩
  | .hbm, ⟨20, _⟩ => ⟨S500000x128, .f32⟩
  | .hbm, ⟨21, _⟩ => ⟨S128x15, .f32⟩
  | .hbm, ⟨22, _⟩ => ⟨S500000x15, .f32⟩
  | .hbm, ⟨23, _⟩ => ⟨S1x15, .f32⟩
  | .hbm, ⟨24, _⟩ => ⟨S500000x15, .f32⟩
  | .hbm, ⟨25, _⟩ => ⟨S500000x15, .f32⟩
  | .hbm, ⟨26, _⟩ => ⟨S500000x15, .f32⟩
  | .hbm, ⟨27, _⟩ => ⟨S500000x15, .f32⟩
  | .hbm, ⟨28, _⟩ => ⟨S_, .f32⟩
  | .hbm, ⟨29, _⟩ => ⟨S500000x15, .f32⟩
  | .hbm, ⟨30, _⟩ => ⟨S500000x15, .f32⟩
  | .hbm, ⟨31, _⟩ => ⟨S_, .f32⟩
  | .hbm, ⟨32, _⟩ => ⟨S500000x15, .f32⟩
  | .hbm, ⟨33, _⟩ => ⟨S500000x15, .f32⟩
  | .hbm, ⟨34, _⟩ => ⟨S10x128, .f32⟩
  | .hbm, ⟨35, _⟩ => ⟨S500000x128, .f32⟩
  | .hbm, ⟨36, _⟩ => ⟨S1x128, .f32⟩
  | .hbm, ⟨37, _⟩ => ⟨S500000x128, .f32⟩
  | .hbm, ⟨38, _⟩ => ⟨S500000x128, .f32⟩
  | .hbm, ⟨39, _⟩ => ⟨S500000x128, .f32⟩
  | .hbm, ⟨40, _⟩ => ⟨S128x4, .f32⟩
  | .hbm, ⟨41, _⟩ => ⟨S500000x4, .f32⟩
  | .hbm, ⟨42, _⟩ => ⟨S1x4, .f32⟩
  | .hbm, ⟨43, _⟩ => ⟨S500000x4, .f32⟩
  | .hbm, ⟨44, _⟩ => ⟨S500000x4, .f32⟩
  | .hbm, ⟨45, _⟩ => ⟨S500000x4, .f32⟩
  | .hbm, ⟨46, _⟩ => ⟨S_, .f32⟩
  | .hbm, ⟨47, _⟩ => ⟨S500000x4, .f32⟩
  | .hbm, ⟨48, _⟩ => ⟨S500000x4, .f32⟩
  | .hbm, ⟨49, _⟩ => ⟨S500000x4, .f32⟩
  | .hbm, ⟨50, _⟩ => ⟨S_, .i32⟩
  | .hbm, ⟨51, _⟩ => ⟨S4x6, .i32⟩
  | .hbm, ⟨52, _⟩ => ⟨S4x6, .i1⟩
  | .hbm, ⟨53, _⟩ => ⟨S_, .i32⟩
  | .hbm, ⟨54, _⟩ => ⟨S4x6, .i32⟩
  | .hbm, ⟨55, _⟩ => ⟨S4x6, .i32⟩
  | .hbm, ⟨56, _⟩ => ⟨S4x6, .i32⟩
  | .hbm, ⟨57, _⟩ => ⟨S4x6x1, .i32⟩
  | .hbm, ⟨58, _⟩ => ⟨S500000x4x6, .f32⟩
  | .hbm, ⟨59, _⟩ => ⟨S500000x1x6, .f32⟩
  | .hbm, ⟨60, _⟩ => ⟨S500000x4x1, .f32⟩
  | .hbm, ⟨61, _⟩ => ⟨S500000x4x6, .f32⟩
  | .hbm, ⟨62, _⟩ => ⟨S500000x4x6, .f32⟩
  | .hbm, ⟨63, _⟩ => ⟨S500000x4x6, .f32⟩
  | .hbm, ⟨64, _⟩ => ⟨S500000x4x6, .f32⟩
  | .hbm, ⟨65, _⟩ => ⟨S_, .f32⟩
  | .hbm, ⟨66, _⟩ => ⟨S500000x4, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S500000x4, .f32⟩
  | .hbm, ⟨72, _⟩ => ⟨S1x4, .f32⟩
  | .hbm, ⟨73, _⟩ => ⟨S500000x4, .f32⟩
  | .hbm, ⟨74, _⟩ => ⟨S500000x4, .f32⟩
  | .hbm, ⟨75, _⟩ => ⟨S500000x4, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S500000x4, .f32⟩
  | .hbm, ⟨80, _⟩ => ⟨S500000x4, .f32⟩
  | .hbm, ⟨81, _⟩ => ⟨S_, .f32⟩
  | .hbm, ⟨82, _⟩ => ⟨S500000x4, .f32⟩
  | .hbm, ⟨83, _⟩ => ⟨S500000x4, .f32⟩
  | _, _ => ⟨S500000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_2 : Ref sig .tc := ⟨.hbm, 50, rfl⟩
abbrev main_v35 : Ref sig .tc := ⟨.hbm, 51, rfl⟩
abbrev main_v36 : Ref sig .tc := ⟨.hbm, 52, rfl⟩
abbrev main_c_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_cst_7 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  slices_S500000x6_S500000x2_0_4 : S500000x6.Slices ![0, 4] S500000x2
  concatenates_S500000x4_S500000x2_S500000x6_d1 : Shape.Concatenates [S500000x4, S500000x2] S500000x6 1
  concatenates_S500000x6_S500000x4_S500000x10_d1 : Shape.Concatenates [S500000x6, S500000x4] S500000x10 1
  transposes_S128x10_S10x128_1_0 : S128x10.Transposes [1, 0] S10x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  transposes_S15x128_S128x15_1_0 : S15x128.Transposes [1, 0] S128x15
  bcast_S15_S1x15_1 : S15.BroadcastsInDim S1x15 (![1] : Fin 1 → Fin S1x15.rank)
  bcast_S1x15_S500000x15_0_1 : S1x15.BroadcastsInDim S500000x15 (![0, 1] : Fin 2 → Fin S500000x15.rank)
  bcast_S_S500000x15 : S_.BroadcastsInDim S500000x15 (![] : Fin 0 → Fin S500000x15.rank)
  transposes_S4x128_S128x4_1_0 : S4x128.Transposes [1, 0] S128x4
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S_S500000x4 : S_.BroadcastsInDim S500000x4 (![] : Fin 0 → Fin S500000x4.rank)
  bcast_S_S4x6 : S_.BroadcastsInDim S4x6 (![] : Fin 0 → Fin S4x6.rank)
  bcast_S4x6_S4x6x1_0_1 : S4x6.BroadcastsInDim S4x6x1 (![0, 1] : Fin 2 → Fin S4x6x1.rank)
  bcast_S500000x6_S500000x1x6_0_2 : S500000x6.BroadcastsInDim S500000x1x6 (![0, 2] : Fin 2 → Fin S500000x1x6.rank)
  bcast_S500000x4_S500000x4x1_0_1 : S500000x4.BroadcastsInDim S500000x4x1 (![0, 1] : Fin 2 → Fin S500000x4x1.rank)
  bcast_S500000x1x6_S500000x4x6_0_1_2 : S500000x1x6.BroadcastsInDim S500000x4x6 (![0, 1, 2] : Fin 3 → Fin S500000x4x6.rank)
  bcast_S500000x4x1_S500000x4x6_0_1_2 : S500000x4x1.BroadcastsInDim S500000x4x6 (![0, 1, 2] : Fin 3 → Fin S500000x4x6.rank)
  reducesTo_S500000x4x6_S500000x4_d2 : S500000x4x6.ReducesTo [2] S500000x4
  h_S_ : 0 < S_.numel
  bcast_S_S4 : S_.BroadcastsInDim S4 (![] : Fin 0 → Fin S4.rank)
  dot_S500000x10_S10x128_S500000x128_1_0_0_1_n_n_wf : DotDims.WF S500000x10 S10x128 S500000x128 [1] [0] [0] [1] [] []
  dot_S500000x128_S128x15_S500000x15_1_0_0_1_n_n_wf : DotDims.WF S500000x128 S128x15 S500000x15 [1] [0] [0] [1] [] []
  dot_S500000x128_S128x4_S500000x4_1_0_0_1_n_n_wf : DotDims.WF S500000x128 S128x4 S500000x4 [1] [0] [0] [1] [] []
  gather_S500000x15_S4x6x1_S500000x4x6_0_1_n_n_1_2_5000001_wf : GatherDims.WF S500000x15 S4x6x1 S500000x4x6 [0] [1] [] [1] [] 2 ![500000, 1]

variable [Facts₀]

def dot_S500000x10_S10x128_S500000x128_1_0_0_1_n_n : DotDims S500000x10 S10x128 S500000x128 where
  lhsContracting := [1]
  rhsContracting := [0]
  lhsNonContracting := [0]
  rhsNonContracting := [1]
  lhsBatch := []
  rhsBatch := []
  wf := dot_S500000x10_S10x128_S500000x128_1_0_0_1_n_n_wf
def dot_S500000x128_S128x15_S500000x15_1_0_0_1_n_n : DotDims S500000x128 S128x15 S500000x15 where
  lhsContracting := [1]
  rhsContracting := [0]
  lhsNonContracting := [0]
  rhsNonContracting := [1]
  lhsBatch := []
  rhsBatch := []
  wf := dot_S500000x128_S128x15_S500000x15_1_0_0_1_n_n_wf
def dot_S500000x128_S128x4_S500000x4_1_0_0_1_n_n : DotDims S500000x128 S128x4 S500000x4 where
  lhsContracting := [1]
  rhsContracting := [0]
  lhsNonContracting := [0]
  rhsNonContracting := [1]
  lhsBatch := []
  rhsBatch := []
  wf := dot_S500000x128_S128x4_S500000x4_1_0_0_1_n_n_wf
def gather_S500000x15_S4x6x1_S500000x4x6_0_1_n_n_1_2_5000001 : GatherDims S500000x15 S4x6x1 S500000x4x6 where
  offsetDims := [0]
  collapsedSliceDims := [1]
  operandBatchingDims := []
  startIndicesBatchingDims := []
  startIndexMap := [1]
  indexVectorDim := 2
  sliceSizes := ![500000, 1]
  wf := gather_S500000x15_S4x6x1_S500000x4x6_0_1_n_n_1_2_5000001_wf

class Facts : Prop extends Facts₀ where

variable [Facts]
-- ==== Proof.CellSpec.lean ====
/-
  The thermal-network cell as one function of the argument arrays, index by index, on the extended reals.

  For a batch row `b` (of 500000) and an output node `i` (of 4):
    feat b c     the ten features: the six inputs of row `b`, then its four node temperatures;
    hidden W β b h = tanh (∑ c, feat b c · W (h, c) + β h)           (the first layer of either sub-net, 128 units)
    cond b n     = 1 / (1 + exp (-(∑ h, hidden cw1 cb1 b h · cw2 (n, h) + cb2 n)))   (15 conductances)
    plin b i     = ∑ h, hidden pw1 pb1 b h · pw2 (i, h) + pb2 i
    ploss b i    = sqrt (plin b i · plin b i + ε)
    temps b j    the six temperatures: the four node temperatures, then inputs 4 and 5 (ambient, coolant);
    tdiff b i    = ∑ j, (temps b j - hid (b, i)) · cond b (adj i j)     (adj: the symmetric table of conductance ids)
    out b i      = min 5 (max (-1) (hid (b, i) + (½ · exp (caps i)) · (tdiff b i + ploss b i))).
  Every sum is a finite sum in the commutative monoid of the extended reals; no law used later needs finiteness.
-/
import Idealize.ShloMosaic.PureOps.Ideal
import Idealize.ShloMosaic.Lib.ValueIdx

noncomputable section

namespace Cert.CellSpec

open Idealize.ShloMosaic Idealize.ShloMosaic.ValueIdx

/-- A matrix of extended reals over literal extents. -/
abbrev Mat (n0 n1 : Nat) : Type := (⟨2, ![n0, n1]⟩ : Shape).Idx → EReal
/-- A vector of extended reals over a literal extent. -/
abbrev Vc (n : Nat) : Type := (⟨1, ![n]⟩ : Shape).Idx → EReal

/-- The symmetric table of conductance ids between node `i` and temperature `j` (the upper triangle of a 6×6 matrix
    numbered row by row, mirrored; the diagonal is 0), its first four rows. -/
def adj : Fin 4 → Fin 6 → Fin 15 :=
  ![![0, 0, 1, 2, 3, 4], ![0, 0, 5, 6, 7, 8], ![1, 5, 0, 9, 10, 11], ![2, 6, 9, 0, 12, 13]]

/-- The literals of the cell, as the extended reals their f32 words denote. -/
def eps : EReal := Ideal.ofBits .f32 0x358637BD#32
def half : EReal := Ideal.ofBits .f32 0x3F000000#32
def lo : EReal := Ideal.ofBits .f32 0xBF800000#32
def hi : EReal := Ideal.ofBits .f32 0x40A00000#32

/-- The ten features of row `b`: its six inputs, then its four node temperatures. -/
def feat (inp : Mat 500000 6) (hid : Mat 500000 4) (b : Fin 500000) (c : Fin 10) : EReal :=
  if h : c.val < 6 then inp (ix2 b ⟨c.val, h⟩) else hid (ix2 b ⟨c.val - 6, by omega⟩)

/-- The six temperatures of row `b`: its four node temperatures, then inputs 4 and 5. -/
def temps (inp : Mat 500000 6) (hid : Mat 500000 4) (b : Fin 500000) (j : Fin 6) : EReal :=
  if h : j.val < 4 then hid (ix2 b ⟨j.val, h⟩) else inp (ix2 b j)

/-- The first layer of a sub-net: 128 tanh units over the ten features. -/
def hidden (w : Mat 128 10) (β : Vc 128) (inp : Mat 500000 6) (hid : Mat 500000 4) (b : Fin 500000) (h : Fin 128) : EReal :=
  Ideal.tanh ((∑ c : Fin 10, feat inp hid b c * w (ix2 h c)) + β (ix1 h))

/-- The fifteen conductances of row `b`: a logistic unit over the conductance net's first layer. -/
def cond (cw1 : Mat 128 10) (cb1 : Vc 128) (cw2 : Mat 15 128) (cb2 : Vc 15) (inp : Mat 500000 6) (hid : Mat 500000 4)
    (b : Fin 500000) (n : Fin 15) : EReal :=
  Ideal.logistic ((∑ h : Fin 128, hidden cw1 cb1 inp hid b h * cw2 (ix2 n h)) + cb2 (ix1 n))

/-- The power-loss net's linear output. -/
def plin (pw1 : Mat 128 10) (pb1 : Vc 128) (pw2 : Mat 4 128) (pb2 : Vc 4) (inp : Mat 500000 6) (hid : Mat 500000 4)
    (b : Fin 500000) (i : Fin 4) : EReal :=
  (∑ h : Fin 128, hidden pw1 pb1 inp hid b h * pw2 (ix2 i h)) + pb2 (ix1 i)

/-- The smooth absolute value of the power-loss net's output. -/
def ploss (pw1 : Mat 128 10) (pb1 : Vc 128) (pw2 : Mat 4 128) (pb2 : Vc 4) (inp : Mat 500000 6) (hid : Mat 500000 4)
    (b : Fin 500000) (i : Fin 4) : EReal :=
  Ideal.sqrt (plin pw1 pb1 pw2 pb2 inp hid b i * plin pw1 pb1 pw2 pb2 inp hid b i + eps)

/-- The conductance-weighted sum of temperature differences at node `i`. -/
def tdiff (cw1 : Mat 128 10) (cb1 : Vc 128) (cw2 : Mat 15 128) (cb2 : Vc 15) (inp : Mat 500000 6) (hid : Mat 500000 4)
    (b : Fin 500000) (i : Fin 4) : EReal :=
  ∑ j : Fin 6, (temps inp hid b j - hid (ix2 b i)) * cond cw1 cb1 cw2 cb2 inp hid b (adj i j)

/-- The cell's second result: the clipped explicit-Euler step of the node temperatures. -/
def G (inp : Mat 500000 6) (hid : Mat 500000 4) (caps : Vc 4) (cw1 : Mat 128 10) (cb1 : Vc 128) (cw2 : Mat 15 128)
    (cb2 : Vc 15) (pw1 : Mat 128 10) (pb1 : Vc 128) (pw2 : Mat 4 128) (pb2 : Vc 4) : Mat 500000 4 := fun y =>
  min hi (max lo (hid (ix2 (y 0) (y 1)) + (half * Ideal.exp (caps (ix1 (y 1))))
    * (tdiff cw1 cb1 cw2 cb2 inp hid (y 0) (y 1) + ploss pw1 pb1 pw2 pb2 inp hid (y 0) (y 1))))

end Cert.CellSpec

end
-- ==== Proof.CellRow.lean ====
/-
  One batch row of the thermal-network cell, and the whole output in the column-major layout.

  The cell acts on every batch row alone: given a row's six inputs `x` and four node temperatures `hd`, and the weights,
  `cellRow … i` is the clipped new temperature of node `i`. The specification `CellSpec.G` at `(b, i)` is `cellRow` of row
  `b` of the argument arrays (`G_row`), and `cellCols` is the same function of arrays stored feature-major, batch along the
  second axis, biases as columns: at `(i, b)` it is `cellRow` of column `b`.

  Also here: a sum against a 0/1 selector picks one term, and the 24 products `(temps (k mod 6) - hd (k div 6)) · cond (adj k)`
  summed against the selector of `k div 6 = i` are the six terms of node `i`.
-/
import proofs.«180992_j13649406067340_2_alg».proof.Proof.CellSpec

noncomputable section

namespace Cert.CellRow

open Idealize.ShloMosaic Idealize.ShloMosaic.ValueIdx Cert.CellSpec

/-- The ten features of a row: its six inputs, then its four node temperatures. -/
def rfeat (x : Fin 6 → EReal) (hd : Fin 4 → EReal) (c : Fin 10) : EReal :=
  if h : c.val < 6 then x ⟨c.val, h⟩ else hd ⟨c.val - 6, by omega⟩

/-- The six temperatures of a row: its four node temperatures, then inputs 4 and 5. -/
def rtemps (x : Fin 6 → EReal) (hd : Fin 4 → EReal) (j : Fin 6) : EReal :=
  if h : j.val < 4 then hd ⟨j.val, h⟩ else x j

/-- The first layer of a sub-net on a row. -/
def rhidden (w : Fin 128 → Fin 10 → EReal) (β : Fin 128 → EReal) (x : Fin 6 → EReal) (hd : Fin 4 → EReal) (h : Fin 128) : EReal :=
  Ideal.tanh ((∑ c : Fin 10, rfeat x hd c * w h c) + β h)

/-- The fifteen conductances of a row. -/
def rcond (cw1 : Fin 128 → Fin 10 → EReal) (cb1 : Fin 128 → EReal) (cw2 : Fin 15 → Fin 128 → EReal) (cb2 : Fin 15 → EReal)
    (x : Fin 6 → EReal) (hd : Fin 4 → EReal) (n : Fin 15) : EReal :=
  Ideal.logistic ((∑ h : Fin 128, rhidden cw1 cb1 x hd h * cw2 n h) + cb2 n)

/-- The power-loss net's linear output on a row. -/
def rplin (pw1 : Fin 128 → Fin 10 → EReal) (pb1 : Fin 128 → EReal) (pw2 : Fin 4 → Fin 128 → EReal) (pb2 : Fin 4 → EReal)
    (x : Fin 6 → EReal) (hd : Fin 4 → EReal) (i : Fin 4) : EReal :=
  (∑ h : Fin 128, rhidden pw1 pb1 x hd h * pw2 i h) + pb2 i

/-- Its smooth absolute value. -/
def rploss (pw1 : Fin 128 → Fin 10 → EReal) (pb1 : Fin 128 → EReal) (pw2 : Fin 4 → Fin 128 → EReal) (pb2 : Fin 4 → EReal)
    (x : Fin 6 → EReal) (hd : Fin 4 → EReal) (i : Fin 4) : EReal :=
  Ideal.sqrt (rplin pw1 pb1 pw2 pb2 x hd i * rplin pw1 pb1 pw2 pb2 x hd i + eps)

/-- The conductance-weighted sum of temperature differences at node `i` of a row. -/
def rtdiff (cw1 : Fin 128 → Fin 10 → EReal) (cb1 : Fin 128 → EReal) (cw2 : Fin 15 → Fin 128 → EReal) (cb2 : Fin 15 → EReal)
    (x : Fin 6 → EReal) (hd : Fin 4 → EReal) (i : Fin 4) : EReal :=
  ∑ j : Fin 6, (rtemps x hd j - hd i) * rcond cw1 cb1 cw2 cb2 x hd (adj i j)

/-- The clipped explicit-Euler step of node `i` of a row. -/
def cellRow (x : Fin 6 → EReal) (hd : Fin 4 → EReal) (caps : Fin 4 → EReal)
    (cw1 : Fin 128 → Fin 10 → EReal) (cb1 : Fin 128 → EReal) (cw2 : Fin 15 → Fin 128 → EReal) (cb2 : Fin 15 → EReal)
    (pw1 : Fin 128 → Fin 10 → EReal) (pb1 : Fin 128 → EReal) (pw2 : Fin 4 → Fin 128 → EReal) (pb2 : Fin 4 → EReal)
    (i : Fin 4) : EReal :=
  min hi (max lo (hd i + (half * Ideal.exp (caps i))
    * (rtdiff cw1 cb1 cw2 cb2 x hd i + rploss pw1 pb1 pw2 pb2 x hd i)))

/-- The conductance id the `k`-th of the 24 (node, temperature) pairs uses: pair `k` is node `k div 6`, temperature `k mod 6`. -/
def adjK (k : Fin 24) : Fin 15 := adj ⟨k.val / 6, by omega⟩ ⟨k.val % 6, by omega⟩

/-- The specification at `(b, i)` is the row function of row `b` of the argument arrays. -/
theorem G_row (inp : Mat 500000 6) (hid : Mat 500000 4) (caps : Vc 4) (cw1 : Mat 128 10) (cb1 : Vc 128) (cw2 : Mat 15 128)
    (cb2 : Vc 15) (pw1 : Mat 128 10) (pb1 : Vc 128) (pw2 : Mat 4 128) (pb2 : Vc 4) (b : Fin 500000) (i : Fin 4) :
    G inp hid caps cw1 cb1 cw2 cb2 pw1 pb1 pw2 pb2 (ix2 b i)
      = cellRow (fun c => inp (ix2 b c)) (fun k => hid (ix2 b k)) (fun k => caps (ix1 k))
          (fun h c => cw1 (ix2 h c)) (fun h => cb1 (ix1 h)) (fun n h => cw2 (ix2 n h)) (fun n => cb2 (ix1 n))
          (fun h c => pw1 (ix2 h c)) (fun h => pb1 (ix1 h)) (fun k h => pw2 (ix2 k h)) (fun k => pb2 (ix1 k)) i := rfl

/-- The whole output stored node-major, batch along the second axis (507904 columns), from arrays stored feature-major
    with the biases and the capacities as columns. -/
def cellCols (xT : Mat 6 507904) (hT : Mat 4 507904) (caps : Mat 4 1) (cw1 : Mat 128 10) (cb1 : Mat 128 1) (cw2 : Mat 15 128)
    (cb2 : Mat 15 1) (pw1 : Mat 128 10) (pb1 : Mat 128 1) (pw2 : Mat 4 128) (pb2 : Mat 4 1) : Mat 4 507904 := fun y =>
  cellRow (fun c => xT (ix2 c (y 1))) (fun k => hT (ix2 k (y 1))) (fun k => caps (ix2 k (0 : Fin 1)))
    (fun h c => cw1 (ix2 h c)) (fun h => cb1 (ix2 h (0 : Fin 1))) (fun n h => cw2 (ix2 n h)) (fun n => cb2 (ix2 n (0 : Fin 1)))
    (fun h c => pw1 (ix2 h c)) (fun h => pb1 (ix2 h (0 : Fin 1))) (fun k h => pw2 (ix2 k h)) (fun k => pb2 (ix2 k (0 : Fin 1))) (y 0)

end Cert.CellRow

end
-- ==== Proof.CellSums.lean ====
/-
  Sums against 0/1 selectors on the extended reals.

  A finite sum `∑ k, s k · f k` whose weights `s k` are 1 at one index and 0 elsewhere is that index's term: `1 · x = x` and
  `0 · x = 0` hold for every extended real, infinite ones included, and a sum of zeros adds nothing. The 24 (node,
  temperature) products, pair `k` being node `k div 6` and temperature `k mod 6`, summed against the selector of
  `k div 6 = i`, are node `i`'s six terms.
-/
import proofs.«180992_j13649406067340_2_alg».proof.Proof.CellRow

noncomputable section

namespace Cert.CellRow

open Idealize.ShloMosaic Idealize.ShloMosaic.ValueIdx Cert.CellSpec

/-- A sum against the selector of one index is that index's term. -/
theorem sum_sel {n : ℕ} (a : Fin n) (f : Fin n → EReal) :
    (∑ k : Fin n, (if k = a then (1 : EReal) else 0) * f k) = f a := by
  simp only [ite_mul, one_mul, zero_mul, Finset.sum_ite_eq', Finset.mem_univ, if_true]

/-- The same with the selected index given by its value. -/
theorem sum_sel_val {n : ℕ} (a : ℕ) (ha : a < n) (f : Fin n → EReal) :
    (∑ k : Fin n, (if k.val = a then (1 : EReal) else 0) * f k) = f ⟨a, ha⟩ := by
  rw [← sum_sel ⟨a, ha⟩ f]
  refine Finset.sum_congr rfl fun k _ => ?_
  have : (k.val = a) ↔ (k = ⟨a, ha⟩) := ⟨fun h => Fin.ext h, fun h => congrArg Fin.val h⟩
  simp only [this]

/-- The 24 (node, temperature) pairs summed against the selector of node `i` are node `i`'s six terms. -/
theorem sum_pairs (i : Fin 4) (T : Fin 6 → EReal) (H : Fin 4 → EReal) (C : Fin 15 → EReal) :
    (∑ k : Fin 24, (if k.val / 6 = i.val then (1 : EReal) else 0)
        * ((T ⟨k.val % 6, Nat.mod_lt _ (by norm_num)⟩ - H ⟨k.val / 6, by have := k.isLt; omega⟩) * C (adjK k)))
      = ∑ j : Fin 6, (T j - H i) * C (adj i j) := by
  fin_cases i <;> simp [Fin.sum_univ_succ, adjK, adj] <;> rfl

end Cert.CellRow

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.KerStages.lean ====
/-
  The kernel body's arithmetic, stage by stage, read at an entry.

  The body works on one batch tile stored feature-major: 16384 lanes, each lane a batch row. Every matrix product in it is a
  plain product into a zero tile, so at an entry it is the sum over the contracted axis; roundings to bf16 are the identity on
  the extended reals. The stages: the ten stacked features `X`; a sub-net's first layer `tanh (W · X + β)`; the conductances
  `logistic (cw2 · H + cb2)`; the power-loss output and its smooth absolute value; the six stacked temperatures; the three
  products with 0/1 selectors that lay the 24 (node, temperature) pairs out along the sublanes; the product with the 0/1
  matrix that sums each node's six pairs; the explicit-Euler step and its clip.
-/
import proofs.«180992_j13649406067340_2_alg».proof.Proof.Gen.KernelIdeal.Skeleton
import proofs.«180992_j13649406067340_2_alg».proof.Proof.CellSums
import proofs.«180992_j13649406067340_2_alg».proof.Proof.LibPlainDot
import proofs.«180992_j13649406067340_2_alg».proof.Proof.LibKeepdims
import Idealize.ShloMosaic.Lib.Pipeline.Value
import Idealize.ShloMosaic.Lib.ValueLayout

noncomputable section

namespace Cert.KernelIdeal.KerStages

open Idealize.ShloMosaic Idealize.ShloMosaic.ValueIdx Cert.KernelIdeal Cert.KernelIdeal.Gen Cert.CellSpec Cert.CellRow

/-! ## The pointwise transcendental operations at an entry -/

theorem tanh_apply {s : Shape} {φ : FTy} (v : FVec Ideal s φ) (i : s.Idx) : tanh v i = Ideal.tanh (v i) := rfl
theorem logistic_apply {s : Shape} {φ : FTy} (v : FVec Ideal s φ) (i : s.Idx) : logistic v i = Ideal.logistic (v i) := rfl
theorem sqrt_apply {s : Shape} {φ : FTy} (v : FVec Ideal s φ) (i : s.Idx) : sqrt v i = Ideal.sqrt (v i) := rfl
theorem exp_apply {s : Shape} {φ : FTy} (v : FVec Ideal s φ) (i : s.Idx) : exp v i = Ideal.exp (v i) := rfl

/-! ## Two generic readings -/

/-- A plain product into a zero tile, at an entry, for any record of the plain dimension numbers. -/
theorem product_apply {m k n : ℕ} {φ₁ φ₂ : FTy} (D : DotDims ⟨2, ![m, k]⟩ ⟨2, ![k, n]⟩ ⟨2, ![m, n]⟩) (hD : D = DotDims.plain m k n)
    (A : FVec Ideal ⟨2, ![m, k]⟩ φ₁) (B : FVec Ideal ⟨2, ![k, n]⟩ φ₂) (a : Fin m) (b : Fin n) :
    matmul D none A B (constant (F := Ideal) ⟨2, ![m, n]⟩ .f32 0x00000000#32) (ix2 a b)
      = ∑ c : Fin k, A (ix2 a c) * B (ix2 c b) := by
  subst hD
  exact Cert.LibPlainDot.matmul_plain_zero_apply none A B a b

/-- A product into a zero tile plus a bias column repeated along the lanes, at an entry. -/
theorem affine_apply {m k n : ℕ} {φ₁ φ₂ : FTy} (D : DotDims ⟨2, ![m, k]⟩ ⟨2, ![k, n]⟩ ⟨2, ![m, n]⟩) (hD : D = DotDims.plain m k n)
    (A : FVec Ideal ⟨2, ![m, k]⟩ φ₁) (B : FVec Ideal ⟨2, ![k, n]⟩ φ₂) (β : FVec Ideal ⟨2, ![m, 1]⟩ .f32)
    (hb : (⟨2, ![m, 1]⟩ : Shape).Broadcasts ⟨2, ![m, n]⟩) (a : Fin m) (b : Fin n) :
    addf (matmul D none A B (constant (F := Ideal) ⟨2, ![m, n]⟩ .f32 0x00000000#32)) (broadcastTo ⟨2, ![m, n]⟩ β hb) (ix2 a b)
      = (∑ c : Fin k, A (ix2 a c) * B (ix2 c b)) + β (ix2 a (0 : Fin 1)) :=
  (addf_apply _ _ _).trans (congrArg₂ (· + ·) (product_apply D hD A B a b) (broadcastTo_a1_ab_apply β hb a b))

/-! ## The stacked features -/

/-- The ten stacked features of lane `q`: the six inputs, then the four node temperatures. -/
theorem feat_apply (x0 : Vec Ideal S6x16384 .f32) (x1 : Vec Ideal S4x16384 .f32) (c : Fin 10) (q : Fin 16384) :
    k0_pay3 (F := Ideal) x0 x1 (ix2 c q) = rfeat (fun c => x0 (ix2 c q)) (fun k => x1 (ix2 k q)) c := by
  unfold k0_pay3 k0_pay1 k0_pay2 rfeat
  show concatenate S10x16384 0 [⟨S6x16384, shapeCast S6x16384 x0 shapeCasts_S6x16384_S6x16384⟩, ⟨S4x16384, shapeCast S4x16384 x1 shapeCasts_S4x16384_S4x16384⟩] concatenates_S6x16384_S4x16384_S10x16384_d0 (ix2 c q) = _
  by_cases h : c.val < 6
  · rw [dif_pos h]
    refine (concatenate_pair_apply_left (t := S10x16384) (s₁ := S6x16384) (s₂ := S4x16384) (0 : Fin 2) _ _ _ (ix2 c q) rfl (ix2 (⟨c.val, h⟩ : Fin 6) q) ?_).trans ?_
    · intro b
      match b with
      | ⟨0, _⟩ => rfl
      | ⟨1, _⟩ => rfl
    · rw [shapeCast_self]
  · rw [dif_neg h]
    refine (concatenate_pair_apply_right (t := S10x16384) (s₁ := S6x16384) (s₂ := S4x16384) (0 : Fin 2) _ _ _ (ix2 c q) rfl rfl (ix2 (⟨c.val - 6, by omega⟩ : Fin 4) q) ?_ ?_).trans ?_
    · intro b hb
      match b with
      | ⟨0, _⟩ => exact absurd rfl hb
      | ⟨1, _⟩ => rfl
    · show c.val - 6 + 6 = c.val
      omega
    · rw [shapeCast_self]

/-! ## A sub-net's first layer -/

/-- The first layer on a tile: `tanh (W · X + β)`, the weights rounded to bf16 on the way in. -/
def hiddenV (w : Vec Ideal S128x10 .f32) (β : Vec Ideal S128x1 .f32) (X : FVec Ideal S10x16384 .bf16) : FVec Ideal S128x16384 .f32 :=
  tanh (addf (matmul dot_S128x10_S10x16384_S128x16384_1_0_0_1_n_n none (truncf .bf16 w bitsLt_bf16_f32) X (constant S128x16384 .f32 0x00000000#32))
    (broadcastTo S128x16384 (shapeCast S128x1 β shapeCasts_S128x1_S128x1) broadcasts_S128x1_S128x16384))

theorem hiddenV_apply (w : Vec Ideal S128x10 .f32) (β : Vec Ideal S128x1 .f32) (X : FVec Ideal S10x16384 .bf16) (h : Fin 128) (q : Fin 16384) :
    hiddenV w β X (ix2 h q) = Ideal.tanh ((∑ c : Fin 10, w (ix2 h c) * X (ix2 c q)) + β (ix2 h (0 : Fin 1))) := by
  unfold hiddenV
  refine (tanh_apply _ _).trans (congrArg Ideal.tanh ?_)
  refine (affine_apply dot_S128x10_S10x16384_S128x16384_1_0_0_1_n_n rfl _ X _ broadcasts_S128x1_S128x16384 h q).trans ?_
  rw [shapeCast_self]
  rfl

/-- The first layer of lane `q` is the row function's first layer. -/
theorem hiddenV_feat (w : Vec Ideal S128x10 .f32) (β : Vec Ideal S128x1 .f32) (x0 : Vec Ideal S6x16384 .f32) (x1 : Vec Ideal S4x16384 .f32)
    (h : Fin 128) (q : Fin 16384) :
    hiddenV w β (k0_pay3 x0 x1) (ix2 h q)
      = rhidden (fun h c => w (ix2 h c)) (fun h => β (ix2 h (0 : Fin 1))) (fun c => x0 (ix2 c q)) (fun k => x1 (ix2 k q)) h := by
  refine (hiddenV_apply w β _ h q).trans ?_
  unfold rhidden
  refine congrArg (fun s => Ideal.tanh (s + β (ix2 h (0 : Fin 1)))) ?_
  refine Finset.sum_congr rfl fun c _ => ?_
  rw [feat_apply, mul_comm]

/-- The power-loss net's first layer, as the body rounds it for the next product. -/
theorem pay7_apply (x0 : Vec Ideal S6x16384 .f32) (x1 : Vec Ideal S4x16384 .f32) (x7 : Vec Ideal S128x10 .f32) (x8 : Vec Ideal S128x1 .f32)
    (h : Fin 128) (q : Fin 16384) :
    k0_pay7 (F := Ideal) x0 x1 x7 x8 (ix2 h q)
      = rhidden (fun h c => x7 (ix2 h c)) (fun h => x8 (ix2 h (0 : Fin 1))) (fun c => x0 (ix2 c q)) (fun k => x1 (ix2 k q)) h :=
  hiddenV_feat x7 x8 x0 x1 h q

/-! ## The conductances -/

/-- The conductances on a tile: `logistic (cw2 · H + cb2)`. -/
def condV (x5 : Vec Ideal S15x128 .f32) (x6 : Vec Ideal S15x1 .f32) (Hd : FVec Ideal S128x16384 .f32) : FVec Ideal S15x16384 .f32 :=
  logistic (addf (matmul dot_S15x128_S128x16384_S15x16384_1_0_0_1_n_n none (truncf .bf16 x5 bitsLt_bf16_f32) (truncf .bf16 Hd bitsLt_bf16_f32) (constant S15x16384 .f32 0x00000000#32))
    (broadcastTo S15x16384 (shapeCast S15x1 x6 shapeCasts_S15x1_S15x1) broadcasts_S15x1_S15x16384))

theorem pay4_eq (x0 : Vec Ideal S6x16384 .f32) (x1 : Vec Ideal S4x16384 .f32) (x3 : Vec Ideal S128x10 .f32) (x4 : Vec Ideal S128x1 .f32)
    (x5 : Vec Ideal S15x128 .f32) (x6 : Vec Ideal S15x1 .f32) :
    k0_pay4 (F := Ideal) x0 x1 x3 x4 x5 x6 = condV x5 x6 (hiddenV x3 x4 (k0_pay3 x0 x1)) := rfl

theorem condV_apply (x5 : Vec Ideal S15x128 .f32) (x6 : Vec Ideal S15x1 .f32) (Hd : FVec Ideal S128x16384 .f32) (n : Fin 15) (q : Fin 16384) :
    condV x5 x6 Hd (ix2 n q) = Ideal.logistic ((∑ h : Fin 128, x5 (ix2 n h) * Hd (ix2 h q)) + x6 (ix2 n (0 : Fin 1))) := by
  unfold condV
  refine (logistic_apply _ _).trans (congrArg Ideal.logistic ?_)
  refine (affine_apply dot_S15x128_S128x16384_S15x16384_1_0_0_1_n_n rfl _ _ _ broadcasts_S15x1_S15x16384 n q).trans ?_
  rw [shapeCast_self]
  rfl

/-- The conductances of lane `q` are the row function's. -/
theorem pay4_apply (x0 : Vec Ideal S6x16384 .f32) (x1 : Vec Ideal S4x16384 .f32) (x3 : Vec Ideal S128x10 .f32) (x4 : Vec Ideal S128x1 .f32)
    (x5 : Vec Ideal S15x128 .f32) (x6 : Vec Ideal S15x1 .f32) (n : Fin 15) (q : Fin 16384) :
    k0_pay4 (F := Ideal) x0 x1 x3 x4 x5 x6 (ix2 n q)
      = rcond (fun h c => x3 (ix2 h c)) (fun h => x4 (ix2 h (0 : Fin 1))) (fun n h => x5 (ix2 n h)) (fun n => x6 (ix2 n (0 : Fin 1)))
          (fun c => x0 (ix2 c q)) (fun k => x1 (ix2 k q)) n := by
  rw [pay4_eq]
  refine (condV_apply x5 x6 _ n q).trans ?_
  unfold rcond
  refine congrArg (fun s => Ideal.logistic (s + x6 (ix2 n (0 : Fin 1)))) ?_
  refine Finset.sum_congr rfl fun h _ => ?_
  rw [hiddenV_feat, mul_comm]

end Cert.KernelIdeal.KerStages

end
-- ==== Proof.KerStep.lean ====
/-
  The second half of the kernel body at an entry: the power loss, the six temperatures, the selector products that lay the
  24 (node, temperature) pairs along the sublanes and sum them back per node, and the clipped explicit-Euler step.
-/
import proofs.«180992_j13649406067340_2_alg».proof.Proof.KerStages

noncomputable section

namespace Cert.KernelIdeal.KerStep

open Idealize.ShloMosaic Idealize.ShloMosaic.ValueIdx Cert.KernelIdeal Cert.KernelIdeal.Gen Cert.CellSpec Cert.CellRow
open Cert.KernelIdeal.KerStages

/-! ## The stages as functions of a tile -/

/-- The power-loss net's linear output on a tile. -/
def plinV (v32 : FVec Ideal S4x128 .bf16) (v34 : FVec Ideal S4x1 .f32) (v35 : FVec Ideal S128x16384 .bf16) : FVec Ideal S4x16384 .f32 :=
  addf (matmul dot_S4x128_S128x16384_S4x16384_1_0_0_1_n_n none v32 v35 (constant S4x16384 .f32 0x00000000#32))
    (broadcastTo S4x16384 v34 broadcasts_S4x1_S4x16384)

/-- Its smooth absolute value. -/
def plossV (p : FVec Ideal S4x16384 .f32) : FVec Ideal S4x16384 .f32 :=
  sqrt (addf (mulf p p) (broadcast S4x16384 (Scalar.ofBits .f32 0x358637BD#32)))

/-- The six stacked temperatures: the four node temperatures, then input rows 4 and 5. -/
def tempsV (v1 : FVec Ideal S6x16384 .f32) (v3 : FVec Ideal S4x16384 .f32) : FVec Ideal S6x16384 .f32 :=
  concatenate S6x16384 0 [⟨S4x16384, v3⟩, ⟨S2x16384, extractStridedSlice S2x16384 ![4, 0] v1 slices_S6x16384_o4_0_S2x16384⟩]
    concatenates_S4x16384_S2x16384_S6x16384_d0

/-- Pair `k`'s conductance: the product with the conductance selector. -/
def cgV (x11 : Vec Ideal S24x15 .f32) (v22 : FVec Ideal S15x16384 .f32) : FVec Ideal S24x16384 .f32 :=
  matmul dot_S24x15_S15x16384_S24x16384_1_0_0_1_n_n none (truncf .bf16 x11 bitsLt_bf16_f32) (truncf .bf16 v22 bitsLt_bf16_f32)
    (constant S24x16384 .f32 0x00000000#32)

/-- Pair `k`'s temperature: the product with the temperature selector. -/
def tV (x12 : Vec Ideal S24x6 .f32) (T : FVec Ideal S6x16384 .f32) : FVec Ideal S24x16384 .f32 :=
  matmul dot_S24x6_S6x16384_S24x16384_1_0_0_1_n_n none (truncf .bf16 x12 bitsLt_bf16_f32) (truncf .bf16 T bitsLt_bf16_f32)
    (constant S24x16384 .f32 0x00000000#32)

/-- Pair `k`'s node temperature: the product with the node selector. -/
def hV (x13 : Vec Ideal S24x4 .f32) (v3 : FVec Ideal S4x16384 .f32) : FVec Ideal S24x16384 .f32 :=
  matmul dot_S24x4_S4x16384_S24x16384_1_0_0_1_n_n none (truncf .bf16 x13 bitsLt_bf16_f32) (truncf .bf16 v3 bitsLt_bf16_f32)
    (constant S24x16384 .f32 0x00000000#32)

/-- Each node's six pairs summed: the product with the 0/1 row-sum matrix. -/
def tdV (x14 : Vec Ideal S4x24 .f32) (P : FVec Ideal S24x16384 .f32) : FVec Ideal S4x16384 .f32 :=
  matmul dot_S4x24_S24x16384_S4x16384_1_0_0_1_n_n none (truncf .bf16 x14 bitsLt_bf16_f32) (truncf .bf16 P bitsLt_bf16_f32)
    (constant S4x16384 .f32 0x00000000#32)

/-- Half the exponential of the capacities, a column. -/
def decayV (x2 : Vec Ideal S4x1 .f32) : FVec Ideal S4x1 .f32 :=
  mulf (broadcast S4x1 (Scalar.ofBits .f32 0x3F000000#32)) (exp (shapeCast S4x1 x2 shapeCasts_S4x1_S4x1))

/-- The clipped explicit-Euler step. -/
def stepV (v3 : FVec Ideal S4x16384 .f32) (d : FVec Ideal S4x1 .f32) (td pl : FVec Ideal S4x16384 .f32) : FVec Ideal S4x16384 .f32 :=
  minimumf (broadcast S4x16384 (Scalar.ofBits .f32 0x40A00000#32))
    (maximumf (broadcast S4x16384 (Scalar.ofBits .f32 0xBF800000#32))
      (addf v3 (mulf (broadcastTo S4x16384 d broadcasts_S4x1_S4x16384) (addf td pl))))

/-- The body's stored value is the composition of the stages. -/
theorem pay8_eq (v1 : FVec Ideal S6x16384 .f32) (v3 : FVec Ideal S4x16384 .f32) (v22 : FVec Ideal S15x16384 .f32)
    (v32 : FVec Ideal S4x128 .bf16) (v34 : FVec Ideal S4x1 .f32) (v35 : FVec Ideal S128x16384 .bf16)
    (x11 : Vec Ideal S24x15 .f32) (x12 : Vec Ideal S24x6 .f32) (x13 : Vec Ideal S24x4 .f32) (x14 : Vec Ideal S4x24 .f32) (x2 : Vec Ideal S4x1 .f32) :
    k0_pay8 (F := Ideal) v1 v3 v22 v32 v34 v35 x11 x12 x13 x14 x2
      = stepV v3 (decayV x2) (tdV x14 (mulf (subf (tV x12 (tempsV v1 v3)) (hV x13 v3)) (cgV x11 v22))) (plossV (plinV v32 v34 v35)) := rfl

/-! ## Each stage at an entry -/

theorem plinV_apply (v32 : FVec Ideal S4x128 .bf16) (v34 : FVec Ideal S4x1 .f32) (v35 : FVec Ideal S128x16384 .bf16) (i : Fin 4) (q : Fin 16384) :
    plinV v32 v34 v35 (ix2 i q) = (∑ h : Fin 128, v32 (ix2 i h) * v35 (ix2 h q)) + v34 (ix2 i (0 : Fin 1)) :=
  affine_apply dot_S4x128_S128x16384_S4x16384_1_0_0_1_n_n rfl v32 v35 v34 broadcasts_S4x1_S4x16384 i q

theorem plossV_apply (p : FVec Ideal S4x16384 .f32) (i : Fin 4) (q : Fin 16384) :
    plossV p (ix2 i q) = Ideal.sqrt (p (ix2 i q) * p (ix2 i q) + eps) := rfl

/-- The six temperatures of lane `q`. -/
theorem tempsV_apply (v1 : FVec Ideal S6x16384 .f32) (v3 : FVec Ideal S4x16384 .f32) (j : Fin 6) (q : Fin 16384) :
    tempsV v1 v3 (ix2 j q) = rtemps (fun c => v1 (ix2 c q)) (fun k => v3 (ix2 k q)) j := by
  unfold tempsV rtemps
  by_cases h : j.val < 4
  · rw [dif_pos h]
    refine concatenate_pair_apply_left (t := S6x16384) (s₁ := S4x16384) (s₂ := S2x16384) (0 : Fin 2) _ _ _ (ix2 j q) rfl (ix2 (⟨j.val, h⟩ : Fin 4) q) ?_
    intro b
    match b with
    | ⟨0, _⟩ => rfl
    | ⟨1, _⟩ => rfl
  · rw [dif_neg h]
    refine (concatenate_pair_apply_right (t := S6x16384) (s₁ := S4x16384) (s₂ := S2x16384) (0 : Fin 2) _ _ _ (ix2 j q) rfl rfl (ix2 (⟨j.val - 4, by have := j.isLt; omega⟩ : Fin 2) q) ?_ ?_).trans ?_
    · intro b hb
      match b with
      | ⟨0, _⟩ => exact absurd rfl hb
      | ⟨1, _⟩ => rfl
    · show j.val - 4 + 4 = j.val
      omega
    · exact slice2_axis0_apply 4 v1 slices_S6x16384_o4_0_S2x16384 _ q j (by show j.val = 4 + (j.val - 4); omega)

theorem cgV_apply (x11 : Vec Ideal S24x15 .f32) (v22 : FVec Ideal S15x16384 .f32)
    (hGC : ∀ (k : Fin 24) (n : Fin 15), x11 (ix2 k n) = if n = adjK k then 1 else 0) (k : Fin 24) (q : Fin 16384) :
    cgV x11 v22 (ix2 k q) = v22 (ix2 (adjK k) q) := by
  unfold cgV
  refine (product_apply dot_S24x15_S15x16384_S24x16384_1_0_0_1_n_n rfl _ _ k q).trans ?_
  refine Eq.trans (Finset.sum_congr rfl fun n _ => ?_) (sum_sel (adjK k) fun n => v22 (ix2 n q))
  exact congrArg (· * v22 (ix2 n q)) (hGC k n)

theorem tV_apply (x12 : Vec Ideal S24x6 .f32) (T : FVec Ideal S6x16384 .f32)
    (hGT : ∀ (k : Fin 24) (j : Fin 6), x12 (ix2 k j) = if j.val = k.val % 6 then 1 else 0) (k : Fin 24) (q : Fin 16384) :
    tV x12 T (ix2 k q) = T (ix2 (⟨k.val % 6, Nat.mod_lt _ (by norm_num)⟩ : Fin 6) q) := by
  unfold tV
  refine (product_apply dot_S24x6_S6x16384_S24x16384_1_0_0_1_n_n rfl _ _ k q).trans ?_
  refine Eq.trans (Finset.sum_congr rfl fun j _ => ?_) (sum_sel_val (k.val % 6) (Nat.mod_lt _ (by norm_num)) fun j => T (ix2 j q))
  exact congrArg (· * T (ix2 j q)) (hGT k j)

theorem hV_apply (x13 : Vec Ideal S24x4 .f32) (v3 : FVec Ideal S4x16384 .f32)
    (hGH : ∀ (k : Fin 24) (p : Fin 4), x13 (ix2 k p) = if p.val = k.val / 6 then 1 else 0) (k : Fin 24) (q : Fin 16384) :
    hV x13 v3 (ix2 k q) = v3 (ix2 (⟨k.val / 6, by have := k.isLt; omega⟩ : Fin 4) q) := by
  unfold hV
  refine (product_apply dot_S24x4_S4x16384_S24x16384_1_0_0_1_n_n rfl _ _ k q).trans ?_
  refine Eq.trans (Finset.sum_congr rfl fun p _ => ?_) (sum_sel_val (k.val / 6) (by have := k.isLt; omega) fun p => v3 (ix2 p q))
  exact congrArg (· * v3 (ix2 p q)) (hGH k p)

theorem tdV_apply (x14 : Vec Ideal S4x24 .f32) (P : FVec Ideal S24x16384 .f32)
    (hR : ∀ (p : Fin 4) (k : Fin 24), x14 (ix2 p k) = if k.val / 6 = p.val then 1 else 0) (i : Fin 4) (q : Fin 16384) :
    tdV x14 P (ix2 i q) = ∑ k : Fin 24, (if k.val / 6 = i.val then (1 : EReal) else 0) * P (ix2 k q) := by
  unfold tdV
  refine (product_apply dot_S4x24_S24x16384_S4x16384_1_0_0_1_n_n rfl _ _ i q).trans ?_
  refine Finset.sum_congr rfl fun k _ => ?_
  exact congrArg (· * P (ix2 k q)) (hR i k)

theorem decayV_apply (x2 : Vec Ideal S4x1 .f32) (i : Fin 4) :
    decayV x2 (ix2 i (0 : Fin 1)) = half * Ideal.exp (x2 (ix2 i (0 : Fin 1))) := by
  unfold decayV
  refine (mulf_apply _ _ _).trans ?_
  refine congrArg₂ (· * ·) rfl ?_
  refine (exp_apply _ _).trans (congrArg Ideal.exp ?_)
  rw [shapeCast_self]

theorem stepV_apply (v3 : FVec Ideal S4x16384 .f32) (d : FVec Ideal S4x1 .f32) (td pl : FVec Ideal S4x16384 .f32) (i : Fin 4) (q : Fin 16384) :
    stepV v3 d td pl (ix2 i q) = min hi (max lo (v3 (ix2 i q) + d (ix2 i (0 : Fin 1)) * (td (ix2 i q) + pl (ix2 i q)))) := by
  unfold stepV
  refine (minimumf_apply _ _ _).trans (congrArg₂ min rfl ?_)
  refine (maximumf_apply _ _ _).trans (congrArg₂ max rfl ?_)
  refine (addf_apply _ _ _).trans (congrArg₂ (· + ·) rfl ?_)
  refine (mulf_apply _ _ _).trans (congrArg₂ (· * ·) (broadcastTo_a1_ab_apply d broadcasts_S4x1_S4x16384 i q) rfl)

end Cert.KernelIdeal.KerStep

end
-- ==== Proof.KerPayload.lean ====
/-
  The kernel body's stored value at an entry (node `i`, lane `q`) of a batch tile is the row function of lane `q`.

  With the stages read at an entry, the three selector products reduce pair `k` to `(temps (k mod 6) - hd (k div 6)) · cond (adj k)`,
  the row-sum product regroups the 24 pairs into node `i`'s six terms, and what is left differs from the row function only by the
  order of the factors inside the two sub-nets' sums.
-/
import proofs.«180992_j13649406067340_2_alg».proof.Proof.KerStep

noncomputable section

namespace Cert.KernelIdeal.KerPayload

open Idealize.ShloMosaic Idealize.ShloMosaic.ValueIdx Cert.KernelIdeal Cert.KernelIdeal.Gen Cert.CellSpec Cert.CellRow
open Cert.KernelIdeal.KerStages Cert.KernelIdeal.KerStep

/-- The stored value over arbitrary earlier stages: the clipped step of lane `q`, its temperature term already regrouped per node. -/
theorem pay8_apply (v1 : FVec Ideal S6x16384 .f32) (v3 : FVec Ideal S4x16384 .f32) (v22 : FVec Ideal S15x16384 .f32)
    (v32 : FVec Ideal S4x128 .bf16) (v34 : FVec Ideal S4x1 .f32) (v35 : FVec Ideal S128x16384 .bf16)
    (x11 : Vec Ideal S24x15 .f32) (x12 : Vec Ideal S24x6 .f32) (x13 : Vec Ideal S24x4 .f32) (x14 : Vec Ideal S4x24 .f32) (x2 : Vec Ideal S4x1 .f32)
    (hGC : ∀ (k : Fin 24) (n : Fin 15), x11 (ix2 k n) = if n = adjK k then 1 else 0)
    (hGT : ∀ (k : Fin 24) (j : Fin 6), x12 (ix2 k j) = if j.val = k.val % 6 then 1 else 0)
    (hGH : ∀ (k : Fin 24) (p : Fin 4), x13 (ix2 k p) = if p.val = k.val / 6 then 1 else 0)
    (hR : ∀ (p : Fin 4) (k : Fin 24), x14 (ix2 p k) = if k.val / 6 = p.val then 1 else 0)
    (i : Fin 4) (q : Fin 16384) :
    k0_pay8 (F := Ideal) v1 v3 v22 v32 v34 v35 x11 x12 x13 x14 x2 (ix2 i q)
      = min hi (max lo (v3 (ix2 i q) + (half * Ideal.exp (x2 (ix2 i (0 : Fin 1))))
          * ((∑ j : Fin 6, (rtemps (fun c => v1 (ix2 c q)) (fun k => v3 (ix2 k q)) j - v3 (ix2 i q)) * v22 (ix2 (adj i j) q))
            + Ideal.sqrt (((∑ h : Fin 128, v32 (ix2 i h) * v35 (ix2 h q)) + v34 (ix2 i (0 : Fin 1)))
                * ((∑ h : Fin 128, v32 (ix2 i h) * v35 (ix2 h q)) + v34 (ix2 i (0 : Fin 1))) + eps)))) := by
  rw [pay8_eq]
  refine (stepV_apply _ _ _ _ i q).trans ?_
  rw [decayV_apply, plossV_apply, plinV_apply, tdV_apply x14 _ hR]
  have e : (∑ k : Fin 24, (if k.val / 6 = i.val then (1 : EReal) else 0)
        * mulf (subf (tV x12 (tempsV v1 v3)) (hV x13 v3)) (cgV x11 v22) (ix2 k q))
      = ∑ j : Fin 6, (rtemps (fun c => v1 (ix2 c q)) (fun k => v3 (ix2 k q)) j - v3 (ix2 i q)) * v22 (ix2 (adj i j) q) := by
    refine Eq.trans (Finset.sum_congr rfl fun k _ => ?_)
      (sum_pairs i (fun j => rtemps (fun c => v1 (ix2 c q)) (fun k => v3 (ix2 k q)) j) (fun p => v3 (ix2 p q)) (fun n => v22 (ix2 n q)))
    refine congrArg ((if k.val / 6 = i.val then (1 : EReal) else 0) * ·) ?_
    refine (mulf_apply _ _ _).trans (congrArg₂ (· * ·) ((subf_apply _ _ _).trans (congrArg₂ (· - ·) ?_ ?_)) (cgV_apply x11 v22 hGC k q))
    · exact (tV_apply x12 _ hGT k q).trans (tempsV_apply v1 v3 _ q)
    · exact hV_apply x13 v3 hGH k q
  rw [e]

theorem payload_apply (x0 : Vec Ideal S6x16384 .f32) (x1 : Vec Ideal S4x16384 .f32) (x2 : Vec Ideal S4x1 .f32)
    (x3 : Vec Ideal S128x10 .f32) (x4 : Vec Ideal S128x1 .f32) (x5 : Vec Ideal S15x128 .f32) (x6 : Vec Ideal S15x1 .f32)
    (x7 : Vec Ideal S128x10 .f32) (x8 : Vec Ideal S128x1 .f32) (x9 : Vec Ideal S4x128 .f32) (x10 : Vec Ideal S4x1 .f32)
    (x11 : Vec Ideal S24x15 .f32) (x12 : Vec Ideal S24x6 .f32) (x13 : Vec Ideal S24x4 .f32) (x14 : Vec Ideal S4x24 .f32)
    (hGC : ∀ (k : Fin 24) (n : Fin 15), x11 (ix2 k n) = if n = adjK k then 1 else 0)
    (hGT : ∀ (k : Fin 24) (j : Fin 6), x12 (ix2 k j) = if j.val = k.val % 6 then 1 else 0)
    (hGH : ∀ (k : Fin 24) (p : Fin 4), x13 (ix2 k p) = if p.val = k.val / 6 then 1 else 0)
    (hR : ∀ (p : Fin 4) (k : Fin 24), x14 (ix2 p k) = if k.val / 6 = p.val then 1 else 0)
    (i : Fin 4) (q : Fin 16384) :
    k0_pay8 (F := Ideal) (k0_pay1 x0) (k0_pay2 x1) (k0_pay4 x0 x1 x3 x4 x5 x6) (k0_pay5 x9) (k0_pay6 x10) (k0_pay7 x0 x1 x7 x8)
        x11 x12 x13 x14 x2 (ix2 i q)
      = cellRow (fun c => x0 (ix2 c q)) (fun k => x1 (ix2 k q)) (fun k => x2 (ix2 k (0 : Fin 1)))
          (fun h c => x3 (ix2 h c)) (fun h => x4 (ix2 h (0 : Fin 1))) (fun n h => x5 (ix2 n h)) (fun n => x6 (ix2 n (0 : Fin 1)))
          (fun h c => x7 (ix2 h c)) (fun h => x8 (ix2 h (0 : Fin 1))) (fun k h => x9 (ix2 k h)) (fun k => x10 (ix2 k (0 : Fin 1))) i := by
  refine (pay8_apply _ _ _ _ _ _ x11 x12 x13 x14 x2 hGC hGT hGH hR i q).trans ?_
  have e1 : k0_pay1 (F := Ideal) x0 = x0 := shapeCast_self _ _
  have e2 : k0_pay2 (F := Ideal) x1 = x1 := shapeCast_self _ _
  have e6 : k0_pay6 (F := Ideal) x10 = x10 := shapeCast_self _ _
  have hc : ∀ n : Fin 15, k0_pay4 (F := Ideal) x0 x1 x3 x4 x5 x6 (ix2 n q)
      = rcond (fun h c => x3 (ix2 h c)) (fun h => x4 (ix2 h (0 : Fin 1))) (fun n h => x5 (ix2 n h)) (fun n => x6 (ix2 n (0 : Fin 1)))
          (fun c => x0 (ix2 c q)) (fun k => x1 (ix2 k q)) n := fun n => pay4_apply x0 x1 x3 x4 x5 x6 n q
  have hp : (∑ h : Fin 128, k0_pay5 (F := Ideal) x9 (ix2 i h) * k0_pay7 (F := Ideal) x0 x1 x7 x8 (ix2 h q))
      = ∑ h : Fin 128, rhidden (fun h c => x7 (ix2 h c)) (fun h => x8 (ix2 h (0 : Fin 1))) (fun c => x0 (ix2 c q)) (fun k => x1 (ix2 k q)) h
          * x9 (ix2 i h) := by
    refine Finset.sum_congr rfl fun h _ => ?_
    rw [pay7_apply, mul_comm]
    rfl
  rw [e1, e2, e6, hp]
  simp only [hc]
  rfl

end Cert.KernelIdeal.KerPayload

end
-- ==== Proof.KerHostIn.lean ====
/-
  What the kernel region finds in each of its operand arrays, entry by entry, on the extended reals.

  Before the region the program transposes the two batch-major inputs to feature-major, pads the batch axis from
  500000 to 507904 columns, reshapes the five vectors to columns, and writes the four 0/1 selector tables. So, at a
  column b < 500000, the padded transposed inputs hold the inputs' row b; a column vector holds the vector; and the
  selector tables hold, as extended reals, the indicator functions of
    n = adjK k          (24 x 15: the conductance id of the k-th (node, temperature) pair),
    j = k mod 6         (24 x 6: the pair's temperature),
    p = k div 6         (24 x 4: the pair's node),
    k div 6 = p         (4 x 24: the pairs of node p).
  The padding value is never read: only columns below 500000 are kept after the region.
-/
import proofs.«180992_j13649406067340_2_alg».proof.Proof.Gen.KernelIdeal.Frame
import proofs.«180992_j13649406067340_2_alg».proof.Proof.CellRow
import proofs.«180992_j13649406067340_2_alg».proof.Proof.LibKeepdims
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.StableHlo.Run

noncomputable section

namespace Cert.KernelIdeal.KerHostIn

open Cert.KernelIdeal Cert.KernelIdeal.Gen Cert.CellSpec Cert.CellRow
open Idealize.ShloMosaic Idealize.ShloMosaic.TcCoe Idealize.SL.Sem Idealize.ShloMosaic.ValueIdx

variable (m : (ℓ : Loc nD τ sig) → Buf (Elt Ideal) ℓ)

/-- The contents at region entry are the fold, over the launch contents, of the operations before the region: each
    operation's result buffer is rewritten to its value, every other buffer keeps what it held. -/
local macro "host_prefix" : tactic =>
  `(tactic| (dsimp only [Gen.V, Gen.V0]
             simp only [Gen.hostOps0, Gen.hostOps0_1, Gen.hostOps0_2, Gen.hostOps0_3, Gen.hostOps0_4, List.flatten_cons,
               List.flatten_nil, List.append_nil, List.cons_append, List.nil_append]
             after_results))

/-! ## The two padded, transposed inputs -/

/-- Column `b < 500000` of the padded feature-major input holds row `b` of the input. -/
theorem xT_apply (c : Dev nD) (k : Fin 6) (b : Fin 507904) (hb : b.val < 500000) :
    (V m c main_v2 : S6x507904.Idx → EReal) (ix2 k b)
      = (m ((c : Thread nD τ).loc main_arg0) : S500000x6.Idx → EReal) (ix2 (⟨b.val, hb⟩ : Fin 500000) k) := by
  host_prefix
  show pad S6x507904 ![0, 0] ![0, 7904] ![0, 0]
      (transpose S6x500000 [1, 0] (m ((c : Thread nD τ).loc main_arg0)) transposes_S500000x6_S6x500000_1_0) _
      pads_S6x500000_S6x507904_000_079040 h_S_ (ix2 k b) = _
  refine (pad_apply_of_inside ![0, 0] ![0, 7904] ![0, 0] _ _ pads_S6x500000_S6x507904_000_079040 h_S_ (ix2 k b)
    (ix2 k (⟨b.val, hb⟩ : Fin 500000)) (fun a => ?_)).trans ?_
  · match a with
    | ⟨0, _⟩ => show k.val = 0 + k.val * (0 + 1); omega
    | ⟨1, _⟩ => show b.val = 0 + b.val * (0 + 1); omega
  · exact transpose_ix2_apply _ _ k (⟨b.val, hb⟩ : Fin 500000)

/-- Column `b < 500000` of the padded node-major temperatures holds row `b` of the temperatures. -/
theorem hT_apply (c : Dev nD) (k : Fin 4) (b : Fin 507904) (hb : b.val < 500000) :
    (V m c main_v3 : S4x507904.Idx → EReal) (ix2 k b)
      = (m ((c : Thread nD τ).loc main_arg1) : S500000x4.Idx → EReal) (ix2 (⟨b.val, hb⟩ : Fin 500000) k) := by
  host_prefix
  show pad S4x507904 ![0, 0] ![0, 7904] ![0, 0]
      (transpose S4x500000 [1, 0] (m ((c : Thread nD τ).loc main_arg1)) transposes_S500000x4_S4x500000_1_0) _
      pads_S4x500000_S4x507904_000_079040 h_S_ (ix2 k b) = _
  refine (pad_apply_of_inside ![0, 0] ![0, 7904] ![0, 0] _ _ pads_S4x500000_S4x507904_000_079040 h_S_ (ix2 k b)
    (ix2 k (⟨b.val, hb⟩ : Fin 500000)) (fun a => ?_)).trans ?_
  · match a with
    | ⟨0, _⟩ => show k.val = 0 + k.val * (0 + 1); omega
    | ⟨1, _⟩ => show b.val = 0 + b.val * (0 + 1); omega
  · exact transpose_ix2_apply _ _ k (⟨b.val, hb⟩ : Fin 500000)

/-! ## The five vectors as columns -/

theorem caps_eq (c : Dev nD) : (V m c main_v4 : S4x1.Idx → EReal)
    = shapeCast S4x1 (m ((c : Thread nD τ).loc main_arg2)) shapeCasts_S4_S4x1 := by
  host_prefix; rfl
theorem cb1_eq (c : Dev nD) : (V m c main_v5 : S128x1.Idx → EReal)
    = shapeCast S128x1 (m ((c : Thread nD τ).loc main_arg4)) shapeCasts_S128_S128x1 := by
  host_prefix; rfl
theorem cb2_eq (c : Dev nD) : (V m c main_v6 : S15x1.Idx → EReal)
    = shapeCast S15x1 (m ((c : Thread nD τ).loc main_arg6)) shapeCasts_S15_S15x1 := by
  host_prefix; rfl
theorem pb1_eq (c : Dev nD) : (V m c main_v7 : S128x1.Idx → EReal)
    = shapeCast S128x1 (m ((c : Thread nD τ).loc main_arg8)) shapeCasts_S128_S128x1 := by
  host_prefix; rfl
theorem pb2_eq (c : Dev nD) : (V m c main_v8 : S4x1.Idx → EReal)
    = shapeCast S4x1 (m ((c : Thread nD τ).loc main_arg10)) shapeCasts_S4_S4x1 := by
  host_prefix; rfl

/-- The capacities' column at `(k, 0)` is the capacity of node `k`. -/
theorem caps_apply (c : Dev nD) (k : Fin 4) :
    (V m c main_v4 : S4x1.Idx → EReal) (ix2 k (0 : Fin 1)) = (m ((c : Thread nD τ).loc main_arg2) : S4.Idx → EReal) (ix1 k) :=
  (congrFun (caps_eq m c) (ix2 k (0 : Fin 1))).trans (shapeCast_a_a1_apply _ _ k 0)
/-- The conductance net's first bias as a column. -/
theorem cb1_apply (c : Dev nD) (h : Fin 128) :
    (V m c main_v5 : S128x1.Idx → EReal) (ix2 h (0 : Fin 1)) = (m ((c : Thread nD τ).loc main_arg4) : S128.Idx → EReal) (ix1 h) :=
  (congrFun (cb1_eq m c) (ix2 h (0 : Fin 1))).trans (shapeCast_a_a1_apply _ _ h 0)
/-- The conductance net's second bias as a column. -/
theorem cb2_apply (c : Dev nD) (n : Fin 15) :
    (V m c main_v6 : S15x1.Idx → EReal) (ix2 n (0 : Fin 1)) = (m ((c : Thread nD τ).loc main_arg6) : S15.Idx → EReal) (ix1 n) :=
  (congrFun (cb2_eq m c) (ix2 n (0 : Fin 1))).trans (shapeCast_a_a1_apply _ _ n 0)
/-- The power-loss net's first bias as a column. -/
theorem pb1_apply (c : Dev nD) (h : Fin 128) :
    (V m c main_v7 : S128x1.Idx → EReal) (ix2 h (0 : Fin 1)) = (m ((c : Thread nD τ).loc main_arg8) : S128.Idx → EReal) (ix1 h) :=
  (congrFun (pb1_eq m c) (ix2 h (0 : Fin 1))).trans (shapeCast_a_a1_apply _ _ h 0)
/-- The power-loss net's second bias as a column. -/
theorem pb2_apply (c : Dev nD) (k : Fin 4) :
    (V m c main_v8 : S4x1.Idx → EReal) (ix2 k (0 : Fin 1)) = (m ((c : Thread nD τ).loc main_arg10) : S4.Idx → EReal) (ix1 k) :=
  (congrFun (pb2_eq m c) (ix2 k (0 : Fin 1))).trans (shapeCast_a_a1_apply _ _ k 0)

/-! ## The four selector tables -/

/-- The words of the 24 x 15 table: the word of one where `n` is pair `k`'s conductance id, the zero word elsewhere. -/
theorem gc_word : ∀ (k : Fin 24) (n : Fin 15),
    lit0 ⟨k.val * 15 + n.val, by have := k.isLt; have := n.isLt; omega⟩ = if n = adjK k then 0x3F800000#32 else 0x00000000#32 := by
  decide +kernel
/-- The words of the 24 x 6 table: one where `j` is pair `k`'s temperature. -/
theorem gt_word : ∀ (k : Fin 24) (j : Fin 6),
    lit1 ⟨k.val * 6 + j.val, by have := k.isLt; have := j.isLt; omega⟩ = if j.val = k.val % 6 then 0x3F800000#32 else 0x00000000#32 := by
  decide +kernel
/-- The words of the 24 x 4 table: one where `p` is pair `k`'s node. -/
theorem gh_word : ∀ (k : Fin 24) (p : Fin 4),
    lit2 ⟨k.val * 4 + p.val, by have := k.isLt; have := p.isLt; omega⟩ = if p.val = k.val / 6 then 0x3F800000#32 else 0x00000000#32 := by
  decide +kernel
/-- The words of the 4 x 24 table: one where pair `k` is a pair of node `p`. -/
theorem r_word : ∀ (p : Fin 4) (k : Fin 24),
    lit3 ⟨p.val * 24 + k.val, by have := p.isLt; have := k.isLt; omega⟩ = if k.val / 6 = p.val then 0x3F800000#32 else 0x00000000#32 := by
  decide +kernel

/-- A word that is the word of one or the zero word, as an extended real. -/
theorem ofBits_ite (P : Prop) [Decidable P] :
    Ideal.ofBits .f32 (if P then 0x3F800000#32 else 0x00000000#32) = if P then (1 : EReal) else 0 := by
  split
  · exact Ideal.ofBits_one_f32
  · exact Ideal.ofBits_zero_f32

theorem gc_eq (c : Dev nD) : (V m c main_cst : S24x15.Idx → EReal) = fun i => Ideal.ofBits .f32 (lit0 (S24x15.rowMajor i)) := by
  host_prefix; rfl
theorem gt_eq (c : Dev nD) : (V m c main_cst_0 : S24x6.Idx → EReal) = fun i => Ideal.ofBits .f32 (lit1 (S24x6.rowMajor i)) := by
  host_prefix; rfl
theorem gh_eq (c : Dev nD) : (V m c main_cst_1 : S24x4.Idx → EReal) = fun i => Ideal.ofBits .f32 (lit2 (S24x4.rowMajor i)) := by
  host_prefix; rfl
theorem r_eq (c : Dev nD) : (V m c main_cst_2 : S4x24.Idx → EReal) = fun i => Ideal.ofBits .f32 (lit3 (S4x24.rowMajor i)) := by
  host_prefix; rfl

/-- The 24 x 15 table selects, for pair `k`, its conductance. -/
theorem gc_apply (c : Dev nD) (k : Fin 24) (n : Fin 15) :
    (V m c main_cst : S24x15.Idx → EReal) (ix2 k n) = if n = adjK k then (1 : EReal) else 0 := by
  refine (congrFun (gc_eq m c) (ix2 k n)).trans ?_
  show Ideal.ofBits .f32 (lit0 (S24x15.rowMajor (ix2 k n))) = _
  have e : S24x15.rowMajor (ix2 k n) = (⟨k.val * 15 + n.val, by have := k.isLt; have := n.isLt; omega⟩ : Fin 360) :=
    Fin.ext (Shape.rowMajor_val_two (ix2 k n))
  rw [e, gc_word k n]
  exact ofBits_ite _
/-- The 24 x 6 table selects, for pair `k`, its temperature. -/
theorem gt_apply (c : Dev nD) (k : Fin 24) (j : Fin 6) :
    (V m c main_cst_0 : S24x6.Idx → EReal) (ix2 k j) = if j.val = k.val % 6 then (1 : EReal) else 0 := by
  refine (congrFun (gt_eq m c) (ix2 k j)).trans ?_
  show Ideal.ofBits .f32 (lit1 (S24x6.rowMajor (ix2 k j))) = _
  have e : S24x6.rowMajor (ix2 k j) = (⟨k.val * 6 + j.val, by have := k.isLt; have := j.isLt; omega⟩ : Fin 144) :=
    Fin.ext (Shape.rowMajor_val_two (ix2 k j))
  rw [e, gt_word k j]
  exact ofBits_ite _
/-- The 24 x 4 table selects, for pair `k`, its node's temperature. -/
theorem gh_apply (c : Dev nD) (k : Fin 24) (p : Fin 4) :
    (V m c main_cst_1 : S24x4.Idx → EReal) (ix2 k p) = if p.val = k.val / 6 then (1 : EReal) else 0 := by
  refine (congrFun (gh_eq m c) (ix2 k p)).trans ?_
  show Ideal.ofBits .f32 (lit2 (S24x4.rowMajor (ix2 k p))) = _
  have e : S24x4.rowMajor (ix2 k p) = (⟨k.val * 4 + p.val, by have := k.isLt; have := p.isLt; omega⟩ : Fin 96) :=
    Fin.ext (Shape.rowMajor_val_two (ix2 k p))
  rw [e, gh_word k p]
  exact ofBits_ite _
/-- The 4 x 24 table sums, for node `p`, its six pairs. -/
theorem r_apply (c : Dev nD) (p : Fin 4) (k : Fin 24) :
    (V m c main_cst_2 : S4x24.Idx → EReal) (ix2 p k) = if k.val / 6 = p.val then (1 : EReal) else 0 := by
  refine (congrFun (r_eq m c) (ix2 p k)).trans ?_
  show Ideal.ofBits .f32 (lit3 (S4x24.rowMajor (ix2 p k))) = _
  have e : S4x24.rowMajor (ix2 p k) = (⟨p.val * 24 + k.val, by have := p.isLt; have := k.isLt; omega⟩ : Fin 96) :=
    Fin.ext (Shape.rowMajor_val_two (ix2 p k))
  rw [e, r_word p k]
  exact ofBits_ite _

end Cert.KernelIdeal.KerHostIn

end
-- ==== Proof.KerBlocks.lean ====
/-
  From the kernel's batch tiles to the whole output array.

  The region runs over 31 grid points; point t reads columns 16384 t .. 16384 t + 16383 of the two padded feature-major
  inputs, the whole of every other operand, and writes the same columns of the 4 x 507904 output. Entry (i, q) of the tile
  it writes is the cell's row function of column 16384 t + q, so the tile is the restriction of one function of the arrays
  the region finds: the cell evaluated column by column. The 31 tiles cover the output (column b lies in tile b div 16384),
  so after the region the output array is that function.
-/
import proofs.«180992_j13649406067340_2_alg».proof.Proof.KerPayload
import proofs.«180992_j13649406067340_2_alg».proof.Proof.KerHostIn
import Idealize.ShloMosaic.Lib.Pipeline.Value

noncomputable section

namespace Cert.KernelIdeal.KerBlocks

open Cert.KernelIdeal Cert.KernelIdeal.Gen Cert.CellSpec Cert.CellRow Cert.KernelIdeal.KerPayload Cert.KernelIdeal.KerHostIn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The cell evaluated column by column on the arrays the region finds: what the region's output array ends holding. -/
def outCols (c : Dev nD) : Mat 4 507904 :=
  cellCols (V m c main_v2) (V m c main_v3) (V m c main_v4) (V m c main_arg3) (V m c main_v5) (V m c main_arg5)
    (V m c main_v6) (V m c main_arg7) (V m c main_v7) (V m c main_arg9) (V m c main_v8)

/-! ## The block indices, decided over the grid -/

/-- The two batch-tiled inputs and the output move together: row block 0, column block `t`; and there are 31 points. -/
theorem tile_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_15.index t (0 : Fin 2) = 0 ∧ win0_15.index t (1 : Fin 2) = t.val ∧ t.val < 31 :=
  (by decide +kernel : ∀ t : Fin grid0.N, _)

/-- Every other operand's block is its whole array: block index (0, 0) at every point. -/
theorem caps_index : ∀ t : Fin cfg0.N, win0_2.index t (0 : Fin 2) = 0 ∧ win0_2.index t (1 : Fin 2) = 0 :=
  (by decide +kernel : ∀ t : Fin grid0.N, _)
theorem cw1_index : ∀ t : Fin cfg0.N, win0_3.index t (0 : Fin 2) = 0 ∧ win0_3.index t (1 : Fin 2) = 0 :=
  (by decide +kernel : ∀ t : Fin grid0.N, _)
theorem cb1_index : ∀ t : Fin cfg0.N, win0_4.index t (0 : Fin 2) = 0 ∧ win0_4.index t (1 : Fin 2) = 0 :=
  (by decide +kernel : ∀ t : Fin grid0.N, _)
theorem cw2_index : ∀ t : Fin cfg0.N, win0_5.index t (0 : Fin 2) = 0 ∧ win0_5.index t (1 : Fin 2) = 0 :=
  (by decide +kernel : ∀ t : Fin grid0.N, _)
theorem cb2_index : ∀ t : Fin cfg0.N, win0_6.index t (0 : Fin 2) = 0 ∧ win0_6.index t (1 : Fin 2) = 0 :=
  (by decide +kernel : ∀ t : Fin grid0.N, _)
theorem pw1_index : ∀ t : Fin cfg0.N, win0_7.index t (0 : Fin 2) = 0 ∧ win0_7.index t (1 : Fin 2) = 0 :=
  (by decide +kernel : ∀ t : Fin grid0.N, _)
theorem pb1_index : ∀ t : Fin cfg0.N, win0_8.index t (0 : Fin 2) = 0 ∧ win0_8.index t (1 : Fin 2) = 0 :=
  (by decide +kernel : ∀ t : Fin grid0.N, _)
theorem pw2_index : ∀ t : Fin cfg0.N, win0_9.index t (0 : Fin 2) = 0 ∧ win0_9.index t (1 : Fin 2) = 0 :=
  (by decide +kernel : ∀ t : Fin grid0.N, _)
theorem pb2_index : ∀ t : Fin cfg0.N, win0_10.index t (0 : Fin 2) = 0 ∧ win0_10.index t (1 : Fin 2) = 0 :=
  (by decide +kernel : ∀ t : Fin grid0.N, _)
theorem gc_index : ∀ t : Fin cfg0.N, win0_11.index t (0 : Fin 2) = 0 ∧ win0_11.index t (1 : Fin 2) = 0 :=
  (by decide +kernel : ∀ t : Fin grid0.N, _)
theorem gt_index : ∀ t : Fin cfg0.N, win0_12.index t (0 : Fin 2) = 0 ∧ win0_12.index t (1 : Fin 2) = 0 :=
  (by decide +kernel : ∀ t : Fin grid0.N, _)
theorem gh_index : ∀ t : Fin cfg0.N, win0_13.index t (0 : Fin 2) = 0 ∧ win0_13.index t (1 : Fin 2) = 0 :=
  (by decide +kernel : ∀ t : Fin grid0.N, _)
theorem r_index : ∀ t : Fin cfg0.N, win0_14.index t (0 : Fin 2) = 0 ∧ win0_14.index t (1 : Fin 2) = 0 :=
  (by decide +kernel : ∀ t : Fin grid0.N, _)

/-! ## Each input block, read where the array holds it -/

/-- Entry `(k, q)` of the input tile at point `t` is column `16384 t + q` of the padded input. -/
theorem inp_tile (c : Dev nD) (t : Fin cfg0.N) (k : Fin 6) (q : Fin 16384) (j : Fin 507904) (hj : j.val = t.val * 16384 + q.val) :
    (iblk m c 0 t : S6x16384.Idx → EReal) (ix2 k q) = (V m c main_v2 : S6x507904.Idx → EReal) (ix2 k j) := by
  obtain ⟨e0, e1, -⟩ := tile_index t
  show (V m c main_v2 : S6x507904.Idx → EReal) (((cfg0.win 0).blk t).view.emb (ix2 k q)) = V m c main_v2 (ix2 k j)
  refine congrArg (V m c main_v2 : S6x507904.Idx → EReal) (funext fun a => Fin.ext ?_)
  match a with
  | ⟨0, _⟩ => show win0_0.index t (0 : Fin 2) * 6 + 1 * k.val = k.val; omega
  | ⟨1, _⟩ => show win0_0.index t (1 : Fin 2) * 16384 + 1 * q.val = j.val; omega

/-- Entry `(k, q)` of the temperature tile at point `t` is column `16384 t + q` of the padded temperatures. -/
theorem hid_tile (c : Dev nD) (t : Fin cfg0.N) (k : Fin 4) (q : Fin 16384) (j : Fin 507904) (hj : j.val = t.val * 16384 + q.val) :
    (iblk m c 1 t : S4x16384.Idx → EReal) (ix2 k q) = (V m c main_v3 : S4x507904.Idx → EReal) (ix2 k j) := by
  obtain ⟨-, -, e0, e1, -⟩ := tile_index t
  show (V m c main_v3 : S4x507904.Idx → EReal) (((cfg0.win 1).blk t).view.emb (ix2 k q)) = V m c main_v3 (ix2 k j)
  refine congrArg (V m c main_v3 : S4x507904.Idx → EReal) (funext fun a => Fin.ext ?_)
  match a with
  | ⟨0, _⟩ => show win0_1.index t (0 : Fin 2) * 4 + 1 * k.val = k.val; omega
  | ⟨1, _⟩ => show win0_1.index t (1 : Fin 2) * 16384 + 1 * q.val = j.val; omega

/-- A whole-array operand's block is the array. -/
theorem caps_tile (c : Dev nD) (t : Fin cfg0.N) : (iblk m c 2 t : S4x1.Idx → EReal) = (V m c main_v4 : S4x1.Idx → EReal) := by
  obtain ⟨e0, e1⟩ := caps_index t
  funext y
  show (V m c main_v4 : S4x1.Idx → EReal) (((cfg0.win 2).blk t).view.emb y) = V m c main_v4 y
  refine congrArg (V m c main_v4 : S4x1.Idx → EReal) (funext fun a => Fin.ext ?_)
  match a with
  | ⟨0, _⟩ => show win0_2.index t (0 : Fin 2) * 4 + 1 * (y 0).val = (y 0).val; omega
  | ⟨1, _⟩ => show win0_2.index t (1 : Fin 2) * 1 + 1 * (y 1).val = (y 1).val; omega
theorem cw1_tile (c : Dev nD) (t : Fin cfg0.N) : (iblk m c 3 t : S128x10.Idx → EReal) = (V m c main_arg3 : S128x10.Idx → EReal) := by
  obtain ⟨e0, e1⟩ := cw1_index t
  funext y
  show (V m c main_arg3 : S128x10.Idx → EReal) (((cfg0.win 3).blk t).view.emb y) = V m c main_arg3 y
  refine congrArg (V m c main_arg3 : S128x10.Idx → EReal) (funext fun a => Fin.ext ?_)
  match a with
  | ⟨0, _⟩ => show win0_3.index t (0 : Fin 2) * 128 + 1 * (y 0).val = (y 0).val; omega
  | ⟨1, _⟩ => show win0_3.index t (1 : Fin 2) * 10 + 1 * (y 1).val = (y 1).val; omega
theorem cb1_tile (c : Dev nD) (t : Fin cfg0.N) : (iblk m c 4 t : S128x1.Idx → EReal) = (V m c main_v5 : S128x1.Idx → EReal) := by
  obtain ⟨e0, e1⟩ := cb1_index t
  funext y
  show (V m c main_v5 : S128x1.Idx → EReal) (((cfg0.win 4).blk t).view.emb y) = V m c main_v5 y
  refine congrArg (V m c main_v5 : S128x1.Idx → EReal) (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega
theorem cw2_tile (c : Dev nD) (t : Fin cfg0.N) : (iblk m c 5 t : S15x128.Idx → EReal) = (V m c main_arg5 : S15x128.Idx → EReal) := by
  obtain ⟨e0, e1⟩ := cw2_index t
  funext y
  show (V m c main_arg5 : S15x128.Idx → EReal) (((cfg0.win 5).blk t).view.emb y) = V m c main_arg5 y
  refine congrArg (V m c main_arg5 : S15x128.Idx → EReal) (funext fun a => Fin.ext ?_)
  match a with
  | ⟨0, _⟩ => show win0_5.index t (0 : Fin 2) * 15 + 1 * (y 0).val = (y 0).val; omega
  | ⟨1, _⟩ => show win0_5.index t (1 : Fin 2) * 128 + 1 * (y 1).val = (y 1).val; omega
theorem cb2_tile (c : Dev nD) (t : Fin cfg0.N) : (iblk m c 6 t : S15x1.Idx → EReal) = (V m c main_v6 : S15x1.Idx → EReal) := by
  obtain ⟨e0, e1⟩ := cb2_index t
  funext y
  show (V m c main_v6 : S15x1.Idx → EReal) (((cfg0.win 6).blk t).view.emb y) = V m c main_v6 y
  refine congrArg (V m c main_v6 : S15x1.Idx → EReal) (funext fun a => Fin.ext ?_)
  match a with
  | ⟨0, _⟩ => show win0_6.index t (0 : Fin 2) * 15 + 1 * (y 0).val = (y 0).val; omega
  | ⟨1, _⟩ => show win0_6.index t (1 : Fin 2) * 1 + 1 * (y 1).val = (y 1).val; omega
theorem pw1_tile (c : Dev nD) (t : Fin cfg0.N) : (iblk m c 7 t : S128x10.Idx → EReal) = (V m c main_arg7 : S128x10.Idx → EReal) := by
  obtain ⟨e0, e1⟩ := pw1_index t
  funext y
  show (V m c main_arg7 : S128x10.Idx → EReal) (((cfg0.win 7).blk t).view.emb y) = V m c main_arg7 y
  refine congrArg (V m c main_arg7 : S128x10.Idx → EReal) (funext fun a => Fin.ext ?_)
  match a with
  | ⟨0, _⟩ => show win0_7.index t (0 : Fin 2) * 128 + 1 * (y 0).val = (y 0).val; omega
  | ⟨1, _⟩ => show win0_7.index t (1 : Fin 2) * 10 + 1 * (y 1).val = (y 1).val; omega
theorem pb1_tile (c : Dev nD) (t : Fin cfg0.N) : (iblk m c 8 t : S128x1.Idx → EReal) = (V m c main_v7 : S128x1.Idx → EReal) := by
  obtain ⟨e0, e1⟩ := pb1_index t
  funext y
  show (V m c main_v7 : S128x1.Idx → EReal) (((cfg0.win 8).blk t).view.emb y) = V m c main_v7 y
  refine congrArg (V m c main_v7 : S128x1.Idx → EReal) (funext fun a => Fin.ext ?_)
  match a with
  | ⟨0, _⟩ => show win0_8.index t (0 : Fin 2) * 128 + 1 * (y 0).val = (y 0).val; omega
  | ⟨1, _⟩ => show win0_8.index t (1 : Fin 2) * 1 + 1 * (y 1).val = (y 1).val; omega
theorem pw2_tile (c : Dev nD) (t : Fin cfg0.N) : (iblk m c 9 t : S4x128.Idx → EReal) = (V m c main_arg9 : S4x128.Idx → EReal) := by
  obtain ⟨e0, e1⟩ := pw2_index t
  funext y
  show (V m c main_arg9 : S4x128.Idx → EReal) (((cfg0.win 9).blk t).view.emb y) = V m c main_arg9 y
  refine congrArg (V m c main_arg9 : S4x128.Idx → EReal) (funext fun a => Fin.ext ?_)
  match a with
  | ⟨0, _⟩ => show win0_9.index t (0 : Fin 2) * 4 + 1 * (y 0).val = (y 0).val; omega
  | ⟨1, _⟩ => show win0_9.index t (1 : Fin 2) * 128 + 1 * (y 1).val = (y 1).val; omega
theorem pb2_tile (c : Dev nD) (t : Fin cfg0.N) : (iblk m c 10 t : S4x1.Idx → EReal) = (V m c main_v8 : S4x1.Idx → EReal) := by
  obtain ⟨e0, e1⟩ := pb2_index t
  funext y
  show (V m c main_v8 : S4x1.Idx → EReal) (((cfg0.win 10).blk t).view.emb y) = V m c main_v8 y
  refine congrArg (V m c main_v8 : S4x1.Idx → EReal) (funext fun a => Fin.ext ?_)
  match a with
  | ⟨0, _⟩ => show win0_10.index t (0 : Fin 2) * 4 + 1 * (y 0).val = (y 0).val; omega
  | ⟨1, _⟩ => show win0_10.index t (1 : Fin 2) * 1 + 1 * (y 1).val = (y 1).val; omega
theorem gc_tile (c : Dev nD) (t : Fin cfg0.N) : (iblk m c 11 t : S24x15.Idx → EReal) = (V m c main_cst : S24x15.Idx → EReal) := by
  obtain ⟨e0, e1⟩ := gc_index t
  funext y
  show (V m c main_cst : S24x15.Idx → EReal) (((cfg0.win 11).blk t).view.emb y) = V m c main_cst y
  refine congrArg (V m c main_cst : S24x15.Idx → EReal) (funext fun a => Fin.ext ?_)
  match a with
  | ⟨0, _⟩ => show win0_11.index t (0 : Fin 2) * 24 + 1 * (y 0).val = (y 0).val; omega
  | ⟨1, _⟩ => show win0_11.index t (1 : Fin 2) * 15 + 1 * (y 1).val = (y 1).val; omega
theorem gt_tile (c : Dev nD) (t : Fin cfg0.N) : (iblk m c 12 t : S24x6.Idx → EReal) = (V m c main_cst_0 : S24x6.Idx → EReal) := by
  obtain ⟨e0, e1⟩ := gt_index t
  funext y
  show (V m c main_cst_0 : S24x6.Idx → EReal) (((cfg0.win 12).blk t).view.emb y) = V m c main_cst_0 y
  refine congrArg (V m c main_cst_0 : S24x6.Idx → EReal) (funext fun a => Fin.ext ?_)
  match a with
  | ⟨0, _⟩ => show win0_12.index t (0 : Fin 2) * 24 + 1 * (y 0).val = (y 0).val; omega
  | ⟨1, _⟩ => show win0_12.index t (1 : Fin 2) * 6 + 1 * (y 1).val = (y 1).val; omega
theorem gh_tile (c : Dev nD) (t : Fin cfg0.N) : (iblk m c 13 t : S24x4.Idx → EReal) = (V m c main_cst_1 : S24x4.Idx → EReal) := by
  obtain ⟨e0, e1⟩ := gh_index t
  funext y
  show (V m c main_cst_1 : S24x4.Idx → EReal) (((cfg0.win 13).blk t).view.emb y) = V m c main_cst_1 y
  refine congrArg (V m c main_cst_1 : S24x4.Idx → EReal) (funext fun a => Fin.ext ?_)
  match a with
  | ⟨0, _⟩ => show win0_13.index t (0 : Fin 2) * 24 + 1 * (y 0).val = (y 0).val; omega
  | ⟨1, _⟩ => show win0_13.index t (1 : Fin 2) * 4 + 1 * (y 1).val = (y 1).val; omega
theorem r_tile (c : Dev nD) (t : Fin cfg0.N) : (iblk m c 14 t : S4x24.Idx → EReal) = (V m c main_cst_2 : S4x24.Idx → EReal) := by
  obtain ⟨e0, e1⟩ := r_index t
  funext y
  show (V m c main_cst_2 : S4x24.Idx → EReal) (((cfg0.win 14).blk t).view.emb y) = V m c main_cst_2 y
  refine congrArg (V m c main_cst_2 : S4x24.Idx → EReal) (funext fun a => Fin.ext ?_)
  match a with
  | ⟨0, _⟩ => show win0_14.index t (0 : Fin 2) * 4 + 1 * (y 0).val = (y 0).val; omega
  | ⟨1, _⟩ => show win0_14.index t (1 : Fin 2) * 24 + 1 * (y 1).val = (y 1).val; omega

/-! ## One entry of a tile -/

/-- Over any blocks: if the two batch tiles are columns `j = 16384 t + q` of arrays `xT`, `hT`, the other blocks are
    the arrays, and the selector blocks are the indicators, the stored value at `(i, q)` is the cell's column function at
    `(i, j)`. -/
theorem tile_entry (x0 : Vec Ideal S6x16384 .f32) (x1 : Vec Ideal S4x16384 .f32) (x2 : Vec Ideal S4x1 .f32)
    (x3 : Vec Ideal S128x10 .f32) (x4 : Vec Ideal S128x1 .f32) (x5 : Vec Ideal S15x128 .f32) (x6 : Vec Ideal S15x1 .f32)
    (x7 : Vec Ideal S128x10 .f32) (x8 : Vec Ideal S128x1 .f32) (x9 : Vec Ideal S4x128 .f32) (x10 : Vec Ideal S4x1 .f32)
    (x11 : Vec Ideal S24x15 .f32) (x12 : Vec Ideal S24x6 .f32) (x13 : Vec Ideal S24x4 .f32) (x14 : Vec Ideal S4x24 .f32)
    (xT : Mat 6 507904) (hT : Mat 4 507904) (caps : Mat 4 1) (cw1 : Mat 128 10) (cb1 : Mat 128 1) (cw2 : Mat 15 128)
    (cb2 : Mat 15 1) (pw1 : Mat 128 10) (pb1 : Mat 128 1) (pw2 : Mat 4 128) (pb2 : Mat 4 1)
    (hGC : ∀ (k : Fin 24) (n : Fin 15), x11 (ix2 k n) = if n = adjK k then 1 else 0)
    (hGT : ∀ (k : Fin 24) (j : Fin 6), x12 (ix2 k j) = if j.val = k.val % 6 then 1 else 0)
    (hGH : ∀ (k : Fin 24) (p : Fin 4), x13 (ix2 k p) = if p.val = k.val / 6 then 1 else 0)
    (hR : ∀ (p : Fin 4) (k : Fin 24), x14 (ix2 p k) = if k.val / 6 = p.val then 1 else 0)
    (i : Fin 4) (q : Fin 16384) (j : Fin 507904)
    (h0 : ∀ k : Fin 6, x0 (ix2 k q) = xT (ix2 k j)) (h1 : ∀ k : Fin 4, x1 (ix2 k q) = hT (ix2 k j))
    (h2 : x2 = caps) (h3 : x3 = cw1) (h4 : x4 = cb1) (h5 : x5 = cw2) (h6 : x6 = cb2) (h7 : x7 = pw1) (h8 : x8 = pb1)
    (h9 : x9 = pw2) (h10 : x10 = pb2) :
    k0_pay8 (F := Ideal) (k0_pay1 x0) (k0_pay2 x1) (k0_pay4 x0 x1 x3 x4 x5 x6) (k0_pay5 x9) (k0_pay6 x10) (k0_pay7 x0 x1 x7 x8)
        x11 x12 x13 x14 x2 (ix2 i q)
      = cellCols xT hT caps cw1 cb1 cw2 cb2 pw1 pb1 pw2 pb2 (ix2 i j) := by
  subst h2 h3 h4 h5 h6 h7 h8 h9 h10
  refine (payload_apply x0 x1 x2 x3 x4 x5 x6 x7 x8 x9 x10 x11 x12 x13 x14 hGC hGT hGH hR i q).trans ?_
  have e0 : (fun c : Fin 6 => x0 (ix2 c q)) = fun c => xT (ix2 c j) := funext h0
  have e1 : (fun k : Fin 4 => x1 (ix2 k q)) = fun k => hT (ix2 k j) := funext h1
  rw [e0, e1]
  rfl

/-! ## What a point writes back, the cover, the array -/

/-- What point `t` writes back is tile `t` of the cell evaluated column by column. -/
theorem tile_flushed (c : Dev nD) (t : Fin cfg0.N) :
    (dats m 0 c).flushed 15 t = ((cfg0.win 15).blk t).view.read (Elt Ideal) (outCols m c) := by
  show (cfg0.win 15).cut (grid0.coords t) ((dats m 0 c).after 15 t) = _
  rw [after0_15]
  unfold out0_15
  rw [View.canon_unit_zero hz]
  simp only [View.ld_unit_zero (S := S6x16384) hz, View.ld_unit_zero (S := S4x16384) hz, View.ld_unit_zero (S := S128x10) hz, View.ld_unit_zero (S := S128x1) hz, View.ld_unit_zero (S := S15x128) hz, View.ld_unit_zero (S := S15x1) hz, View.ld_unit_zero (S := S4x128) hz, View.ld_unit_zero (S := S4x1) hz, View.ld_unit_zero (S := S24x15) hz, View.ld_unit_zero (S := S24x6) hz, View.ld_unit_zero (S := S24x4) hz, View.ld_unit_zero (S := S4x24) hz]
  obtain ⟨-, -, -, -, e0, e1, ht⟩ := tile_index t
  funext y
  obtain ⟨i, q, rfl⟩ : ∃ (i : Fin 4) (q : Fin 16384), y = ix2 i q := ⟨y 0, y 1, eq_ix2 y⟩
  have hlt : t.val * 16384 + q.val < 507904 := by have := q.isLt; omega
  refine (tile_entry (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (V m c main_v2) (V m c main_v3) (V m c main_v4) (V m c main_arg3) (V m c main_v5) (V m c main_arg5)
    (V m c main_v6) (V m c main_arg7) (V m c main_v7) (V m c main_arg9) (V m c main_v8)
    (fun k n => (congrFun (gc_tile m c t) (ix2 k n)).trans (gc_apply m c k n))
    (fun k j => (congrFun (gt_tile m c t) (ix2 k j)).trans (gt_apply m c k j))
    (fun k p => (congrFun (gh_tile m c t) (ix2 k p)).trans (gh_apply m c k p))
    (fun p k => (congrFun (r_tile m c t) (ix2 p k)).trans (r_apply m c p k))
    i q (⟨t.val * 16384 + q.val, hlt⟩ : Fin 507904)
    (fun k => inp_tile m c t k q _ rfl) (fun k => hid_tile m c t k q _ rfl)
    (caps_tile m c t) (cw1_tile m c t) (cb1_tile m c t) (cw2_tile m c t) (cb2_tile m c t) (pw1_tile m c t) (pb1_tile m c t)
    (pw2_tile m c t) (pb2_tile m c t)).trans ?_
  show outCols m c (ix2 i (⟨t.val * 16384 + q.val, hlt⟩ : Fin 507904)) = outCols m c (((cfg0.win 15).blk t).view.emb (ix2 i q))
  refine congrArg (outCols m c) (funext fun a => Fin.ext ?_)
  match a with
  | ⟨0, _⟩ => show i.val = win0_15.index t (0 : Fin 2) * 4 + 1 * i.val; omega
  | ⟨1, _⟩ => show t.val * 16384 + q.val = win0_15.index t (1 : Fin 2) * 16384 + 1 * q.val; omega

/-- An index of the output is in point `t`'s tile iff each coordinate is in the tile's range on its axis. -/
theorem tile_mem (t : Fin cfg0.N) (y : S4x507904.Idx) :
    y ∈ ((cfg0.win 15).blk t).view.set ↔ ∀ a : Fin 2, win0_15.index t a * S4x16384.size a ≤ (y a).val
      ∧ (y a).val < win0_15.index t a * S4x16384.size a + S4x16384.size a := by
  show y ∈ ((View.whole main_v9).slice (win0_15.rect t)).set ↔ _
  rw [View.set_slice_whole, Rect.mem_set_unit]
  exact Iff.rfl

/-- Every index of the output is in some point's tile: column `b` in tile `b div 16384`; every point writes back. -/
theorem tile_cover (y : S4x507904.Idx) :
    ∃ t : Fin cfg0.N, (cfg0.win 15).flush t = true ∧ y ∈ ((cfg0.win 15).blk t).view.set := by
  have h0 : (y 0).val < 4 := (y 0).isLt
  have h1 : (y 1).val < 507904 := (y 1).isLt
  obtain ⟨t, ht⟩ : ∃ t : Fin cfg0.N, t.val = (y 1).val / 16384 :=
    ⟨⟨(y 1).val / 16384, by rw [show cfg0.N = 31 from N_0]; omega⟩, rfl⟩
  obtain ⟨-, -, -, -, e0, e1, -⟩ := tile_index t
  refine ⟨t, flush0_15 t, ?_⟩
  rw [tile_mem]
  intro a
  match a with
  | ⟨0, _⟩ =>
    show win0_15.index t (0 : Fin 2) * 4 ≤ (y 0).val ∧ (y 0).val < win0_15.index t (0 : Fin 2) * 4 + 4
    omega
  | ⟨1, _⟩ =>
    show win0_15.index t (1 : Fin 2) * 16384 ≤ (y 1).val ∧ (y 1).val < win0_15.index t (1 : Fin 2) * 16384 + 16384
    omega

/-- The output array after the region is the cell evaluated column by column on the arrays the region finds. -/
theorem out_final (c : Dev nD) : (dats m 0 c).arrAt 15 cfg0.N = outCols m c :=
  (dats m 0 c).arrAt_eq_of_cover 15 (outCols m c) (fun t _ => tile_flushed m c t) tile_cover

/-- The same, with the column function written out over the arrays the region finds. -/
theorem final (c : Dev nD) : (dats m 0 c).arrAt 15 cfg0.N
    = cellCols (V m c main_v2) (V m c main_v3) (V m c main_v4) (V m c main_arg3) (V m c main_v5) (V m c main_arg5)
        (V m c main_v6) (V m c main_arg7) (V m c main_v7) (V m c main_arg9) (V m c main_v8) :=
  out_final m c

end Cert.KernelIdeal.KerBlocks

end
-- ==== Proof.KerTail.lean ====
/-
  The lines after the call: the kernel's output, stored node-major over the padded batch, is cut back to the 500000 true
  columns and transposed. At `(b, i)` the program's second result is the output array at `(i, b)`.
-/
import proofs.«180992_j13649406067340_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.KerTail

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The two lines after the call, over any contents: the transpose of the slice of the call's result. -/
theorem tail_eq (W : Valuation τ sig (Elt Ideal)) :
    StableHlo.after (hostOps1 (F := Ideal)) W (Proc.devRef .tc main_v11)
      = transpose S500000x4 [1, 0] (extractStridedSlice S4x500000 ![0, 0] (W (Proc.devRef .tc main_v9)) slices_S4x507904_S4x500000_0_0)
          transposes_S4x500000_S500000x4_1_0 := by
  after_results

/-- The program's second result at `(b, i)` is the call's output array at `(i, b)`. -/
theorem tail_apply (c : Dev nD) (b : Fin 500000) (i : Fin 4) :
    (Pipeline.afterTail₀ cfgs (dats m) 0 (V0 m) [hostOps1] c main_v11 : S500000x4.Idx → EReal) (ix2 b i)
      = ((dats m 0 c).arrAt 15 cfg0.N : S4x507904.Idx → EReal) (ix2 i (⟨b.val, by have := b.isLt; omega⟩ : Fin 507904)) := by
  unfold Pipeline.afterTail₀
  show StableHlo.after (hostOps1 (F := Ideal)) _ (Proc.devRef .tc main_v11) (ix2 b i) = _
  rw [tail_eq]
  refine (transpose_ix2_apply _ transposes_S4x500000_S500000x4_1_0 b i).trans ?_
  refine (slice2_axis1_apply 0 _ slices_S4x507904_S4x500000_0_0 i b (⟨b.val, by have := b.isLt; omega⟩ : Fin 507904) (by simp)).trans ?_
  exact congrFun (Pipeline.withArrays_arr spec0 launch0.win.arr_inj c _ _ 15) _

end Cert.KernelIdeal.KerTail

end
-- ==== Proof.KerValue.lean ====
/-
  The kernel program's second result is the cell of its argument arrays.

  After the region the output array holds the cell evaluated column by column on the padded feature-major arrays; the two
  operations after the region keep columns 0 .. 499999 and transpose, so entry (b, i) of the result is the column function
  at (i, b). Column b < 500000 of the padded inputs is row b of the arguments, the column vectors are the argument
  vectors, and the four weight matrices are read in place: the column function at (i, b) is the cell's row function of
  row b, which is the specification at (b, i). The eleven argument arrays end as they were launched.
-/
import proofs.«180992_j13649406067340_2_alg».proof.Proof.KerBlocks
import proofs.«180992_j13649406067340_2_alg».proof.Proof.KerTail
import proofs.«180992_j13649406067340_2_alg».proof.Proof.KerHostIn

noncomputable section

namespace Cert.KernelIdeal.KerValue

open Cert.KernelIdeal Cert.KernelIdeal.Gen Cert.CellSpec Cert.CellRow Cert.KernelIdeal.KerHostIn
open Idealize.ShloMosaic Idealize.ShloMosaic.TcCoe Idealize.SL.Sem Idealize.ShloMosaic.ValueIdx
open Idealize.ShloMosaic.Pipeline (Dat)

/-- The row function depends on its eleven arguments only through their values. -/
theorem cellRow_congr {x x' : Fin 6 → EReal} {hd hd' : Fin 4 → EReal} {caps caps' : Fin 4 → EReal}
    {cw1 cw1' : Fin 128 → Fin 10 → EReal} {cb1 cb1' : Fin 128 → EReal} {cw2 cw2' : Fin 15 → Fin 128 → EReal}
    {cb2 cb2' : Fin 15 → EReal} {pw1 pw1' : Fin 128 → Fin 10 → EReal} {pb1 pb1' : Fin 128 → EReal}
    {pw2 pw2' : Fin 4 → Fin 128 → EReal} {pb2 pb2' : Fin 4 → EReal} (i : Fin 4)
    (h0 : x = x') (h1 : hd = hd') (h2 : caps = caps') (h3 : cw1 = cw1') (h4 : cb1 = cb1') (h5 : cw2 = cw2') (h6 : cb2 = cb2')
    (h7 : pw1 = pw1') (h8 : pb1 = pb1') (h9 : pw2 = pw2') (h10 : pb2 = pb2') :
    cellRow x hd caps cw1 cb1 cw2 cb2 pw1 pb1 pw2 pb2 i = cellRow x' hd' caps' cw1' cb1' cw2' cb2' pw1' pb1' pw2' pb2' i := by
  subst h0 h1 h2 h3 h4 h5 h6 h7 h8 h9 h10; rfl

variable (m : (ℓ : Loc nD τ sig) → Buf (Elt Ideal) ℓ) (ρ : Dev nD → PrngReg)

/-- The column function on the arrays the region finds, at node `i` and a column `j < 500000`, is the specification at
    row `j`, node `i`. -/
theorem col_eq_spec (c : Dev nD) (i : Fin 4) (j : Fin 507904) (hb : j.val < 500000) :
    cellCols (V m c main_v2) (V m c main_v3) (V m c main_v4) (V m c main_arg3) (V m c main_v5) (V m c main_arg5) (V m c main_v6) (V m c main_arg7) (V m c main_v7) (V m c main_arg9) (V m c main_v8) (ix2 i j)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 (⟨j.val, hb⟩ : Fin 500000) i) := by
  refine Eq.trans ?_ (G_row _ _ _ _ _ _ _ _ _ _ _ (⟨j.val, hb⟩ : Fin 500000) i).symm
  exact cellRow_congr i (funext fun k => xT_apply m c k j hb) (funext fun k => hT_apply m c k j hb)
    (funext fun k => caps_apply m c k)
    (congrArg (fun (A : S128x10.Idx → EReal) (h : Fin 128) (c' : Fin 10) => A (ix2 h c')) (V_main_arg3 m c))
    (funext fun h => cb1_apply m c h)
    (congrArg (fun (A : S15x128.Idx → EReal) (n : Fin 15) (h : Fin 128) => A (ix2 n h)) (V_main_arg5 m c))
    (funext fun n => cb2_apply m c n)
    (congrArg (fun (A : S128x10.Idx → EReal) (h : Fin 128) (c' : Fin 10) => A (ix2 h c')) (V_main_arg7 m c))
    (funext fun h => pb1_apply m c h)
    (congrArg (fun (A : S4x128.Idx → EReal) (k : Fin 4) (h : Fin 128) => A (ix2 k h)) (V_main_arg9 m c))
    (funext fun k => pb2_apply m c k)

/-- What the operations after the region leave in the result: the specification of the argument arrays. -/
theorem result_eq (c : Dev nD) :
    (Pipeline.afterTail₀ cfgs (dats m) 0 (V0 m) [hostOps1] c main_v11 : S500000x4.Idx → EReal)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext y
  obtain ⟨b, i, rfl⟩ : ∃ (b : Fin 500000) (i : Fin 4), y = ix2 b i := ⟨y 0, y 1, eq_ix2 y⟩
  exact (KerTail.tail_apply m c b i).trans ((congrFun (KerBlocks.final m c) _).trans (col_eq_spec m c i _ b.isLt))

/-- Every weakly fair execution of the program terminates without a fault; its second result is the specification of
    the argument arrays, and the argument arrays are unchanged. -/
theorem run : θ_run (defs (F := Ideal)) (onTc (τ := τ) (main (F := Ideal))) ⟨m, fun _ => 0, ρ⟩ fun r => ∀ c : Dev nD,
      r.2.mem ((c.tc : Thread nD τ).loc main_v11)
        = Cert.CellSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c)⟩)
    (Gen.run_main m ρ)

end Cert.KernelIdeal.KerValue

end
-- ==== Proof.RefRun.lean ====
/-
  The reference program's @main as the list of its 73 host operations (the clipping callee's six listed inline over
  its call's buffers), cut into six consecutive pieces, and its run: every weakly fair execution terminates with each
  buffer at the fold of the operations' results over the launch contents.
-/
import proofs.«180992_j13649406067340_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The index table, the temperatures, the features and the conductance net's first layer (statements 1 … 10). -/
abbrev ops1 : List (HloOp τ sig (Elt F)) :=
  [ nullary main_c (fun i => lit0 (S4x6.rowMajor i)),
    unary main_arg0 main_v0 ((extractStridedSlice S500000x2 ![0, 4] · slices_S500000x6_S500000x2_0_4) : (⟨S500000x6, .f32⟩ : BufTy).Contents (Elt F) → (⟨S500000x2, .f32⟩ : BufTy).Contents (Elt F)),
    binary main_arg1 main_v0 main_v1 ((fun a b => concatenate S500000x6 1 [⟨S500000x4, a⟩, ⟨S500000x2, b⟩] concatenates_S500000x4_S500000x2_S500000x6_d1) : (⟨S500000x4, .f32⟩ : BufTy).Contents (Elt F) → (⟨S500000x2, .f32⟩ : BufTy).Contents (Elt F) → (⟨S500000x6, .f32⟩ : BufTy).Contents (Elt F)),
    binary main_arg0 main_arg1 main_v2 ((fun a b => concatenate S500000x10 1 [⟨S500000x6, a⟩, ⟨S500000x4, b⟩] concatenates_S500000x6_S500000x4_S500000x10_d1) : (⟨S500000x6, .f32⟩ : BufTy).Contents (Elt F) → (⟨S500000x4, .f32⟩ : BufTy).Contents (Elt F) → (⟨S500000x10, .f32⟩ : BufTy).Contents (Elt F)),
    unary main_arg3 main_v3 ((transpose S10x128 [1, 0] · transposes_S128x10_S10x128_1_0) : (⟨S128x10, .f32⟩ : BufTy).Contents (Elt F) → (⟨S10x128, .f32⟩ : BufTy).Contents (Elt F)),
    binary main_v2 main_v3 main_v4 ((fun l r => Host.dotGeneral dot_S500000x10_S10x128_S500000x128_1_0_0_1_n_n none l r) : (⟨S500000x10, .f32⟩ : BufTy).Contents (Elt F) → (⟨S10x128, .f32⟩ : BufTy).Contents (Elt F) → (⟨S500000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S500000x128 ![0, 1] bcast_S1x128_S500000x128_0_1 : (⟨S1x128, .f32⟩ : BufTy).Contents (Elt F) → (⟨S500000x128, .f32⟩ : BufTy).Contents (Elt F)),
    binary main_v4 main_v6 main_v7 (addf : (⟨S500000x128, .f32⟩ : BufTy).Contents (Elt F) → (⟨S500000x128, .f32⟩ : BufTy).Contents (Elt F) → (⟨S500000x128, .f32⟩ : BufTy).Contents (Elt F)),
    unary main_v7 main_v8 (Host.tanh : (⟨S500000x128, .f32⟩ : BufTy).Contents (Elt F) → (⟨S500000x128, .f32⟩ : BufTy).Contents (Elt F)) ]

/-- The conductance net's second layer and its logistic unit (statements 11 … 23). -/
abbrev ops2 : List (HloOp τ sig (Elt F)) :=
  [ unary main_arg5 main_v9 ((transpose S128x15 [1, 0] · transposes_S15x128_S128x15_1_0) : (⟨S15x128, .f32⟩ : BufTy).Contents (Elt F) → (⟨S128x15, .f32⟩ : BufTy).Contents (Elt F)),
    binary main_v8 main_v9 main_v10 ((fun l r => Host.dotGeneral dot_S500000x128_S128x15_S500000x15_1_0_0_1_n_n none l r) : (⟨S500000x128, .f32⟩ : BufTy).Contents (Elt F) → (⟨S128x15, .f32⟩ : BufTy).Contents (Elt F) → (⟨S500000x15, .f32⟩ : BufTy).Contents (Elt F)),
    unary main_arg6 main_v11 (broadcastInDim S1x15 ![1] bcast_S15_S1x15_1 : (⟨S15, .f32⟩ : BufTy).Contents (Elt F) → (⟨S1x15, .f32⟩ : BufTy).Contents (Elt F)),
    unary main_v11 main_v12 (broadcastInDim S500000x15 ![0, 1] bcast_S1x15_S500000x15_0_1 : (⟨S1x15, .f32⟩ : BufTy).Contents (Elt F) → (⟨S500000x15, .f32⟩ : BufTy).Contents (Elt F)),
    binary main_v10 main_v12 main_v13 (addf : (⟨S500000x15, .f32⟩ : BufTy).Contents (Elt F) → (⟨S500000x15, .f32⟩ : BufTy).Contents (Elt F) → (⟨S500000x15, .f32⟩ : BufTy).Contents (Elt F)),
    unary main_v13 main_v14 (Host.negf : (⟨S500000x15, .f32⟩ : BufTy).Contents (Elt F) → (⟨S500000x15, .f32⟩ : BufTy).Contents (Elt F)),
    unary main_v14 main_v15 (Host.exp : (⟨S500000x15, .f32⟩ : BufTy).Contents (Elt F) → (⟨S500000x15, .f32⟩ : BufTy).Contents (Elt F)),
    nullary main_cst (constant S_ .f32 0x3F800000#32),
    unary main_cst main_v16 (broadcastInDim S500000x15 ![] bcast_S_S500000x15 : (⟨S_, .f32⟩ : BufTy).Contents (Elt F) → (⟨S500000x15, .f32⟩ : BufTy).Contents (Elt F)),
    binary main_v16 main_v15 main_v17 (addf : (⟨S500000x15, .f32⟩ : BufTy).Contents (Elt F) → (⟨S500000x15, .f32⟩ : BufTy).Contents (Elt F) → (⟨S500000x15, .f32⟩ : BufTy).Contents (Elt F)),
    nullary main_cst_0 (constant S_ .f32 0x3F800000#32),
    unary main_cst_0 main_v18 (broadcastInDim S500000x15 ![] bcast_S_S500000x15 : (⟨S_, .f32⟩ : BufTy).Contents (Elt F) → (⟨S500000x15, .f32⟩ : BufTy).Contents (Elt F)),
    binary main_v18 main_v17 main_v19 (Host.divf : (⟨S500000x15, .f32⟩ : BufTy).Contents (Elt F) → (⟨S500000x15, .f32⟩ : BufTy).Contents (Elt F) → (⟨S500000x15, .f32⟩ : BufTy).Contents (Elt F)) ]

/-- The power-loss net and its smooth absolute value (statements 24 … 39). -/
abbrev ops3 : List (HloOp τ sig (Elt F)) :=
  [ unary main_arg7 main_v20 ((transpose S10x128 [1, 0] · transposes_S128x10_S10x128_1_0) : (⟨S128x10, .f32⟩ : BufTy).Contents (Elt F) → (⟨S10x128, .f32⟩ : BufTy).Contents (Elt F)),
    binary main_v2 main_v20 main_v21 ((fun l r => Host.dotGeneral dot_S500000x10_S10x128_S500000x128_1_0_0_1_n_n none l r) : (⟨S500000x10, .f32⟩ : BufTy).Contents (Elt F) → (⟨S10x128, .f32⟩ : BufTy).Contents (Elt F) → (⟨S500000x128, .f32⟩ : BufTy).Contents (Elt F)),
    unary main_arg8 main_v22 (broadcastInDim S1x128 ![1] bcast_S128_S1x128_1 : (⟨S128, .f32⟩ : BufTy).Contents (Elt F) → (⟨S1x128, .f32⟩ : BufTy).Contents (Elt F)),
    unary main_v22 main_v23 (broadcastInDim S500000x128 ![0, 1] bcast_S1x128_S500000x128_0_1 : (⟨S1x128, .f32⟩ : BufTy).Contents (Elt F) → (⟨S500000x128, .f32⟩ : BufTy).Contents (Elt F)),
    binary main_v21 main_v23 main_v24 (addf : (⟨S500000x128, .f32⟩ : BufTy).Contents (Elt F) → (⟨S500000x128, .f32⟩ : BufTy).Contents (Elt F) → (⟨S500000x128, .f32⟩ : BufTy).Contents (Elt F)),
    unary main_v24 main_v25 (Host.tanh : (⟨S500000x128, .f32⟩ : BufTy).Contents (Elt F) → (⟨S500000x128, .f32⟩ : BufTy).Contents (Elt F)),
    unary main_arg9 main_v26 ((transpose S128x4 [1, 0] · transposes_S4x128_S128x4_1_0) : (⟨S4x128, .f32⟩ : BufTy).Contents (Elt F) → (⟨S128x4, .f32⟩ : BufTy).Contents (Elt F)),
    binary main_v25 main_v26 main_v27 ((fun l r => Host.dotGeneral dot_S500000x128_S128x4_S500000x4_1_0_0_1_n_n none l r) : (⟨S500000x128, .f32⟩ : BufTy).Contents (Elt F) → (⟨S128x4, .f32⟩ : BufTy).Contents (Elt F) → (⟨S500000x4, .f32⟩ : BufTy).Contents (Elt F)),
    unary main_arg10 main_v28 (broadcastInDim S1x4 ![1] bcast_S4_S1x4_1 : (⟨S4, .f32⟩ : BufTy).Contents (Elt F) → (⟨S1x4, .f32⟩ : BufTy).Contents (Elt F)),
    unary main_v28 main_v29 (broadcastInDim S500000x4 ![0, 1] bcast_S1x4_S500000x4_0_1 : (⟨S1x4, .f32⟩ : BufTy).Contents (Elt F) → (⟨S500000x4, .f32⟩ : BufTy).Contents (Elt F)),
    binary main_v27 main_v29 main_v30 (addf : (⟨S500000x4, .f32⟩ : BufTy).Contents (Elt F) → (⟨S500000x4, .f32⟩ : BufTy).Contents (Elt F) → (⟨S500000x4, .f32⟩ : BufTy).Contents (Elt F)),
    binary main_v30 main_v30 main_v31 (mulf : (⟨S500000x4, .f32⟩ : BufTy).Contents (Elt F) → (⟨S500000x4, .f32⟩ : BufTy).Contents (Elt F) → (⟨S500000x4, .f32⟩ : BufTy).Contents (Elt F)),
    nullary main_cst_1 (constant S_ .f32 0x358637BD#32),
    unary main_cst_1 main_v32 (broadcastInDim S500000x4 ![] bcast_S_S500000x4 : (⟨S_, .f32⟩ : BufTy).Contents (Elt F) → (⟨S500000x4, .f32⟩ : BufTy).Contents (Elt F)),
    binary main_v31 main_v32 main_v33 (addf : (⟨S500000x4, .f32⟩ : BufTy).Contents (Elt F) → (⟨S500000x4, .f32⟩ : BufTy).Contents (Elt F) → (⟨S500000x4, .f32⟩ : BufTy).Contents (Elt F)),
    unary main_v33 main_v34 (Host.sqrt : (⟨S500000x4, .f32⟩ : BufTy).Contents (Elt F) → (⟨S500000x4, .f32⟩ : BufTy).Contents (Elt F)) ]

/-- The index table normalised and the conductances gathered along it (statements 40 … 48). -/
abbrev ops4 : List (HloOp τ sig (Elt F)) :=
  [ nullary main_c_2 (constantI S_ 32 0#32),
    unary main_c_2 main_v35 (broadcastInDim S4x6 ![] bcast_S_S4x6 : (⟨S_, .i32⟩ : BufTy).Contents (Elt F) → (⟨S4x6, .i32⟩ : BufTy).Contents (Elt F)),
    binary main_c main_v35 main_v36 (cmpi .slt : (⟨S4x6, .i32⟩ : BufTy).Contents (Elt F) → (⟨S4x6, .i32⟩ : BufTy).Contents (Elt F) → (⟨S4x6, .i1⟩ : BufTy).Contents (Elt F)),
    nullary main_c_3 (constantI S_ 32 15#32),
    unary main_c_3 main_v37 (broadcastInDim S4x6 ![] bcast_S_S4x6 : (⟨S_, .i32⟩ : BufTy).Contents (Elt F) → (⟨S4x6, .i32⟩ : BufTy).Contents (Elt F)),
    binary main_c main_v37 main_v38 (addi : (⟨S4x6, .i32⟩ : BufTy).Contents (Elt F) → (⟨S4x6, .i32⟩ : BufTy).Contents (Elt F) → (⟨S4x6, .i32⟩ : BufTy).Contents (Elt F)),
    ternary main_v36 main_v38 main_c main_v39 (select : (⟨S4x6, .i1⟩ : BufTy).Contents (Elt F) → (⟨S4x6, .i32⟩ : BufTy).Contents (Elt F) → (⟨S4x6, .i32⟩ : BufTy).Contents (Elt F) → (⟨S4x6, .i32⟩ : BufTy).Contents (Elt F)),
    unary main_v39 main_v40 (broadcastInDim S4x6x1 ![0, 1] bcast_S4x6_S4x6x1_0_1 : (⟨S4x6, .i32⟩ : BufTy).Contents (Elt F) → (⟨S4x6x1, .i32⟩ : BufTy).Contents (Elt F)),
    binary main_v19 main_v40 main_v41 ((fun x i => Host.gather gather_S500000x15_S4x6x1_S500000x4x6_0_1_n_n_1_2_5000001 x i) : (⟨S500000x15, .f32⟩ : BufTy).Contents (Elt F) → (⟨S4x6x1, .i32⟩ : BufTy).Contents (Elt F) → (⟨S500000x4x6, .f32⟩ : BufTy).Contents (Elt F)) ]

/-- The temperature differences weighted and summed, and the step's factor (statements 49 … 60). -/
abbrev ops5 : List (HloOp τ sig (Elt F)) :=
  [ unary main_v1 main_v42 (broadcastInDim S500000x1x6 ![0, 2] bcast_S500000x6_S500000x1x6_0_2 : (⟨S500000x6, .f32⟩ : BufTy).Contents (Elt F) → (⟨S500000x1x6, .f32⟩ : BufTy).Contents (Elt F)),
    unary main_arg1 main_v43 (broadcastInDim S500000x4x1 ![0, 1] bcast_S500000x4_S500000x4x1_0_1 : (⟨S500000x4, .f32⟩ : BufTy).Contents (Elt F) → (⟨S500000x4x1, .f32⟩ : BufTy).Contents (Elt F)),
    unary main_v42 main_v44 (broadcastInDim S500000x4x6 ![0, 1, 2] bcast_S500000x1x6_S500000x4x6_0_1_2 : (⟨S500000x1x6, .f32⟩ : BufTy).Contents (Elt F) → (⟨S500000x4x6, .f32⟩ : BufTy).Contents (Elt F)),
    unary main_v43 main_v45 (broadcastInDim S500000x4x6 ![0, 1, 2] bcast_S500000x4x1_S500000x4x6_0_1_2 : (⟨S500000x4x1, .f32⟩ : BufTy).Contents (Elt F) → (⟨S500000x4x6, .f32⟩ : BufTy).Contents (Elt F)),
    binary main_v44 main_v45 main_v46 (subf : (⟨S500000x4x6, .f32⟩ : BufTy).Contents (Elt F) → (⟨S500000x4x6, .f32⟩ : BufTy).Contents (Elt F) → (⟨S500000x4x6, .f32⟩ : BufTy).Contents (Elt F)),
    binary main_v46 main_v41 main_v47 (mulf : (⟨S500000x4x6, .f32⟩ : BufTy).Contents (Elt F) → (⟨S500000x4x6, .f32⟩ : BufTy).Contents (Elt F) → (⟨S500000x4x6, .f32⟩ : BufTy).Contents (Elt F)),
    nullary main_cst_4 (constant S_ .f32 0x00000000#32),
    binary main_v47 main_cst_4 main_v48 ((fun x v => Host.reduceAdd x v reducesTo_S500000x4x6_S500000x4_d2 h_S_) : (⟨S500000x4x6, .f32⟩ : BufTy).Contents (Elt F) → (⟨S_, .f32⟩ : BufTy).Contents (Elt F) → (⟨S500000x4, .f32⟩ : BufTy).Contents (Elt F)),
    unary main_arg2 main_v49 (Host.exp : (⟨S4, .f32⟩ : BufTy).Contents (Elt F) → (⟨S4, .f32⟩ : BufTy).Contents (Elt F)),
    nullary main_cst_5 (constant S_ .f32 0x3F000000#32),
    unary main_cst_5 main_v50 (broadcastInDim S4 ![] bcast_S_S4 : (⟨S_, .f32⟩ : BufTy).Contents (Elt F) → (⟨S4, .f32⟩ : BufTy).Contents (Elt F)),
    binary main_v50 main_v49 main_v51 (mulf : (⟨S4, .f32⟩ : BufTy).Contents (Elt F) → (⟨S4, .f32⟩ : BufTy).Contents (Elt F) → (⟨S4, .f32⟩ : BufTy).Contents (Elt F)) ]

/-- The explicit-Euler step and its clipping (statements 61 … 73). -/
abbrev ops6 : List (HloOp τ sig (Elt F)) :=
  [ binary main_v48 main_v34 main_v52 (addf : (⟨S500000x4, .f32⟩ : BufTy).Contents (Elt F) → (⟨S500000x4, .f32⟩ : BufTy).Contents (Elt F) → (⟨S500000x4, .f32⟩ : BufTy).Contents (Elt F)),
    unary main_v51 main_v53 (broadcastInDim S1x4 ![1] bcast_S4_S1x4_1 : (⟨S4, .f32⟩ : BufTy).Contents (Elt F) → (⟨S1x4, .f32⟩ : BufTy).Contents (Elt F)),
    unary main_v53 main_v54 (broadcastInDim S500000x4 ![0, 1] bcast_S1x4_S500000x4_0_1 : (⟨S1x4, .f32⟩ : BufTy).Contents (Elt F) → (⟨S500000x4, .f32⟩ : BufTy).Contents (Elt F)),
    binary main_v54 main_v52 main_v55 (mulf : (⟨S500000x4, .f32⟩ : BufTy).Contents (Elt F) → (⟨S500000x4, .f32⟩ : BufTy).Contents (Elt F) → (⟨S500000x4, .f32⟩ : BufTy).Contents (Elt F)),
    binary main_arg1 main_v55 main_v56 (addf : (⟨S500000x4, .f32⟩ : BufTy).Contents (Elt F) → (⟨S500000x4, .f32⟩ : BufTy).Contents (Elt F) → (⟨S500000x4, .f32⟩ : BufTy).Contents (Elt F)),
    nullary main_cst_6 (constant S_ .f32 0xBF800000#32),
    nullary main_cst_7 (constant S_ .f32 0x40A00000#32),
    TRef.unary (.of main_cst_6) main_call0.v0 id,
    TRef.unary main_call0.v0 main_call0.v1 (broadcastInDim S500000x4 ![] bcast_S_S500000x4),
    TRef.binary main_call0.v1 (.of main_v56) main_call0.v2 maximumf,
    TRef.unary (.of main_cst_7) main_call0.v3 id,
    TRef.unary main_call0.v3 main_call0.v4 (broadcastInDim S500000x4 ![] bcast_S_S500000x4),
    TRef.binary main_call0.v4 main_call0.v2 main_call0.v5 minimumf ]

/-- @main's 73 operations, in order. -/
abbrev ops : List (HloOp τ sig (Elt F)) :=
  [ nullary main_c (fun i => lit0 (S4x6.rowMajor i)),
    unary main_arg0 main_v0 ((extractStridedSlice S500000x2 ![0, 4] · slices_S500000x6_S500000x2_0_4) : (⟨S500000x6, .f32⟩ : BufTy).Contents (Elt F) → (⟨S500000x2, .f32⟩ : BufTy).Contents (Elt F)),
    binary main_arg1 main_v0 main_v1 ((fun a b => concatenate S500000x6 1 [⟨S500000x4, a⟩, ⟨S500000x2, b⟩] concatenates_S500000x4_S500000x2_S500000x6_d1) : (⟨S500000x4, .f32⟩ : BufTy).Contents (Elt F) → (⟨S500000x2, .f32⟩ : BufTy).Contents (Elt F) → (⟨S500000x6, .f32⟩ : BufTy).Contents (Elt F)),
    binary main_arg0 main_arg1 main_v2 ((fun a b => concatenate S500000x10 1 [⟨S500000x6, a⟩, ⟨S500000x4, b⟩] concatenates_S500000x6_S500000x4_S500000x10_d1) : (⟨S500000x6, .f32⟩ : BufTy).Contents (Elt F) → (⟨S500000x4, .f32⟩ : BufTy).Contents (Elt F) → (⟨S500000x10, .f32⟩ : BufTy).Contents (Elt F)),
    unary main_arg3 main_v3 ((transpose S10x128 [1, 0] · transposes_S128x10_S10x128_1_0) : (⟨S128x10, .f32⟩ : BufTy).Contents (Elt F) → (⟨S10x128, .f32⟩ : BufTy).Contents (Elt F)),
    binary main_v2 main_v3 main_v4 ((fun l r => Host.dotGeneral dot_S500000x10_S10x128_S500000x128_1_0_0_1_n_n none l r) : (⟨S500000x10, .f32⟩ : BufTy).Contents (Elt F) → (⟨S10x128, .f32⟩ : BufTy).Contents (Elt F) → (⟨S500000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S500000x128 ![0, 1] bcast_S1x128_S500000x128_0_1 : (⟨S1x128, .f32⟩ : BufTy).Contents (Elt F) → (⟨S500000x128, .f32⟩ : BufTy).Contents (Elt F)),
    binary main_v4 main_v6 main_v7 (addf : (⟨S500000x128, .f32⟩ : BufTy).Contents (Elt F) → (⟨S500000x128, .f32⟩ : BufTy).Contents (Elt F) → (⟨S500000x128, .f32⟩ : BufTy).Contents (Elt F)),
    unary main_v7 main_v8 (Host.tanh : (⟨S500000x128, .f32⟩ : BufTy).Contents (Elt F) → (⟨S500000x128, .f32⟩ : BufTy).Contents (Elt F)),
    unary main_arg5 main_v9 ((transpose S128x15 [1, 0] · transposes_S15x128_S128x15_1_0) : (⟨S15x128, .f32⟩ : BufTy).Contents (Elt F) → (⟨S128x15, .f32⟩ : BufTy).Contents (Elt F)),
    binary main_v8 main_v9 main_v10 ((fun l r => Host.dotGeneral dot_S500000x128_S128x15_S500000x15_1_0_0_1_n_n none l r) : (⟨S500000x128, .f32⟩ : BufTy).Contents (Elt F) → (⟨S128x15, .f32⟩ : BufTy).Contents (Elt F) → (⟨S500000x15, .f32⟩ : BufTy).Contents (Elt F)),
    unary main_arg6 main_v11 (broadcastInDim S1x15 ![1] bcast_S15_S1x15_1 : (⟨S15, .f32⟩ : BufTy).Contents (Elt F) → (⟨S1x15, .f32⟩ : BufTy).Contents (Elt F)),
    unary main_v11 main_v12 (broadcastInDim S500000x15 ![0, 1] bcast_S1x15_S500000x15_0_1 : (⟨S1x15, .f32⟩ : BufTy).Contents (Elt F) → (⟨S500000x15, .f32⟩ : BufTy).Contents (Elt F)),
    binary main_v10 main_v12 main_v13 (addf : (⟨S500000x15, .f32⟩ : BufTy).Contents (Elt F) → (⟨S500000x15, .f32⟩ : BufTy).Contents (Elt F) → (⟨S500000x15, .f32⟩ : BufTy).Contents (Elt F)),
    unary main_v13 main_v14 (Host.negf : (⟨S500000x15, .f32⟩ : BufTy).Contents (Elt F) → (⟨S500000x15, .f32⟩ : BufTy).Contents (Elt F)),
    unary main_v14 main_v15 (Host.exp : (⟨S500000x15, .f32⟩ : BufTy).Contents (Elt F) → (⟨S500000x15, .f32⟩ : BufTy).Contents (Elt F)),
    nullary main_cst (constant S_ .f32 0x3F800000#32),
    unary main_cst main_v16 (broadcastInDim S500000x15 ![] bcast_S_S500000x15 : (⟨S_, .f32⟩ : BufTy).Contents (Elt F) → (⟨S500000x15, .f32⟩ : BufTy).Contents (Elt F)),
    binary main_v16 main_v15 main_v17 (addf : (⟨S500000x15, .f32⟩ : BufTy).Contents (Elt F) → (⟨S500000x15, .f32⟩ : BufTy).Contents (Elt F) → (⟨S500000x15, .f32⟩ : BufTy).Contents (Elt F)),
    nullary main_cst_0 (constant S_ .f32 0x3F800000#32),
    unary main_cst_0 main_v18 (broadcastInDim S500000x15 ![] bcast_S_S500000x15 : (⟨S_, .f32⟩ : BufTy).Contents (Elt F) → (⟨S500000x15, .f32⟩ : BufTy).Contents (Elt F)),
    binary main_v18 main_v17 main_v19 (Host.divf : (⟨S500000x15, .f32⟩ : BufTy).Contents (Elt F) → (⟨S500000x15, .f32⟩ : BufTy).Contents (Elt F) → (⟨S500000x15, .f32⟩ : BufTy).Contents (Elt F)),
    unary main_arg7 main_v20 ((transpose S10x128 [1, 0] · transposes_S128x10_S10x128_1_0) : (⟨S128x10, .f32⟩ : BufTy).Contents (Elt F) → (⟨S10x128, .f32⟩ : BufTy).Contents (Elt F)),
    binary main_v2 main_v20 main_v21 ((fun l r => Host.dotGeneral dot_S500000x10_S10x128_S500000x128_1_0_0_1_n_n none l r) : (⟨S500000x10, .f32⟩ : BufTy).Contents (Elt F) → (⟨S10x128, .f32⟩ : BufTy).Contents (Elt F) → (⟨S500000x128, .f32⟩ : BufTy).Contents (Elt F)),
    unary main_arg8 main_v22 (broadcastInDim S1x128 ![1] bcast_S128_S1x128_1 : (⟨S128, .f32⟩ : BufTy).Contents (Elt F) → (⟨S1x128, .f32⟩ : BufTy).Contents (Elt F)),
    unary main_v22 main_v23 (broadcastInDim S500000x128 ![0, 1] bcast_S1x128_S500000x128_0_1 : (⟨S1x128, .f32⟩ : BufTy).Contents (Elt F) → (⟨S500000x128, .f32⟩ : BufTy).Contents (Elt F)),
    binary main_v21 main_v23 main_v24 (addf : (⟨S500000x128, .f32⟩ : BufTy).Contents (Elt F) → (⟨S500000x128, .f32⟩ : BufTy).Contents (Elt F) → (⟨S500000x128, .f32⟩ : BufTy).Contents (Elt F)),
    unary main_v24 main_v25 (Host.tanh : (⟨S500000x128, .f32⟩ : BufTy).Contents (Elt F) → (⟨S500000x128, .f32⟩ : BufTy).Contents (Elt F)),
    unary main_arg9 main_v26 ((transpose S128x4 [1, 0] · transposes_S4x128_S128x4_1_0) : (⟨S4x128, .f32⟩ : BufTy).Contents (Elt F) → (⟨S128x4, .f32⟩ : BufTy).Contents (Elt F)),
    binary main_v25 main_v26 main_v27 ((fun l r => Host.dotGeneral dot_S500000x128_S128x4_S500000x4_1_0_0_1_n_n none l r) : (⟨S500000x128, .f32⟩ : BufTy).Contents (Elt F) → (⟨S128x4, .f32⟩ : BufTy).Contents (Elt F) → (⟨S500000x4, .f32⟩ : BufTy).Contents (Elt F)),
    unary main_arg10 main_v28 (broadcastInDim S1x4 ![1] bcast_S4_S1x4_1 : (⟨S4, .f32⟩ : BufTy).Contents (Elt F) → (⟨S1x4, .f32⟩ : BufTy).Contents (Elt F)),
    unary main_v28 main_v29 (broadcastInDim S500000x4 ![0, 1] bcast_S1x4_S500000x4_0_1 : (⟨S1x4, .f32⟩ : BufTy).Contents (Elt F) → (⟨S500000x4, .f32⟩ : BufTy).Contents (Elt F)),
    binary main_v27 main_v29 main_v30 (addf : (⟨S500000x4, .f32⟩ : BufTy).Contents (Elt F) → (⟨S500000x4, .f32⟩ : BufTy).Contents (Elt F) → (⟨S500000x4, .f32⟩ : BufTy).Contents (Elt F)),
    binary main_v30 main_v30 main_v31 (mulf : (⟨S500000x4, .f32⟩ : BufTy).Contents (Elt F) → (⟨S500000x4, .f32⟩ : BufTy).Contents (Elt F) → (⟨S500000x4, .f32⟩ : BufTy).Contents (Elt F)),
    nullary main_cst_1 (constant S_ .f32 0x358637BD#32),
    unary main_cst_1 main_v32 (broadcastInDim S500000x4 ![] bcast_S_S500000x4 : (⟨S_, .f32⟩ : BufTy).Contents (Elt F) → (⟨S500000x4, .f32⟩ : BufTy).Contents (Elt F)),
    binary main_v31 main_v32 main_v33 (addf : (⟨S500000x4, .f32⟩ : BufTy).Contents (Elt F) → (⟨S500000x4, .f32⟩ : BufTy).Contents (Elt F) → (⟨S500000x4, .f32⟩ : BufTy).Contents (Elt F)),
    unary main_v33 main_v34 (Host.sqrt : (⟨S500000x4, .f32⟩ : BufTy).Contents (Elt F) → (⟨S500000x4, .f32⟩ : BufTy).Contents (Elt F)),
    nullary main_c_2 (constantI S_ 32 0#32),
    unary main_c_2 main_v35 (broadcastInDim S4x6 ![] bcast_S_S4x6 : (⟨S_, .i32⟩ : BufTy).Contents (Elt F) → (⟨S4x6, .i32⟩ : BufTy).Contents (Elt F)),
    binary main_c main_v35 main_v36 (cmpi .slt : (⟨S4x6, .i32⟩ : BufTy).Contents (Elt F) → (⟨S4x6, .i32⟩ : BufTy).Contents (Elt F) → (⟨S4x6, .i1⟩ : BufTy).Contents (Elt F)),
    nullary main_c_3 (constantI S_ 32 15#32),
    unary main_c_3 main_v37 (broadcastInDim S4x6 ![] bcast_S_S4x6 : (⟨S_, .i32⟩ : BufTy).Contents (Elt F) → (⟨S4x6, .i32⟩ : BufTy).Contents (Elt F)),
    binary main_c main_v37 main_v38 (addi : (⟨S4x6, .i32⟩ : BufTy).Contents (Elt F) → (⟨S4x6, .i32⟩ : BufTy).Contents (Elt F) → (⟨S4x6, .i32⟩ : BufTy).Contents (Elt F)),
    ternary main_v36 main_v38 main_c main_v39 (select : (⟨S4x6, .i1⟩ : BufTy).Contents (Elt F) → (⟨S4x6, .i32⟩ : BufTy).Contents (Elt F) → (⟨S4x6, .i32⟩ : BufTy).Contents (Elt F) → (⟨S4x6, .i32⟩ : BufTy).Contents (Elt F)),
    unary main_v39 main_v40 (broadcastInDim S4x6x1 ![0, 1] bcast_S4x6_S4x6x1_0_1 : (⟨S4x6, .i32⟩ : BufTy).Contents (Elt F) → (⟨S4x6x1, .i32⟩ : BufTy).Contents (Elt F)),
    binary main_v19 main_v40 main_v41 ((fun x i => Host.gather gather_S500000x15_S4x6x1_S500000x4x6_0_1_n_n_1_2_5000001 x i) : (⟨S500000x15, .f32⟩ : BufTy).Contents (Elt F) → (⟨S4x6x1, .i32⟩ : BufTy).Contents (Elt F) → (⟨S500000x4x6, .f32⟩ : BufTy).Contents (Elt F)),
    unary main_v1 main_v42 (broadcastInDim S500000x1x6 ![0, 2] bcast_S500000x6_S500000x1x6_0_2 : (⟨S500000x6, .f32⟩ : BufTy).Contents (Elt F) → (⟨S500000x1x6, .f32⟩ : BufTy).Contents (Elt F)),
    unary main_arg1 main_v43 (broadcastInDim S500000x4x1 ![0, 1] bcast_S500000x4_S500000x4x1_0_1 : (⟨S500000x4, .f32⟩ : BufTy).Contents (Elt F) → (⟨S500000x4x1, .f32⟩ : BufTy).Contents (Elt F)),
    unary main_v42 main_v44 (broadcastInDim S500000x4x6 ![0, 1, 2] bcast_S500000x1x6_S500000x4x6_0_1_2 : (⟨S500000x1x6, .f32⟩ : BufTy).Contents (Elt F) → (⟨S500000x4x6, .f32⟩ : BufTy).Contents (Elt F)),
    unary main_v43 main_v45 (broadcastInDim S500000x4x6 ![0, 1, 2] bcast_S500000x4x1_S500000x4x6_0_1_2 : (⟨S500000x4x1, .f32⟩ : BufTy).Contents (Elt F) → (⟨S500000x4x6, .f32⟩ : BufTy).Contents (Elt F)),
    binary main_v44 main_v45 main_v46 (subf : (⟨S500000x4x6, .f32⟩ : BufTy).Contents (Elt F) → (⟨S500000x4x6, .f32⟩ : BufTy).Contents (Elt F) → (⟨S500000x4x6, .f32⟩ : BufTy).Contents (Elt F)),
    binary main_v46 main_v41 main_v47 (mulf : (⟨S500000x4x6, .f32⟩ : BufTy).Contents (Elt F) → (⟨S500000x4x6, .f32⟩ : BufTy).Contents (Elt F) → (⟨S500000x4x6, .f32⟩ : BufTy).Contents (Elt F)),
    nullary main_cst_4 (constant S_ .f32 0x00000000#32),
    binary main_v47 main_cst_4 main_v48 ((fun x v => Host.reduceAdd x v reducesTo_S500000x4x6_S500000x4_d2 h_S_) : (⟨S500000x4x6, .f32⟩ : BufTy).Contents (Elt F) → (⟨S_, .f32⟩ : BufTy).Contents (Elt F) → (⟨S500000x4, .f32⟩ : BufTy).Contents (Elt F)),
    unary main_arg2 main_v49 (Host.exp : (⟨S4, .f32⟩ : BufTy).Contents (Elt F) → (⟨S4, .f32⟩ : BufTy).Contents (Elt F)),
    nullary main_cst_5 (constant S_ .f32 0x3F000000#32),
    unary main_cst_5 main_v50 (broadcastInDim S4 ![] bcast_S_S4 : (⟨S_, .f32⟩ : BufTy).Contents (Elt F) → (⟨S4, .f32⟩ : BufTy).Contents (Elt F)),
    binary main_v50 main_v49 main_v51 (mulf : (⟨S4, .f32⟩ : BufTy).Contents (Elt F) → (⟨S4, .f32⟩ : BufTy).Contents (Elt F) → (⟨S4, .f32⟩ : BufTy).Contents (Elt F)),
    binary main_v48 main_v34 main_v52 (addf : (⟨S500000x4, .f32⟩ : BufTy).Contents (Elt F) → (⟨S500000x4, .f32⟩ : BufTy).Contents (Elt F) → (⟨S500000x4, .f32⟩ : BufTy).Contents (Elt F)),
    unary main_v51 main_v53 (broadcastInDim S1x4 ![1] bcast_S4_S1x4_1 : (⟨S4, .f32⟩ : BufTy).Contents (Elt F) → (⟨S1x4, .f32⟩ : BufTy).Contents (Elt F)),
    unary main_v53 main_v54 (broadcastInDim S500000x4 ![0, 1] bcast_S1x4_S500000x4_0_1 : (⟨S1x4, .f32⟩ : BufTy).Contents (Elt F) → (⟨S500000x4, .f32⟩ : BufTy).Contents (Elt F)),
    binary main_v54 main_v52 main_v55 (mulf : (⟨S500000x4, .f32⟩ : BufTy).Contents (Elt F) → (⟨S500000x4, .f32⟩ : BufTy).Contents (Elt F) → (⟨S500000x4, .f32⟩ : BufTy).Contents (Elt F)),
    binary main_arg1 main_v55 main_v56 (addf : (⟨S500000x4, .f32⟩ : BufTy).Contents (Elt F) → (⟨S500000x4, .f32⟩ : BufTy).Contents (Elt F) → (⟨S500000x4, .f32⟩ : BufTy).Contents (Elt F)),
    nullary main_cst_6 (constant S_ .f32 0xBF800000#32),
    nullary main_cst_7 (constant S_ .f32 0x40A00000#32),
    TRef.unary (.of main_cst_6) main_call0.v0 id,
    TRef.unary main_call0.v0 main_call0.v1 (broadcastInDim S500000x4 ![] bcast_S_S500000x4),
    TRef.binary main_call0.v1 (.of main_v56) main_call0.v2 maximumf,
    TRef.unary (.of main_cst_7) main_call0.v3 id,
    TRef.unary main_call0.v3 main_call0.v4 (broadcastInDim S500000x4 ![] bcast_S_S500000x4),
    TRef.binary main_call0.v4 main_call0.v2 main_call0.v5 minimumf ]

/-- The whole line is its six pieces, one after the other. -/
theorem ops_eq : (ops : List (HloOp τ sig (Elt F))) = ops1 ++ (ops2 ++ (ops3 ++ (ops4 ++ (ops5 ++ ops6)))) := rfl

-- seventy-three binds re-associated: the rewrite under the chain recurses once per statement
set_option maxRecDepth 4096 in
set_option maxHeartbeats 4000000 in
/-- @main is that straight line: the two windows and the callee's definition unfolded, both sides are one chain of
    steps once sequencing is reassociated. -/
theorem main_eq (c : Dev nD) : main (F := F) c = seq ops := by
  simp only [main, main_part0, main_part1, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., nullary_bufs_sub .., unary_bufs_sub .., binary_bufs_sub .., binary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

/-- The fold of two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- On every device, from any memory with zero counters: every weakly fair execution of @main terminates, and every
    final state has each buffer at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's host program as a handful of pure stages, each the composition of the operations that produce one
  intermediate array from the ones before it. Stated for any float values; nothing is proved here.

    feat      the ten features of a row: its six inputs, then its four node temperatures
    temps     the six temperatures of a row: its four node temperatures, then inputs 4 and 5
    hid       the first layer of a sub-net: tanh of the features times the transposed weights, plus the bias row
    cond      the logistic unit 1 / (1 + exp (-(hidden · weightsᵀ + bias))) of the conductance net
    plin, ploss   the power-loss net's linear output and the square root of its square plus ε
    table, idx    the table of conductance ids, a negative id moved up by 15, with a unit last axis
    gath      the conductances gathered along the table
    tdiff     the sum over the temperatures of (temperature − node temperature) · gathered conductance
    fac       ½ · exp (caps)
    out       the step clipped into [-1, 5]
    whole     the program's second result as a function of its eleven arguments
-/
import proofs.«180992_j13649406067340_2_alg».proof.Proof.Gen.ReferenceIdeal

noncomputable section

namespace Cert.ReferenceIdeal.RefStages

open Cert.ReferenceIdeal Cert.ReferenceIdeal.Gen Idealize.ShloMosaic

variable {F : FTy → Type} [FloatOps F]

/-- The ten features of every row. -/
def feat (a0 : FVec F S500000x6 .f32) (a1 : FVec F S500000x4 .f32) : FVec F S500000x10 .f32 :=
  concatenate S500000x10 1 [⟨S500000x6, a0⟩, ⟨S500000x4, a1⟩] Facts₀.concatenates_S500000x6_S500000x4_S500000x10_d1

/-- The six temperatures of every row. -/
def temps (a0 : FVec F S500000x6 .f32) (a1 : FVec F S500000x4 .f32) : FVec F S500000x6 .f32 :=
  concatenate S500000x6 1 [⟨S500000x4, a1⟩, ⟨S500000x2, extractStridedSlice S500000x2 ![0, 4] a0 Facts₀.slices_S500000x6_S500000x2_0_4⟩]
    Facts₀.concatenates_S500000x4_S500000x2_S500000x6_d1

/-- The first layer of a sub-net over the features `x`. -/
def hid (x : FVec F S500000x10 .f32) (w : FVec F S128x10 .f32) (β : FVec F S128 .f32) : FVec F S500000x128 .f32 :=
  Host.tanh (addf (Host.dotGeneral dot_S500000x10_S10x128_S500000x128_1_0_0_1_n_n none x
      (transpose S10x128 [1, 0] w Facts₀.transposes_S128x10_S10x128_1_0))
    (broadcastInDim S500000x128 ![0, 1] Facts₀.bcast_S1x128_S500000x128_0_1 (broadcastInDim S1x128 ![1] Facts₀.bcast_S128_S1x128_1 β)))

/-- The conductances: a logistic unit over the first layer `h`. -/
def cond (h : FVec F S500000x128 .f32) (w : FVec F S15x128 .f32) (β : FVec F S15 .f32) : FVec F S500000x15 .f32 :=
  Host.divf (broadcastInDim S500000x15 ![] Facts₀.bcast_S_S500000x15 (constant S_ .f32 0x3F800000#32))
    (addf (broadcastInDim S500000x15 ![] Facts₀.bcast_S_S500000x15 (constant S_ .f32 0x3F800000#32))
      (Host.exp (Host.negf (addf (Host.dotGeneral dot_S500000x128_S128x15_S500000x15_1_0_0_1_n_n none h
          (transpose S128x15 [1, 0] w Facts₀.transposes_S15x128_S128x15_1_0))
        (broadcastInDim S500000x15 ![0, 1] Facts₀.bcast_S1x15_S500000x15_0_1 (broadcastInDim S1x15 ![1] Facts₀.bcast_S15_S1x15_1 β))))))

/-- The power-loss net's linear output over the first layer `h`. -/
def plin (h : FVec F S500000x128 .f32) (w : FVec F S4x128 .f32) (β : FVec F S4 .f32) : FVec F S500000x4 .f32 :=
  addf (Host.dotGeneral dot_S500000x128_S128x4_S500000x4_1_0_0_1_n_n none h (transpose S128x4 [1, 0] w Facts₀.transposes_S4x128_S128x4_1_0))
    (broadcastInDim S500000x4 ![0, 1] Facts₀.bcast_S1x4_S500000x4_0_1 (broadcastInDim S1x4 ![1] Facts₀.bcast_S4_S1x4_1 β))

/-- The smooth absolute value of a linear output `t`. -/
def ploss (t : FVec F S500000x4 .f32) : FVec F S500000x4 .f32 :=
  Host.sqrt (addf (mulf t t) (broadcastInDim S500000x4 ![] Facts₀.bcast_S_S500000x4 (constant S_ .f32 0x358637BD#32)))

/-- The table of conductance ids. -/
def table : IVec S4x6 32 := fun i => lit0 (S4x6.rowMajor i)

/-- The table with a negative id moved up by 15, and a unit last axis. -/
def idx (c : IVec S4x6 32) : IVec S4x6x1 32 :=
  broadcastInDim S4x6x1 ![0, 1] Facts₀.bcast_S4x6_S4x6x1_0_1
    (select (cmpi .slt c (broadcastInDim S4x6 ![] Facts₀.bcast_S_S4x6 (constantI S_ 32 0#32)))
      (addi c (broadcastInDim S4x6 ![] Facts₀.bcast_S_S4x6 (constantI S_ 32 15#32))) c)

/-- The conductances gathered along a table. -/
def gath (cd : FVec F S500000x15 .f32) (ix : IVec S4x6x1 32) : FVec F S500000x4x6 .f32 :=
  Host.gather gather_S500000x15_S4x6x1_S500000x4x6_0_1_n_n_1_2_5000001 cd ix

/-- The weighted sum of the temperature differences. -/
def tdiff (t : FVec F S500000x6 .f32) (a1 : FVec F S500000x4 .f32) (cg : FVec F S500000x4x6 .f32) : FVec F S500000x4 .f32 :=
  Host.reduceAdd
    (mulf (subf
        (broadcastInDim S500000x4x6 ![0, 1, 2] Facts₀.bcast_S500000x1x6_S500000x4x6_0_1_2
          (broadcastInDim S500000x1x6 ![0, 2] Facts₀.bcast_S500000x6_S500000x1x6_0_2 t))
        (broadcastInDim S500000x4x6 ![0, 1, 2] Facts₀.bcast_S500000x4x1_S500000x4x6_0_1_2
          (broadcastInDim S500000x4x1 ![0, 1] Facts₀.bcast_S500000x4_S500000x4x1_0_1 a1)))
      cg)
    (constant S_ .f32 0x00000000#32) Facts₀.reducesTo_S500000x4x6_S500000x4_d2 Facts₀.h_S_

/-- The step's factor. -/
def fac (a2 : FVec F S4 .f32) : FVec F S4 .f32 :=
  mulf (broadcastInDim S4 ![] Facts₀.bcast_S_S4 (constant S_ .f32 0x3F000000#32)) (Host.exp a2)

/-- The clipped step. -/
def out (a1 td pl : FVec F S500000x4 .f32) (fc : FVec F S4 .f32) : FVec F S500000x4 .f32 :=
  minimumf (broadcastInDim S500000x4 ![] Facts₀.bcast_S_S500000x4 (constant S_ .f32 0x40A00000#32))
    (maximumf (broadcastInDim S500000x4 ![] Facts₀.bcast_S_S500000x4 (constant S_ .f32 0xBF800000#32))
      (addf a1 (mulf (broadcastInDim S500000x4 ![0, 1] Facts₀.bcast_S1x4_S500000x4_0_1 (broadcastInDim S1x4 ![1] Facts₀.bcast_S4_S1x4_1 fc))
        (addf td pl))))

/-- The program's second result as a function of its eleven arguments. -/
def whole (a0 : FVec F S500000x6 .f32) (a1 : FVec F S500000x4 .f32) (a2 : FVec F S4 .f32) (a3 : FVec F S128x10 .f32)
    (a4 : FVec F S128 .f32) (a5 : FVec F S15x128 .f32) (a6 : FVec F S15 .f32) (a7 : FVec F S128x10 .f32) (a8 : FVec F S128 .f32)
    (a9 : FVec F S4x128 .f32) (a10 : FVec F S4 .f32) : FVec F S500000x4 .f32 :=
  out a1
    (tdiff (temps a0 a1) a1 (gath (cond (hid (feat a0 a1) a3 a4) a5 a6) (idx table)))
    (ploss (plin (hid (feat a0 a1) a7 a8) a9 a10))
    (fac a2)

end Cert.ReferenceIdeal.RefStages

end
-- ==== Proof.RefFold.lean ====
/-
  The fold of the reference's operations read back, piece by piece: over any contents `W` a piece leaves, at each
  buffer a later piece reads, either the stage function of what `W` held at the buffers the piece reads, or what `W`
  held there (a buffer the piece does not write). Composed, the whole line leaves the stage function `whole` of the
  eleven argument buffers in the result buffer, and the argument buffers as they were.
-/
import proofs.«180992_j13649406067340_2_alg».proof.Proof.RefRun
import proofs.«180992_j13649406067340_2_alg».proof.Proof.RefStages

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefStages

variable {F : FTy → Type} [FloatOps F]

/-! ## What each piece computes -/

theorem c1_c (W : Valuation τ sig (Elt F)) : after ops1 W (main_c : DevRef τ sig) = table := by
  after_results_simp <;> rfl

theorem c1_v1 (W : Valuation τ sig (Elt F)) : after ops1 W (main_v1 : DevRef τ sig) = temps (W (main_arg0 : DevRef τ sig)) (W (main_arg1 : DevRef τ sig)) := by
  after_results_simp <;> rfl

theorem c1_v2 (W : Valuation τ sig (Elt F)) : after ops1 W (main_v2 : DevRef τ sig) = feat (W (main_arg0 : DevRef τ sig)) (W (main_arg1 : DevRef τ sig)) := by
  after_results_simp <;> rfl

theorem c1_v8 (W : Valuation τ sig (Elt F)) : after ops1 W (main_v8 : DevRef τ sig) = hid (feat (W (main_arg0 : DevRef τ sig)) (W (main_arg1 : DevRef τ sig))) (W (main_arg3 : DevRef τ sig)) (W (main_arg4 : DevRef τ sig)) := by
  after_results_simp <;> rfl

theorem c2_v19 (W : Valuation τ sig (Elt F)) : after ops2 W (main_v19 : DevRef τ sig) = cond (W (main_v8 : DevRef τ sig)) (W (main_arg5 : DevRef τ sig)) (W (main_arg6 : DevRef τ sig)) := by
  after_results_simp <;> rfl

theorem c3_v34 (W : Valuation τ sig (Elt F)) : after ops3 W (main_v34 : DevRef τ sig) = ploss (plin (hid (W (main_v2 : DevRef τ sig)) (W (main_arg7 : DevRef τ sig)) (W (main_arg8 : DevRef τ sig))) (W (main_arg9 : DevRef τ sig)) (W (main_arg10 : DevRef τ sig))) := by
  after_results_simp <;> rfl

theorem c4_v41 (W : Valuation τ sig (Elt F)) : after ops4 W (main_v41 : DevRef τ sig) = gath (W (main_v19 : DevRef τ sig)) (idx (W (main_c : DevRef τ sig))) := by
  after_results_simp <;> rfl

theorem c5_v48 (W : Valuation τ sig (Elt F)) : after ops5 W (main_v48 : DevRef τ sig) = tdiff (W (main_v1 : DevRef τ sig)) (W (main_arg1 : DevRef τ sig)) (W (main_v41 : DevRef τ sig)) := by
  after_results_simp <;> rfl

theorem c5_v51 (W : Valuation τ sig (Elt F)) : after ops5 W (main_v51 : DevRef τ sig) = fac (W (main_arg2 : DevRef τ sig)) := by
  after_results_simp <;> rfl

theorem c6_v57 (W : Valuation τ sig (Elt F)) : after ops6 W (main_v57 : DevRef τ sig) = out (W (main_arg1 : DevRef τ sig)) (W (main_v48 : DevRef τ sig)) (W (main_v34 : DevRef τ sig)) (W (main_v51 : DevRef τ sig)) := by
  after_results_simp <;> rfl

/-! ## What each piece leaves alone -/

theorem c1_arg1 (W : Valuation τ sig (Elt F)) : after ops1 W (main_arg1 : DevRef τ sig) = W (main_arg1 : DevRef τ sig) := by
  after_results_simp

theorem c1_arg2 (W : Valuation τ sig (Elt F)) : after ops1 W (main_arg2 : DevRef τ sig) = W (main_arg2 : DevRef τ sig) := by
  after_results_simp

theorem c1_arg5 (W : Valuation τ sig (Elt F)) : after ops1 W (main_arg5 : DevRef τ sig) = W (main_arg5 : DevRef τ sig) := by
  after_results_simp

theorem c1_arg6 (W : Valuation τ sig (Elt F)) : after ops1 W (main_arg6 : DevRef τ sig) = W (main_arg6 : DevRef τ sig) := by
  after_results_simp

theorem c1_arg7 (W : Valuation τ sig (Elt F)) : after ops1 W (main_arg7 : DevRef τ sig) = W (main_arg7 : DevRef τ sig) := by
  after_results_simp

theorem c1_arg8 (W : Valuation τ sig (Elt F)) : after ops1 W (main_arg8 : DevRef τ sig) = W (main_arg8 : DevRef τ sig) := by
  after_results_simp

theorem c1_arg9 (W : Valuation τ sig (Elt F)) : after ops1 W (main_arg9 : DevRef τ sig) = W (main_arg9 : DevRef τ sig) := by
  after_results_simp

theorem c1_arg10 (W : Valuation τ sig (Elt F)) : after ops1 W (main_arg10 : DevRef τ sig) = W (main_arg10 : DevRef τ sig) := by
  after_results_simp

theorem c2_c (W : Valuation τ sig (Elt F)) : after ops2 W (main_c : DevRef τ sig) = W (main_c : DevRef τ sig) := by
  after_results_simp

theorem c2_v1 (W : Valuation τ sig (Elt F)) : after ops2 W (main_v1 : DevRef τ sig) = W (main_v1 : DevRef τ sig) := by
  after_results_simp

theorem c2_v2 (W : Valuation τ sig (Elt F)) : after ops2 W (main_v2 : DevRef τ sig) = W (main_v2 : DevRef τ sig) := by
  after_results_simp

theorem c2_arg1 (W : Valuation τ sig (Elt F)) : after ops2 W (main_arg1 : DevRef τ sig) = W (main_arg1 : DevRef τ sig) := by
  after_results_simp

theorem c2_arg2 (W : Valuation τ sig (Elt F)) : after ops2 W (main_arg2 : DevRef τ sig) = W (main_arg2 : DevRef τ sig) := by
  after_results_simp

theorem c2_arg7 (W : Valuation τ sig (Elt F)) : after ops2 W (main_arg7 : DevRef τ sig) = W (main_arg7 : DevRef τ sig) := by
  after_results_simp

theorem c2_arg8 (W : Valuation τ sig (Elt F)) : after ops2 W (main_arg8 : DevRef τ sig) = W (main_arg8 : DevRef τ sig) := by
  after_results_simp

theorem c2_arg9 (W : Valuation τ sig (Elt F)) : after ops2 W (main_arg9 : DevRef τ sig) = W (main_arg9 : DevRef τ sig) := by
  after_results_simp

theorem c2_arg10 (W : Valuation τ sig (Elt F)) : after ops2 W (main_arg10 : DevRef τ sig) = W (main_arg10 : DevRef τ sig) := by
  after_results_simp

theorem c3_c (W : Valuation τ sig (Elt F)) : after ops3 W (main_c : DevRef τ sig) = W (main_c : DevRef τ sig) := by
  after_results_simp

theorem c3_v1 (W : Valuation τ sig (Elt F)) : after ops3 W (main_v1 : DevRef τ sig) = W (main_v1 : DevRef τ sig) := by
  after_results_simp

theorem c3_v19 (W : Valuation τ sig (Elt F)) : after ops3 W (main_v19 : DevRef τ sig) = W (main_v19 : DevRef τ sig) := by
  after_results_simp

theorem c3_arg1 (W : Valuation τ sig (Elt F)) : after ops3 W (main_arg1 : DevRef τ sig) = W (main_arg1 : DevRef τ sig) := by
  after_results_simp

theorem c3_arg2 (W : Valuation τ sig (Elt F)) : after ops3 W (main_arg2 : DevRef τ sig) = W (main_arg2 : DevRef τ sig) := by
  after_results_simp

theorem c4_v1 (W : Valuation τ sig (Elt F)) : after ops4 W (main_v1 : DevRef τ sig) = W (main_v1 : DevRef τ sig) := by
  after_results_simp

theorem c4_v34 (W : Valuation τ sig (Elt F)) : after ops4 W (main_v34 : DevRef τ sig) = W (main_v34 : DevRef τ sig) := by
  after_results_simp

theorem c4_arg1 (W : Valuation τ sig (Elt F)) : after ops4 W (main_arg1 : DevRef τ sig) = W (main_arg1 : DevRef τ sig) := by
  after_results_simp

theorem c4_arg2 (W : Valuation τ sig (Elt F)) : after ops4 W (main_arg2 : DevRef τ sig) = W (main_arg2 : DevRef τ sig) := by
  after_results_simp

theorem c5_v34 (W : Valuation τ sig (Elt F)) : after ops5 W (main_v34 : DevRef τ sig) = W (main_v34 : DevRef τ sig) := by
  after_results_simp

theorem c5_arg1 (W : Valuation τ sig (Elt F)) : after ops5 W (main_arg1 : DevRef τ sig) = W (main_arg1 : DevRef τ sig) := by
  after_results_simp

/-! ## The whole line -/

/-- The result buffer after the whole line: the stage function of the argument buffers. -/
theorem fold_out (V : Valuation τ sig (Elt F)) :
    after ops V (main_v57 : DevRef τ sig) = whole (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [ops_eq, after_append, after_append, after_append, after_append, after_append, c6_v57]
  rw [c5_arg1, c5_v48, c5_v34, c5_v51]
  rw [c4_arg1, c4_v1, c4_v41, c4_v34, c4_arg2]
  rw [c3_arg1, c3_v1, c3_v19, c3_c, c3_v34, c3_arg2]
  rw [c2_arg1, c2_v1, c2_v19, c2_c, c2_v2, c2_arg7, c2_arg8, c2_arg9, c2_arg10, c2_arg2]
  rw [c1_arg1, c1_v1, c1_v8, c1_arg5, c1_arg6, c1_c, c1_v2, c1_arg7, c1_arg8, c1_arg9, c1_arg10, c1_arg2]
  rfl

/-! ## The argument buffers are not written -/

theorem fold_arg0 (V : Valuation τ sig (Elt F)) : after ops V (main_arg0 : DevRef τ sig) = V (main_arg0 : DevRef τ sig) := by
  after_results_simp

theorem fold_arg1 (V : Valuation τ sig (Elt F)) : after ops V (main_arg1 : DevRef τ sig) = V (main_arg1 : DevRef τ sig) := by
  after_results_simp

theorem fold_arg2 (V : Valuation τ sig (Elt F)) : after ops V (main_arg2 : DevRef τ sig) = V (main_arg2 : DevRef τ sig) := by
  after_results_simp

theorem fold_arg3 (V : Valuation τ sig (Elt F)) : after ops V (main_arg3 : DevRef τ sig) = V (main_arg3 : DevRef τ sig) := by
  after_results_simp

theorem fold_arg4 (V : Valuation τ sig (Elt F)) : after ops V (main_arg4 : DevRef τ sig) = V (main_arg4 : DevRef τ sig) := by
  after_results_simp

theorem fold_arg5 (V : Valuation τ sig (Elt F)) : after ops V (main_arg5 : DevRef τ sig) = V (main_arg5 : DevRef τ sig) := by
  after_results_simp

theorem fold_arg6 (V : Valuation τ sig (Elt F)) : after ops V (main_arg6 : DevRef τ sig) = V (main_arg6 : DevRef τ sig) := by
  after_results_simp

theorem fold_arg7 (V : Valuation τ sig (Elt F)) : after ops V (main_arg7 : DevRef τ sig) = V (main_arg7 : DevRef τ sig) := by
  after_results_simp

theorem fold_arg8 (V : Valuation τ sig (Elt F)) : after ops V (main_arg8 : DevRef τ sig) = V (main_arg8 : DevRef τ sig) := by
  after_results_simp

theorem fold_arg9 (V : Valuation τ sig (Elt F)) : after ops V (main_arg9 : DevRef τ sig) = V (main_arg9 : DevRef τ sig) := by
  after_results_simp

theorem fold_arg10 (V : Valuation τ sig (Elt F)) : after ops V (main_arg10 : DevRef τ sig) = V (main_arg10 : DevRef τ sig) := by
  after_results_simp

end Cert.ReferenceIdeal.RefFold

end
-- ==== Proof.RefLayout.lean ====
/-
  Layout and indexing operations of the reference read at an index given by coordinates.

  A trailing unit axis added to an `[a, b]` array and repeated to `[a, b, c]` reads the array at `(p, q)`; a host sum over the
  last axis of an `[a, b, c]` array is, at `(p, q)`, the initial value plus the sum of the entries `(p, q, k)`; the gather of
  the columns of a `[500000, 15]` array along a `[4, 6, 1]` table of column numbers reads, at `(b, i, j)`, row `b` at the column
  the table names at `(i, j, 0)`, read signed and clamped into `[0, 14]`.
-/
import proofs.«180992_j13649406067340_2_alg».proof.Proof.Gen.ReferenceIdeal
import Idealize.ShloMosaic.Lib.ValueIdx
import Idealize.ShloMosaic.Lib.Pipeline.Value
import Idealize.ShloMosaic.PureOps.Ideal.Laws

noncomputable section

namespace Cert.ReferenceIdeal.RefLayout

open Cert.ReferenceIdeal Cert.ReferenceIdeal.Gen Idealize.ShloMosaic Idealize.ShloMosaic.ValueIdx

variable {α : Type}

/-- An `[a, b]` array given a trailing unit axis reads, at `(p, q, u)`, the array at `(p, q)`. -/
theorem bid_ab_ab1_apply {a b : ℕ} (dims : Fin 2 → Fin 3) (hd0 : dims 0 = 0) (hd1 : dims 1 = 1)
    (h : (⟨2, ![a, b]⟩ : Shape).BroadcastsInDim ⟨3, ![a, b, 1]⟩ dims)
    (x : (⟨2, ![a, b]⟩ : Shape).Idx → α) (p : Fin a) (q : Fin b) (u : Fin 1) :
    broadcastInDim ⟨3, ![a, b, 1]⟩ dims h x (ix3 p q u) = x (ix2 p q) := by
  refine broadcastInDim_apply dims h x (ix3 p q u) (ix2 p q) fun ax => ?_
  match ax with
  | ⟨0, _⟩ =>
    show p.val = if a = 1 then 0 else (ix3 p q u (dims 0)).val
    rw [hd0]
    split
    · have := p.isLt; omega
    · rfl
  | ⟨1, _⟩ =>
    show q.val = if b = 1 then 0 else (ix3 p q u (dims 1)).val
    rw [hd1]
    split
    · have := q.isLt; omega
    · rfl

/-- An `[a, b, 1]` array repeated along its last axis reads, at `(p, q, r)`, the array at `(p, q, 0)`. -/
theorem bid_ab1_abc_apply {a b c : ℕ} (dims : Fin 3 → Fin 3) (hd0 : dims 0 = 0) (hd1 : dims 1 = 1)
    (h : (⟨3, ![a, b, 1]⟩ : Shape).BroadcastsInDim ⟨3, ![a, b, c]⟩ dims)
    (x : (⟨3, ![a, b, 1]⟩ : Shape).Idx → α) (p : Fin a) (q : Fin b) (r : Fin c) :
    broadcastInDim ⟨3, ![a, b, c]⟩ dims h x (ix3 p q r) = x (ix3 p q (0 : Fin 1)) := by
  refine broadcastInDim_apply dims h x (ix3 p q r) (ix3 p q (0 : Fin 1)) fun ax => ?_
  match ax with
  | ⟨0, _⟩ =>
    show p.val = if a = 1 then 0 else (ix3 p q r (dims 0)).val
    rw [hd0]
    split
    · have := p.isLt; omega
    · rfl
  | ⟨1, _⟩ =>
    show q.val = if b = 1 then 0 else (ix3 p q r (dims 1)).val
    rw [hd1]
    split
    · have := q.isLt; omega
    · rfl
  | ⟨2, _⟩ => rfl

/-- The index a reduction over the last axis of a rank-3 array inserts: `(p, q, k)`. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun ax => Fin.ext (by match ax with | ⟨0, _⟩ => rfl | ⟨1, _⟩ => rfl | ⟨2, _⟩ => rfl)

/-- The host's sum over the last axis of an `[a, b, c]` array at `(p, q)`: the initial value plus the sum over `k`. -/
theorem lastSum_apply {a b c : ℕ} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (p : Fin a) (q : Fin b) :
    Ideal.hostReduceAdd h' x init (ix2 p q) = init + ∑ k : Fin c, x (ix3 p q k) := by
  refine (Ideal.hostReduceAdd_single h' h x init (ix2 p q)).trans ?_
  exact congrArg (init + ·) (Finset.sum_congr rfl fun k _ => congrArg x (lift_last h p q k))

/-- The gather of columns along the table, at `(b, i, j)`. -/
theorem gather_apply {w : ℕ} (cd : S500000x15.Idx → α) (ix : IVec S4x6x1 w) (b : Fin 500000) (i : Fin 4) (j : Fin 6) :
    Host.gather gather_S500000x15_S4x6x1_S500000x4x6_0_1_n_n_1_2_5000001 cd ix (ix3 b i j)
      = cd (ix2 b ⟨min (ix (ix3 i j (0 : Fin 1))).toInt.toNat 14, by omega⟩) := by
  unfold Host.gather
  congr 1
  funext a
  refine Fin.ext ?_
  have ha : a = (0 : Fin 2) ∨ a = (1 : Fin 2) := by
    rcases a with ⟨v, hv⟩
    have : v < 2 := hv
    rcases (by omega : v = 0 ∨ v = 1) with rfl | rfl
    · exact Or.inl rfl
    · exact Or.inr rfl
  rcases ha with rfl | rfl
  · show gather_S500000x15_S4x6x1_S500000x4x6_0_1_n_n_1_2_5000001.start (ix3 b i j) ix (0 : Fin 2)
        + gather_S500000x15_S4x6x1_S500000x4x6_0_1_n_n_1_2_5000001.batchCoord (ix3 b i j) (0 : Fin 2)
        + gather_S500000x15_S4x6x1_S500000x4x6_0_1_n_n_1_2_5000001.offCoord (ix3 b i j) (0 : Fin 2) = b.val
    rw [GatherDims.batchCoord_eq_zero _ _ _ List.not_mem_nil]
    unfold GatherDims.start
    rw [dif_neg (by decide)]
    unfold GatherDims.offCoord
    rw [dif_pos (by decide)]
    simp only [Nat.zero_add]
    rfl
  · show gather_S500000x15_S4x6x1_S500000x4x6_0_1_n_n_1_2_5000001.start (ix3 b i j) ix (1 : Fin 2)
        + gather_S500000x15_S4x6x1_S500000x4x6_0_1_n_n_1_2_5000001.batchCoord (ix3 b i j) (1 : Fin 2)
        + gather_S500000x15_S4x6x1_S500000x4x6_0_1_n_n_1_2_5000001.offCoord (ix3 b i j) (1 : Fin 2)
      = min (ix (ix3 i j (0 : Fin 1))).toInt.toNat 14
    rw [GatherDims.batchCoord_eq_zero _ _ _ List.not_mem_nil, GatherDims.offCoord_eq_zero _ _ _ (by decide)]
    simp only [Nat.add_zero]
    unfold GatherDims.start
    rw [dif_pos (by decide)]
    have hsi : gather_S500000x15_S4x6x1_S500000x4x6_0_1_n_n_1_2_5000001.siIdx (ix3 b i j)
        ⟨List.idxOf (1 : Fin 2) gather_S500000x15_S4x6x1_S500000x4x6_0_1_n_n_1_2_5000001.startIndexMap,
          List.idxOf_lt_length_iff.2 (by decide)⟩ = ix3 i j (0 : Fin 1) := by
      funext d; refine Fin.ext ?_
      match d with
      | ⟨0, _⟩ => rfl
      | ⟨1, _⟩ => rfl
      | ⟨2, _⟩ => rfl
    rw [hsi]
    rfl

end Cert.ReferenceIdeal.RefLayout

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.LibMidAxis.lean ====
/-
  A unit MIDDLE axis, inserted and repeated, read at an index given by coordinates.

  An `[a, b]` array becomes `[a, 1, b]` (a shape cast on the vector unit, a `broadcast_in_dim` along axes `[0, 2]` on the
  host) and is then repeated `k` times along the new axis to `[a, k, b]` (a broadcast, or a `broadcast_in_dim` along all
  three axes); a `[1, k, b]` table is repeated `a` times along its leading axis. Each lemma says which element of the
  operand the result holds at `(p, j, q)`; none depends on the element type.
-/
import Idealize.ShloMosaic.Lib.ValueLayout

namespace Cert.MidAxis

open Idealize.ShloMosaic Idealize.ShloMosaic.ValueIdx

variable {α : Type}

/-- An `[a, b]` array cast to `[a, 1, b]` holds, at `(p, u, q)`, the operand's `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array broadcast to `[a, k, b]` holds, at `(p, j, q)`, the operand's `(p, 0, q)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (j : Fin k) (q : Fin b) :
    broadcastTo ⟨3, ![a, k, b]⟩ x h (ix3 p j q) = x (ix3 p (0 : Fin 1) q) := by
  refine broadcastTo_apply x h (ix3 p j q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A `[1, k, b]` table broadcast to `[a, k, b]` holds, at `(p, j, q)`, the table's `(0, j, q)`. -/
theorem broadcastTo_1kb_akb_apply {a k b : ℕ} (x : (⟨3, ![1, k, b]⟩ : Shape).Idx → α)
    (h : (⟨3, ![1, k, b]⟩ : Shape).Broadcasts ⟨3, ![a, k, b]⟩) (p : Fin a) (j : Fin k) (q : Fin b) :
    broadcastTo ⟨3, ![a, k, b]⟩ x h (ix3 p j q) = x (ix3 (0 : Fin 1) j q) := by
  refine broadcastTo_apply x h (ix3 p j q) (ix3 (0 : Fin 1) j q) fun ax => ?_
  match ax with
  | ⟨0, _⟩ => rfl
  | ⟨1, _⟩ =>
    show j.val = if k = 1 then 0 else j.val
    split
    · have := j.isLt; omega
    · rfl
  | ⟨2, _⟩ =>
    show q.val = if b = 1 then 0 else q.val
    split
    · have := q.isLt; omega
    · rfl

/-- A host `broadcast_in_dim` of an `[a, b]` array along axes `[0, 2]` of `[a, 1, b]` holds, at `(p, u, q)`, the
    operand's `(p, q)`. -/
theorem broadcastInDim_ab_a1b_apply {a b : ℕ} (dims : Fin 2 → Fin 3) (hd0 : dims 0 = 0) (hd1 : dims 1 = 2)
    (h : (⟨2, ![a, b]⟩ : Shape).BroadcastsInDim ⟨3, ![a, 1, b]⟩ dims)
    (x : (⟨2, ![a, b]⟩ : Shape).Idx → α) (p : Fin a) (u : Fin 1) (q : Fin b) :
    broadcastInDim ⟨3, ![a, 1, b]⟩ dims h x (ix3 p u q) = x (ix2 p q) := by
  refine broadcastInDim_apply dims h x (ix3 p u q) (ix2 p q) fun ax => ?_
  match ax with
  | ⟨0, _⟩ =>
    show p.val = if a = 1 then 0 else (ix3 p u q (dims 0)).val
    rw [hd0]
    split
    · have := p.isLt; omega
    · rfl
  | ⟨1, _⟩ =>
    show q.val = if b = 1 then 0 else (ix3 p u q (dims 1)).val
    rw [hd1]
    split
    · have := q.isLt; omega
    · rfl

/-- A host `broadcast_in_dim` of an `[a, 1, b]` array along all three axes of `[a, k, b]` holds, at `(p, j, q)`, the
    operand's `(p, 0, q)`. -/
theorem broadcastInDim_a1b_akb_apply {a k b : ℕ} (dims : Fin 3 → Fin 3) (hd0 : dims 0 = 0) (hd2 : dims 2 = 2)
    (h : (⟨3, ![a, 1, b]⟩ : Shape).BroadcastsInDim ⟨3, ![a, k, b]⟩ dims)
    (x : (⟨3, ![a, 1, b]⟩ : Shape).Idx → α) (p : Fin a) (j : Fin k) (q : Fin b) :
    broadcastInDim ⟨3, ![a, k, b]⟩ dims h x (ix3 p j q) = x (ix3 p (0 : Fin 1) q) := by
  refine broadcastInDim_apply dims h x (ix3 p j q) (ix3 p (0 : Fin 1) q) fun ax => ?_
  match ax with
  | ⟨0, _⟩ =>
    show p.val = if a = 1 then 0 else (ix3 p j q (dims 0)).val
    rw [hd0]
    split
    · have := p.isLt; omega
    · rfl
  | ⟨1, _⟩ => rfl
  | ⟨2, _⟩ =>
    show q.val = if b = 1 then 0 else (ix3 p j q (dims 2)).val
    rw [hd2]
    split
    · have := q.isLt; omega
    · rfl

/-- A host `broadcast_in_dim` of a `[1, k, b]` table along all three axes of `[a, k, b]` holds, at `(p, j, q)`, the
    table's `(0, j, q)`. -/
theorem broadcastInDim_1kb_akb_apply {a k b : ℕ} (dims : Fin 3 → Fin 3) (hd1 : dims 1 = 1) (hd2 : dims 2 = 2)
    (h : (⟨3, ![1, k, b]⟩ : Shape).BroadcastsInDim ⟨3, ![a, k, b]⟩ dims)
    (x : (⟨3, ![1, k, b]⟩ : Shape).Idx → α) (p : Fin a) (j : Fin k) (q : Fin b) :
    broadcastInDim ⟨3, ![a, k, b]⟩ dims h x (ix3 p j q) = x (ix3 (0 : Fin 1) j q) := by
  refine broadcastInDim_apply dims h x (ix3 p j q) (ix3 (0 : Fin 1) j q) fun ax => ?_
  match ax with
  | ⟨0, _⟩ => rfl
  | ⟨1, _⟩ =>
    show j.val = if k = 1 then 0 else (ix3 p j q (dims 1)).val
    rw [hd1]
    split
    · have := j.isLt; omega
    · rfl
  | ⟨2, _⟩ =>
    show q.val = if b = 1 then 0 else (ix3 p j q (dims 2)).val
    rw [hd2]
    split
    · have := q.isLt; omega
    · rfl

end Cert.MidAxis
-- ==== Proof.RefRead.lean ====
/-
  The reference's stages read at an index, on the extended reals, and the program's result as the cell function.

  Each stage of the host program, read at explicit coordinates, is the corresponding line of the cell's specification:
  a concatenation reads one of its two pieces; a product with a transposed matrix is the sum over the contracted
  coordinate; a bias row broadcast over the rows reads the bias at the column; the logistic unit is
  1 / (1 + exp (-x)) with the literal one; the gather along the table of conductance ids reads the conductance the
  table names (all 24 entries are non-negative and below 15, so the normalisation and the clamp leave them alone);
  the host's sum starts from the literal zero.
-/
import proofs.«180992_j13649406067340_2_alg».proof.Proof.RefStages
import proofs.«180992_j13649406067340_2_alg».proof.Proof.RefLayout
import proofs.«180992_j13649406067340_2_alg».proof.Proof.CellSpec
import proofs.«180992_j13649406067340_2_alg».proof.Proof.LibBcast
import proofs.«180992_j13649406067340_2_alg».proof.Proof.LibMidAxis
import proofs.«180992_j13649406067340_2_alg».proof.Proof.LibPlainDot
import Idealize.ShloMosaic.Lib.IdealHost

noncomputable section

namespace Cert.ReferenceIdeal.RefRead

open Cert.ReferenceIdeal Cert.ReferenceIdeal.Gen Idealize.ShloMosaic Idealize.ShloMosaic.ValueIdx
open Cert.ReferenceIdeal.RefStages Cert.ReferenceIdeal.RefLayout

/-- The features of row `b`: inputs first, then the node temperatures. -/
theorem feat_apply (a0 : FVec Ideal S500000x6 .f32) (a1 : FVec Ideal S500000x4 .f32) (b : Fin 500000) (c : Fin 10) :
    feat (F := Ideal) a0 a1 (ix2 b c) = Cert.CellSpec.feat a0 a1 b c := by
  unfold feat Cert.CellSpec.feat
  by_cases h : c.val < 6
  · rw [dif_pos h]
    exact concatenate_pair_apply_left (t := S500000x10) (s₁ := S500000x6) (s₂ := S500000x4) 1 a0 a1 _ (ix2 b c) rfl
      (ix2 b ⟨c.val, h⟩) (fun d => by match d with | ⟨0, _⟩ => rfl | ⟨1, _⟩ => rfl)
  · rw [dif_neg h]
    exact concatenate_pair_apply_right (t := S500000x10) (s₁ := S500000x6) (s₂ := S500000x4) 1 a0 a1 _ (ix2 b c) rfl rfl
      (ix2 b ⟨c.val - 6, by omega⟩)
      (fun d hd => by match d with | ⟨0, _⟩ => rfl | ⟨1, _⟩ => exact absurd rfl hd)
      (by show (c.val - 6) + 6 = c.val; omega)

/-- The temperatures of row `b`: the node temperatures first, then inputs 4 and 5. -/
theorem temps_apply (a0 : FVec Ideal S500000x6 .f32) (a1 : FVec Ideal S500000x4 .f32) (b : Fin 500000) (j : Fin 6) :
    temps (F := Ideal) a0 a1 (ix2 b j) = Cert.CellSpec.temps a0 a1 b j := by
  unfold temps Cert.CellSpec.temps
  by_cases h : j.val < 4
  · rw [dif_pos h]
    exact concatenate_pair_apply_left (t := S500000x6) (s₁ := S500000x4) (s₂ := S500000x2) 1 a1 _ _ (ix2 b j) rfl
      (ix2 b ⟨j.val, h⟩) (fun d => by match d with | ⟨0, _⟩ => rfl | ⟨1, _⟩ => rfl)
  · rw [dif_neg h]
    refine (concatenate_pair_apply_right (t := S500000x6) (s₁ := S500000x4) (s₂ := S500000x2) 1 a1 _ _ (ix2 b j) rfl rfl
      (ix2 b ⟨j.val - 4, by omega⟩)
      (fun d hd => by match d with | ⟨0, _⟩ => rfl | ⟨1, _⟩ => exact absurd rfl hd)
      (by show (j.val - 4) + 4 = j.val; omega)).trans ?_
    exact extractStridedSlice_apply ![0, 4] a0 _ (ix2 b ⟨j.val - 4, by omega⟩) (ix2 b j) (fun d => by
      match d with
      | ⟨0, _⟩ => show b.val = 0 + b.val; omega
      | ⟨1, _⟩ => show j.val = 4 + (j.val - 4); omega)

/-- A bias vector made a row and repeated over the rows reads the bias at the column. -/
theorem bias_apply {a n : ℕ} (β : (⟨1, ![n]⟩ : Shape).Idx → EReal)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) (q : Fin n) :
    broadcastInDim ⟨2, ![a, n]⟩ ![0, 1] h2 (broadcastInDim ⟨2, ![1, n]⟩ ![1] h1 β) (ix2 p q) = β (ix1 q) :=
  (Cert.LibBcast.bid_1b_ab_apply _ h2 p q).trans (Cert.LibBcast.bid_row_apply β h1 0 q)

/-- The first layer of a sub-net at `(b, h)`. -/
theorem hid_apply (x : FVec Ideal S500000x10 .f32) (w : FVec Ideal S128x10 .f32) (β : FVec Ideal S128 .f32)
    (b : Fin 500000) (h : Fin 128) :
    hid (F := Ideal) x w β (ix2 b h) = Ideal.tanh ((∑ c : Fin 10, x (ix2 b c) * w (ix2 h c)) + β (ix1 h)) := by
  unfold hid
  refine congrArg Ideal.tanh (congrArg₂ (· + ·) ?_ ?_)
  · exact Cert.LibPlainDot.dotGeneral_plain_transposed_apply none x w _ b h
  · exact bias_apply β _ _ b h

/-- The conductance net's output at `(b, n)`. -/
theorem cond_apply (h : FVec Ideal S500000x128 .f32) (w : FVec Ideal S15x128 .f32) (β : FVec Ideal S15 .f32)
    (b : Fin 500000) (n : Fin 15) :
    RefStages.cond (F := Ideal) h w β (ix2 b n) = Ideal.logistic ((∑ k : Fin 128, h (ix2 b k) * w (ix2 n k)) + β (ix1 n)) := by
  unfold RefStages.cond Ideal.logistic
  have one : ∀ hb, broadcastInDim S500000x15 ![] hb (constant (F := Ideal) S_ .f32 0x3F800000#32) (ix2 b n) = (1 : EReal) :=
    fun hb => (Cert.LibBcast.bid_scalar_apply _ hb _).trans Ideal.ofBits_one_f32
  refine congrArg₂ Ideal.div (one _) (congrArg₂ (· + ·) (one _) (congrArg Ideal.exp (congrArg Neg.neg (congrArg₂ (· + ·) ?_ ?_))))
  · exact Cert.LibPlainDot.dotGeneral_plain_transposed_apply none h w _ b n
  · exact bias_apply β _ _ b n

/-- The power-loss net's linear output at `(b, i)`. -/
theorem plin_apply (h : FVec Ideal S500000x128 .f32) (w : FVec Ideal S4x128 .f32) (β : FVec Ideal S4 .f32)
    (b : Fin 500000) (i : Fin 4) :
    plin (F := Ideal) h w β (ix2 b i) = (∑ k : Fin 128, h (ix2 b k) * w (ix2 i k)) + β (ix1 i) := by
  unfold plin
  refine congrArg₂ (· + ·) ?_ ?_
  · exact Cert.LibPlainDot.dotGeneral_plain_transposed_apply none h w _ b i
  · exact bias_apply β _ _ b i

/-- The smooth absolute value at `(b, i)`. -/
theorem ploss_apply (t : FVec Ideal S500000x4 .f32) (b : Fin 500000) (i : Fin 4) :
    ploss (F := Ideal) t (ix2 b i) = Ideal.sqrt (t (ix2 b i) * t (ix2 b i) + Cert.CellSpec.eps) := by
  unfold ploss
  exact congrArg Ideal.sqrt (congrArg₂ (· + ·) rfl (Cert.LibBcast.bid_scalar_apply _ _ _))

/-- Every entry of the table is a conductance id: non-negative, so left alone by the normalisation, and below 15. -/
theorem idx_table (i : Fin 4) (j : Fin 6) :
    (⟨min (idx table (ix3 i j (0 : Fin 1))).toInt.toNat 14, by omega⟩ : Fin 15) = Cert.CellSpec.adj i j := by
  revert i j
  decide

/-- The conductances gathered along the table at `(b, i, j)`: the conductance between node `i` and temperature `j`. -/
theorem gath_idx_apply (cd : FVec Ideal S500000x15 .f32) (b : Fin 500000) (i : Fin 4) (j : Fin 6) :
    gath (F := Ideal) cd (idx table) (ix3 b i j) = cd (ix2 b (Cert.CellSpec.adj i j)) := by
  unfold gath
  rw [gather_apply cd (idx table) b i j, idx_table i j]

/-- The weighted sum of temperature differences at `(b, i)`. -/
theorem tdiff_apply (t : FVec Ideal S500000x6 .f32) (a1 : FVec Ideal S500000x4 .f32) (cg : FVec Ideal S500000x4x6 .f32)
    (b : Fin 500000) (i : Fin 4) :
    tdiff (F := Ideal) t a1 cg (ix2 b i) = ∑ j : Fin 6, (t (ix2 b j) - a1 (ix2 b i)) * cg (ix3 b i j) := by
  unfold tdiff Host.reduceAdd
  refine (lastSum_apply _ (by decide) _ _ b i).trans ?_
  refine (congrArg (· + _) Ideal.ofBits_zero_f32).trans ((zero_add _).trans ?_)
  refine Finset.sum_congr rfl fun j _ => ?_
  refine congrArg₂ (· * ·) (congrArg₂ (· - ·) ?_ ?_) rfl
  · exact (Cert.MidAxis.broadcastInDim_a1b_akb_apply ![0, 1, 2] rfl rfl _ _ b i j).trans
      (Cert.MidAxis.broadcastInDim_ab_a1b_apply ![0, 2] rfl rfl _ t b 0 j)
  · exact (bid_ab1_abc_apply ![0, 1, 2] rfl rfl _ _ b i j).trans (bid_ab_ab1_apply ![0, 1] rfl rfl _ a1 b i 0)

/-- The step's factor at `i`. -/
theorem fac_apply (a2 : FVec Ideal S4 .f32) (i : Fin 4) :
    fac (F := Ideal) a2 (ix1 i) = Cert.CellSpec.half * Ideal.exp (a2 (ix1 i)) := by
  unfold fac
  exact congrArg₂ (· * ·) (Cert.LibBcast.bid_scalar_apply _ _ _) rfl

/-- The clipped step at `(b, i)`. -/
theorem out_apply (a1 td pl : FVec Ideal S500000x4 .f32) (fc : FVec Ideal S4 .f32) (b : Fin 500000) (i : Fin 4) :
    out (F := Ideal) a1 td pl fc (ix2 b i)
      = min Cert.CellSpec.hi (max Cert.CellSpec.lo (a1 (ix2 b i) + fc (ix1 i) * (td (ix2 b i) + pl (ix2 b i)))) := by
  unfold out
  refine congrArg₂ min (Cert.LibBcast.bid_scalar_apply _ _ _) (congrArg₂ max (Cert.LibBcast.bid_scalar_apply _ _ _)
    (congrArg₂ (· + ·) rfl (congrArg₂ (· * ·) ?_ rfl)))
  exact bias_apply fc _ _ b i

/-- The program's second result is the cell function of its arguments. -/
theorem whole_eq_G (a0 : FVec Ideal S500000x6 .f32) (a1 : FVec Ideal S500000x4 .f32) (a2 : FVec Ideal S4 .f32) (a3 : FVec Ideal S128x10 .f32)
    (a4 : FVec Ideal S128 .f32) (a5 : FVec Ideal S15x128 .f32) (a6 : FVec Ideal S15 .f32) (a7 : FVec Ideal S128x10 .f32)
    (a8 : FVec Ideal S128 .f32) (a9 : FVec Ideal S4x128 .f32) (a10 : FVec Ideal S4 .f32) :
    whole (F := Ideal) a0 a1 a2 a3 a4 a5 a6 a7 a8 a9 a10 = Cert.CellSpec.G a0 a1 a2 a3 a4 a5 a6 a7 a8 a9 a10 := by
  funext y
  obtain ⟨b, i, rfl⟩ : ∃ (b : Fin 500000) (i : Fin 4), y = ix2 b i := ⟨y 0, y 1, eq_ix2 y⟩
  unfold whole
  rw [out_apply, fac_apply, tdiff_apply, ploss_apply, plin_apply]
  simp only [gath_idx_apply, cond_apply, hid_apply, feat_apply, temps_apply]
  rfl

end Cert.ReferenceIdeal.RefRead

end
-- ==== Proof.RefValue.lean ====
/-
  The reference's run: every weakly fair execution of @main terminates with the cell function of the eleven argument
  arrays in the second result's buffer, and the argument buffers as they were at launch.
-/
import proofs.«180992_j13649406067340_2_alg».proof.Proof.RefFold
import proofs.«180992_j13649406067340_2_alg».proof.Proof.RefRead
import proofs.«180992_j13649406067340_2_alg».proof.Proof.CellSpec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- On every device, at the extended reals, from any memory with zero counters: every weakly fair execution of @main
    terminates; its second result is the cell function of the arguments' launch contents, and the arguments are unchanged.
    The run leaves each buffer at the fold of the operations over the launch contents; the fold at the result buffer is the
    stage function of the arguments, which is the cell function index by index; no operation writes an argument buffer. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v57)
        = Cert.CellSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c main_v57).trans (RefFold.fold_out _)).trans (RefRead.whole_eq_G _ _ _ _ _ _ _ _ _ _ _),
      (h c main_arg0).trans (RefFold.fold_arg0 _),
      (h c main_arg1).trans (RefFold.fold_arg1 _),
      (h c main_arg2).trans (RefFold.fold_arg2 _),
      (h c main_arg3).trans (RefFold.fold_arg3 _),
      (h c main_arg4).trans (RefFold.fold_arg4 _),
      (h c main_arg5).trans (RefFold.fold_arg5 _),
      (h c main_arg6).trans (RefFold.fold_arg6 _),
      (h c main_arg7).trans (RefFold.fold_arg7 _),
      (h c main_arg8).trans (RefFold.fold_arg8 _),
      (h c main_arg9).trans (RefFold.fold_arg9 _),
      (h c main_arg10).trans (RefFold.fold_arg10 _)⟩)
    (RefRun.run_main m ρ)

end Cert.ReferenceIdeal.RefValue

end
-- ==== Proof.lean ====
/-
  The thermal-network cell: a Pallas kernel over batch tiles against its jnp reference, equal on the extended reals.

  Both programs return the node temperatures `hidden` unchanged and, as their second result, the clipped explicit-Euler step
  `CellSpec.G` of the eleven argument arrays: per batch row two small tanh networks over the row's ten features give fifteen
  conductances (a logistic unit) and four power losses (a smooth absolute value); each node's temperature moves by
  `½ · exp (caps) · (∑ⱼ (tempsⱼ - hid) · cond (adj j) + ploss)` and is clipped to [-1, 5].

  The reference computes this row by row with a gather of the conductances by the adjacency table. The kernel stores the batch
  along the lanes (the wrapper transposes the inputs and pads the batch axis to a whole number of tiles; the padding lanes are cut
  off again after the call), and replaces the gather and the sum over temperatures by products with four 0/1 matrices. On the
  extended reals a product with a 0/1 selector picks one term exactly (`1 · x = x`, `0 · x = 0`, a sum of zeros adds nothing, for
  infinite `x` too), a change of float format is the identity, the kernel's logistic is `1 / (1 + exp (-x))` as the reference
  spells it, and what is left differs only by the order of factors and terms in finite sums. No step uses finiteness of the inputs.

  `KerValue.run`: the idealized kernel program runs and ends with its second result at `G` of the arguments.
  `RefValue.run`: the idealized reference runs and ends with its second result at `G` of the arguments.
  The three frames: the two kernel programs' by the generated frame proofs, the reference's by its run. The idealization rewrote
  nothing, so the kernel's idealization claim is trivial.
-/
import proofs.«180992_j13649406067340_2_alg».proof.Defs
import proofs.«180992_j13649406067340_2_alg».proof.Proof.Gen.Kernel
import proofs.«180992_j13649406067340_2_alg».proof.Proof.Gen.Kernel.Skeleton
import proofs.«180992_j13649406067340_2_alg».proof.Proof.Gen.Kernel.Launch
import proofs.«180992_j13649406067340_2_alg».proof.Proof.Gen.Kernel.Points
import proofs.«180992_j13649406067340_2_alg».proof.Proof.Gen.Kernel.Frame
import proofs.«180992_j13649406067340_2_alg».proof.Proof.Gen.KernelIdeal
import proofs.«180992_j13649406067340_2_alg».proof.Proof.Gen.KernelIdeal.Skeleton
import proofs.«180992_j13649406067340_2_alg».proof.Proof.Gen.KernelIdeal.Launch
import proofs.«180992_j13649406067340_2_alg».proof.Proof.Gen.KernelIdeal.Points
import proofs.«180992_j13649406067340_2_alg».proof.Proof.Gen.KernelIdeal.Frame
import proofs.«180992_j13649406067340_2_alg».proof.Proof.Gen.ReferenceIdeal
import proofs.«180992_j13649406067340_2_alg».proof.Proof.Gen.Pre_finite_inputs
import proofs.«180992_j13649406067340_2_alg».proof.Proof.KerValue
import proofs.«180992_j13649406067340_2_alg».proof.Proof.RefValue
import Idealize.ShloMosaic.Adequacy
import Idealize.ShloMosaic.Init

noncomputable section

namespace Cert.Proof

open Idealize.ShloMosaic Idealize.SL.Sem

/-- The reference's frame: its run, the result dropped. -/
theorem frame_reference : Cert.frame_ReferenceIdeal := fun m ρ _ =>
  (θ_run Cert.ReferenceIdeal.defs _ _).mono (fun _ h c => (h c).2) (Cert.ReferenceIdeal.RefValue.run m ρ)

/-- From memories agreeing on the arguments both idealized programs end with `hidden` and with `G` of the arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => Cert.CellSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).2.2.1, (h c).1, (h c).2⟩) (Cert.KernelIdeal.KerValue.run m ρ)
  · refine (θ_run Cert.ReferenceIdeal.defs _ _).mono (fun r h c => ⟨(h c).2.2.1.trans (hagree c).2.1, (h c).1.trans ?_, (h c).2⟩)
      (Cert.ReferenceIdeal.RefValue.run m' ρ')
    obtain ⟨a0, a1, a2, a3, a4, a5, a6, a7, a8, a9, a10⟩ := hagree c
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
